-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1024x4096 : Shape := ⟨3, ![8, 1024, 4096]⟩
abbrev S8x4096x4096 : Shape := ⟨3, ![8, 4096, 4096]⟩
abbrev S8x4096x1024 : Shape := ⟨3, ![8, 4096, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x4096 : S_.BroadcastsInDim S8x4096x4096 (![] : Fin 0 → Fin S8x4096x4096.rank)
  reducesTo_S8x4096x4096_S_d0_1_2 : S8x4096x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn_part1 {F : FTy → Type} [FloatOps F] (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  main_v18

def fn {F : FTy → Type} [FloatOps F] (main_arg0 : FVec F S8x2048x1024 .f32) (main_arg1 : FVec F S8x1024x4096 .f32) (main_arg2 : FVec F S8x4096x4096 .f32) (main_arg3 : FVec F S8x4096x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096x4096 .f32 := Host.absf main_arg2
  let main_cst_2 : FVec F S_ .f32 := constant S_ .f32 0x7F800000#32
  let main_v10 : FVec F S8x4096x4096 .f32 := broadcastInDim S8x4096x4096 ![] bcast_S_S8x4096x4096 main_cst_2
  let main_v11 : IVec S8x4096x4096 1 := cmpf .olt main_v9 main_v10
  let main_c_3 : IVec S_ 1 := constantI S_ 1 1#1
  let main_v12 : IVec S_ 1 := (fun x v => Host.reduce IntOp.andi x v reducesTo_S8x4096x4096_S_d0_1_2 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_v13 main_v16
-- ==== Kernel.lean ====
abbrev S8x2048x1024 : Shape := ⟨3, ![8, 2048, 1024]⟩
abbrev S8x1024x4096 : Shape := ⟨3, ![8, 1024, 4096]⟩
abbrev S8x4096x4096 : Shape := ⟨3, ![8, 4096, 4096]⟩
abbrev S8x4096x1024 : Shape := ⟨3, ![8, 4096, 1024]⟩
abbrev S8x2048x4096 : Shape := ⟨3, ![8, 2048, 4096]⟩
abbrev S1x256x512 : Shape := ⟨3, ![1, 256, 512]⟩
abbrev S1x512x4096 : Shape := ⟨3, ![1, 512, 4096]⟩
abbrev S1x256x4096 : Shape := ⟨3, ![1, 256, 4096]⟩
abbrev S256x4096 : Shape := ⟨2, ![256, 4096]⟩
abbrev S256x512 : Shape := ⟨2, ![256, 512]⟩
abbrev S512x4096 : Shape := ⟨2, ![512, 4096]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 7
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x4096x4096, .f32⟩
  | .hbm, ⟨3, _⟩ => ⟨S8x4096x1024, .f32⟩
  | .hbm, ⟨4, _⟩ => ⟨S8x2048x4096, .bf16⟩
  | .hbm, ⟨5, _⟩ => ⟨S8x2048x4096, .bf16⟩
  | .hbm, ⟨6, _⟩ => ⟨S8x2048x1024, .f32⟩
  | .local _ .vmem, ⟨0, _⟩ => ⟨S1x256x512, .f32⟩
  | .local _ .vmem, ⟨1, _⟩ => ⟨S1x256x512, .f32⟩
  | .local _ .vmem, ⟨2, _⟩ => ⟨S1x512x4096, .f32⟩
  | .local _ .vmem, ⟨3, _⟩ => ⟨S1x512x4096, .f32⟩
  | .local _ .vmem, ⟨4, _⟩ => ⟨S1x256x4096, .bf16⟩
  | .local _ .vmem, ⟨5, _⟩ => ⟨S1x256x4096, .bf16⟩
  | .local _ .vmem, ⟨6, _⟩ => ⟨S256x4096, .f32⟩
  | .local _ .vmem, ⟨7, _⟩ => ⟨S1x256x512, .bf16⟩
  | .local _ .vmem, ⟨8, _⟩ => ⟨S1x256x512, .bf16⟩
  | .local _ .vmem, ⟨9, _⟩ => ⟨S1x512x4096, .f32⟩
  | .local _ .vmem, ⟨10, _⟩ => ⟨S1x512x4096, .f32⟩
  | .local _ .vmem, ⟨11, _⟩ => ⟨S1x256x4096, .bf16⟩
  | .local _ .vmem, ⟨12, _⟩ => ⟨S1x256x4096, .bf16⟩
  | .local _ .vmem, ⟨13, _⟩ => ⟨S256x4096, .f32⟩
  | .local _ .vmem, ⟨14, _⟩ => ⟨S1x512x1024, .bf16⟩
  | .local _ .vmem, ⟨15, _⟩ => ⟨S1x512x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1x512x1024, .f32⟩
  | .local _ .vmem, ⟨19, _⟩ => ⟨S1x512x1024, .f32⟩
  | .local _ .vmem, ⟨20, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 8, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_10 : BitVec 32 := 0#32
  let v16 : BitVec 1 := Scalar.cmpi .ne v15 c0_i32_10
  v16

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 4, 4], ![false, false, false]⟩

def k2_cond2 (i : grid2.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  packedbf16_S1x256x4096_S1x256x4096_0_0_0 : (Rect.unit (s := S1x256x4096) ![0, 0, 0] S1x256x4096.size inb_S1x256x4096_S1x256x4096_0_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S512x1024_S1x512x1024 : S512x1024.ShapeCasts S1x512x1024
  dot_S256x512_S512x4096_S256x4096_1_0_0_1_n_n_wf : DotDims.WF S256x512 S512x4096 S256x4096 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S8x2048x1024.size a
  hwx0_0 : ∀ i : grid0.Coords, EltTy.bits .f32 = 32 ∨ (Rect.block (s := S8x2048x1024) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S8x1024x4096.size a
  hwx0_1 : ∀ i : grid0.Coords, EltTy.bits .f32 = 32 ∨ (Rect.block (s := S8x1024x4096) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S8x2048x4096.size a
  hwx0_2 : ∀ i : grid0.Coords, EltTy.bits .bf16 = 32 ∨ (Rect.block (s := S8x2048x4096) S1x256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S8x2048x4096.size a
  hwx1_0 : ∀ i : grid1.Coords, EltTy.bits .bf16 = 32 ∨ (Rect.block (s := S8x2048x4096) S1x256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x4096.size a ≤ S8x4096x4096.size a
  hwx1_1 : ∀ i : grid1.Coords, EltTy.bits .f32 = 32 ∨ (Rect.block (s := S8x4096x4096) S1x512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x4096.size a ≤ S8x2048x4096.size a
  hwx1_2 : ∀ i : grid1.Coords, EltTy.bits .bf16 = 32 ∨ (Rect.block (s := S8x2048x4096) S1x256x4096.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S8x2048x4096.size a
  hwx2_0 : ∀ i : grid2.Coords, EltTy.bits .bf16 = 32 ∨ (Rect.block (s := S8x2048x4096) S1x512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S8x4096x1024.size a
  hwx2_1 : ∀ i : grid2.Coords, EltTy.bits .f32 = 32 ∨ (Rect.block (s := S8x4096x1024) S1x1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1024.size a ≤ S8x2048x1024.size a
  hwx2_2 : ∀ i : grid2.Coords, EltTy.bits .f32 = 32 ∨ (Rect.block (s := S8x2048x1024) S1x512x1024.size (cc2_transform_2 i) (hinb2_2 i)).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v1) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x1024x4096 : Shape := ⟨3, ![8, 1024, 4096]⟩
abbrev S8x4096x4096 : Shape := ⟨3, ![8, 4096, 4096]⟩
abbrev S8x4096x1024 : Shape := ⟨3, ![8, 4096, 1024]⟩
abbrev S8x2048x4096 : Shape := ⟨3, ![8, 2048, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x4096x4096, .f32⟩
  | .hbm, ⟨3, _⟩ => ⟨S8x4096x1024, .f32⟩
  | .hbm, ⟨4, _⟩ => ⟨S8x2048x4096, .f32⟩
  | .hbm, ⟨5, _⟩ => ⟨S_, .f32⟩
  | .hbm, ⟨6, _⟩ => ⟨S8x2048x4096, .f32⟩
  | .hbm, ⟨7, _⟩ => ⟨S8x2048x4096, .i1⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S8x2048x4096, .f32⟩
  | .hbm, ⟨12, _⟩ => ⟨S8x2048x4096, .f32⟩
  | .hbm, ⟨13, _⟩ => ⟨S_, .f32⟩
  | .hbm, ⟨14, _⟩ => ⟨S8x2048x4096, .f32⟩
  | .hbm, ⟨15, _⟩ => ⟨S8x2048x4096, .i1⟩
  | .hbm, ⟨16, _⟩ => ⟨S_, .f32⟩
  | .hbm, ⟨17, _⟩ => ⟨S8x2048x4096, .f32⟩
  | .hbm, ⟨18, _⟩ => ⟨S8x2048x4096, .f32⟩
  | .hbm, ⟨19, _⟩ => ⟨S8x2048x4096, .f32⟩
  | .hbm, ⟨20, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x1024_S8x1024x4096_S8x2048x4096_2_1_1_2_0_0_wf : DotDims.WF S8x2048x1024 S8x1024x4096 S8x2048x4096 [2] [1] [1] [2] [0] [0]
  dot_S8x2048x4096_S8x4096x4096_S8x2048x4096_2_1_1_2_0_0_wf : DotDims.WF S8x2048x4096 S8x4096x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x4096_S8x2048x4096_2_1_1_2_0_0 : DotDims S8x2048x4096 S8x4096x4096 S8x2048x4096 where
  lhsContracting := [2]
  rhsContracting := [1]
  lhsNonContracting := [1]
  rhsNonContracting := [2]
  lhsBatch := [0]
  rhsBatch := [0]
  wf := dot_S8x2048x4096_S8x4096x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.KB.R0Shared.lean ====
import proofs.«174921_j76965813944408_2_alg».proof.Proof.Gen.Kernel.Launch
import proofs.«174921_j76965813944408_2_alg».proof.Proof.Gen.Kernel.Skeleton
import proofs.«174921_j76965813944408_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Stage 1: what its per-case runs are stated over

The stage kernel runs on a grid (expert, row block, contraction tile), the contraction tile innermost. It zeroes its
accumulator at tile 0, adds one tile's product at every tile, and stores the output block at the last tile. -/

section
variable (V : (c : Dev nD) → (b : Ref sig .tc) → Buf (Elt F) ((c : Thread nD τ).loc b))

/-- Window `w`'s block at point `t`, read off its array as the stage finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions, in closed form over the grid -/

/-- "This is contraction tile 0": the accumulator is zeroed. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- "This is the last contraction tile": the output block is stored. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1x256x4096 .bf16 := (Memref.whole cc0_stg2_0 : Memref sig .tc .vmem S1x256x4096 .bf16).view
abbrev ms0_0 (t : Fin cfg0.N) : Memref sig .tc .vmem S1x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x4096 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S256x4096 .f32 := Memref.whole cc0_scratch0
abbrev VS0_0 : View sig .tc .vmem S256x4096 .f32 := scM0_0.view

/-- Every scoped buffer that is neither a staging buffer of this stage nor its accumulator, at some contents: carried
    through the stage unopened. -/
def rest0 (c : Dev nD) : sProp 𝕄 :=
  Pipeline.scopedRestBut (Ix := Unit) (Name := ℕ) (U := UR sig nD τ) (Lvl := ℕ) (Val := Elt F) spec0 c [cc0_scratch0]

/-- The stage's invariant before its first point: the accumulator at some contents, the other scoped buffers, the
    generator register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0
  rw [Pipeline.scopedRest_split_of_list spec0 c [cc0_scratch0] (by decide) (by decide)]
  simp only [bigSepL, scM0_0, owns_whole]; try rfl

end Cert.Kernel.Hand

end
-- ==== Proof.KB.R0RunA.lean ====
import proofs.«174921_j76965813944408_2_alg».proof.Proof.KB.R0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-1 kernel body on whole memrefs at contraction tile 0 (not the last): the accumulator, at anything, is zeroed and then holds the first product; the output window is handed back untouched. What its stores leave is given as lists of pieces
    (last store first) that the symbolic run of the body finds. -/
noncomputable def kernelRun0_A (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) :
    Σ' (L2 : List (View.Piece (Elt F) S1x256x4096 .bf16)), { LS0 : List (View.Piece (Elt F) S256x4096 .f32) //
      ∀ (xi2 : Vec F S1x256x4096 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__stage_kernel i arg3 harg3 arg4 harg4 arg5 harg5 arg6 harg6) K } := by
  refine ⟨[], ?_, fun xi2 E K => ?run⟩
  case run =>
    simp only [cc0__stage_kernel_eq_skeleton]; unfold cc0__stage_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KB.R0RunB.lean ====
import proofs.«174921_j76965813944408_2_alg».proof.Proof.KB.R0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-1 kernel body on whole memrefs at a middle contraction tile: the accumulator, at what the point before left, gains one product; the output window is handed back untouched. What its stores leave is given as lists of pieces
    (last store first) that the symbolic run of the body finds. -/
noncomputable def kernelRun0_B (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) :
    Σ' (L2 : List (View.Piece (Elt F) S1x256x4096 .bf16)), { LS0 : List (View.Piece (Elt F) S256x4096 .f32) //
      ∀ (xi2 : Vec F S1x256x4096 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__stage_kernel i arg3 harg3 arg4 harg4 arg5 harg5 arg6 harg6) K } := by
  refine ⟨[], ?_, fun xi2 E K => ?run⟩
  case run =>
    simp only [cc0__stage_kernel_eq_skeleton]; unfold cc0__stage_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KB.R0RunC.lean ====
import proofs.«174921_j76965813944408_2_alg».proof.Proof.KB.R0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-1 kernel body on whole memrefs at the last contraction tile (not tile 0): the accumulator gains the last product and the output block is stored from it. What its stores leave is given as lists of pieces
    (last store first) that the symbolic run of the body finds. -/
noncomputable def kernelRun0_C (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) :
    Σ' (L2 : List (View.Piece (Elt F) S1x256x4096 .bf16)), { LS0 : List (View.Piece (Elt F) S256x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__stage_kernel i arg3 harg3 arg4 harg4 arg5 harg5 arg6 harg6) K } := by
  refine ⟨?_, ?_, fun E K => ?run⟩
  case run =>
    simp only [cc0__stage_kernel_eq_skeleton]; unfold cc0__stage_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.KB.R0Frame.lean ====
import proofs.«174921_j76965813944408_2_alg».proof.Proof.KB.R0RunA
import proofs.«174921_j76965813944408_2_alg».proof.Proof.KB.R0RunB
import proofs.«174921_j76965813944408_2_alg».proof.Proof.KB.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Stage 1: what each case leaves, the accumulation point by point, the invariant and the body obligation -/

/-- The output window's buffer in case A: nothing is stored (a placeholder nothing consults: the window is idle and not written back there). -/
def out0_A_2 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) : Vec F S1x256x4096 .bf16 :=
  VO0_2.read (Elt F) (VO0_2.writes (Elt F) VO0_2.junk (kernelRun0_A c i arg3 harg3 arg4 harg4 arg5 harg5 arg6 harg6 hc0 hc1 x0 x1).1)

/-- In case A the pieces stored into the accumulator tile it. -/
theorem scover0_A_0 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) (y : S256x4096.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S256x4096.size (by sl_kernel_rfl) y

/-- What case A leaves in the accumulator. -/
def sout0_A_0 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) : Vec F S256x4096 .f32 :=
  VS0_0.read (Elt F) (VS0_0.writes (Elt F) VS0_0.junk (kernelRun0_A c i arg3 harg3 arg4 harg4 arg5 harg5 arg6 harg6 hc0 hc1 x0 x1).2.1)

/-- The output window's buffer in case B: nothing is stored (a placeholder nothing consults: the window is idle and not written back there). -/
def out0_B_2 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) : Vec F S1x256x4096 .bf16 :=
  VO0_2.read (Elt F) (VO0_2.writes (Elt F) VO0_2.junk (kernelRun0_B c i arg3 harg3 arg4 harg4 arg5 harg5 arg6 harg6 hc0 hc1 x0 x1 xs0).1)

/-- In case B the pieces stored into the accumulator tile it. -/
theorem scover0_B_0 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) (y : S256x4096.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S256x4096.size (by sl_kernel_rfl) y

/-- What case B leaves in the accumulator. -/
def sout0_B_0 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) : Vec F S256x4096 .f32 :=
  VS0_0.read (Elt F) (VS0_0.writes (Elt F) VS0_0.junk (kernelRun0_B c i arg3 harg3 arg4 harg4 arg5 harg5 arg6 harg6 hc0 hc1 x0 x1 xs0).2.1)

/-- The output window's buffer in case C: the pieces the run stored, read back. -/
def out0_C_2 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) : Vec F S1x256x4096 .bf16 :=
  VO0_2.read (Elt F) (VO0_2.writes (Elt F) VO0_2.junk (kernelRun0_C c i arg3 harg3 arg4 harg4 arg5 harg5 arg6 harg6 hc0 hc1 x0 x1 xs0).1)

/-- In case C the stored pieces tile the output block. -/
theorem cover0_C_2 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) (y : S1x256x4096.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x256x4096.size (by sl_kernel_rfl) y

/-- In case C the pieces stored into the accumulator tile it. -/
theorem scover0_C_0 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) (y : S256x4096.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S256x4096.size (by sl_kernel_rfl) y

/-- What case C leaves in the accumulator. -/
def sout0_C_0 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) : Vec F S256x4096 .f32 :=
  VS0_0.read (Elt F) (VS0_0.writes (Elt F) VS0_0.junk (kernelRun0_C c i arg3 harg3 arg4 harg4 arg5 harg5 arg6 harg6 hc0 hc1 x0 x1 xs0).2.1)

section
variable (V : (c : Dev nD) → (b : Ref sig .tc) → Buf (Elt F) ((c : Thread nD τ).loc b))

/-- THE ACCUMULATION. After the body at position `n`: what the output window's buffer and the accumulator hold. At
    contraction tile 0 the accumulator restarts from zero; at every later tile it is what the tile before left plus this
    tile's product; the output block is stored from it at the last tile. -/
def outsAt0 (c : Dev nD) : (n : ℕ) → n < cfg0.N → Vec F S1x256x4096 .bf16 × Vec F S256x4096 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 2 = 0 then
      if h1 : (n + 1) % 2 = 1 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 2 = 1 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 2 = 0) (h1 : ¬t.val % 2 = 1) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 2 = 0) (h1 : ¬t.val % 2 = 1) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 2 = 0) (h1 : t.val % 2 = 1) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The stage's invariant before position `n`: before the first point the accumulator holds anything; afterwards it
    holds what the point before left. The other scoped buffers and the generator register ride along. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-- The stage's proof data on core `c`: the arrays as the stage finds them; after the body each input's buffer at its
    block and the output's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the closed forms of the two conditions say which case the
    point is in; the invariant hands the body the accumulator (at anything at the first point, else at what the point
    before left) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 2 = 0
  · by_cases h1 : t.val % 2 = 1
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 2 = 1
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _)
            iexact HR
          iexact Hg
        isplitl [Ho]; · iexact Ho
        isplitl [H0]; · iexact H0
        isplitl [H1]; · iexact H1
        iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the stage is the invariant before the first point. -/
theorem hinΦ0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's form back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem houtΦ0 (c : Dev nD) : (dat0 V c).Φ (Fin.last cfg0.N) ⊢ Pipeline.ΦA spec0 c :=
  Phi_out0 V c _ (by rw [Fin.val_last]; have : cfg0.N = 128 := N_0; omega)

end

end Cert.Kernel.Hand

end
-- ==== Proof.KB.R1Shared.lean ====
import proofs.«174921_j76965813944408_2_alg».proof.Proof.Gen.Kernel.Launch
import proofs.«174921_j76965813944408_2_alg».proof.Proof.Gen.Kernel.Skeleton
import proofs.«174921_j76965813944408_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Stage 2: what its per-case runs are stated over

The stage kernel runs on a grid (expert, row block, contraction tile), the contraction tile innermost. It zeroes its
accumulator at tile 0, adds one tile's product at every tile, and stores the output block at the last tile. -/

section
variable (V : (c : Dev nD) → (b : Ref sig .tc) → Buf (Elt F) ((c : Thread nD τ).loc b))

/-- Window `w`'s block at point `t`, read off its array as the stage finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions, in closed form over the grid -/

/-- "This is contraction tile 0": the accumulator is zeroed. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last contraction tile": the output block is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1x256x4096 .bf16 := (Memref.whole cc1_stg2_0 : Memref sig .tc .vmem S1x256x4096 .bf16).view
abbrev ms1_0 (t : Fin cfg1.N) : Memref sig .tc .vmem S1x256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x4096 .bf16 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S256x4096 .f32 := Memref.whole cc1_scratch0
abbrev VS1_0 : View sig .tc .vmem S256x4096 .f32 := scM1_0.view

/-- Every scoped buffer that is neither a staging buffer of this stage nor its accumulator, at some contents: carried
    through the stage unopened. -/
def rest1 (c : Dev nD) : sProp 𝕄 :=
  Pipeline.scopedRestBut (Ix := Unit) (Name := ℕ) (U := UR sig nD τ) (Lvl := ℕ) (Val := Elt F) spec1 c [cc1_scratch0]

/-- The stage's invariant before its first point: the accumulator at some contents, the other scoped buffers, the
    generator register at some state. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA rest1
  rw [Pipeline.scopedRest_split_of_list spec1 c [cc1_scratch0] (by decide) (by decide)]
  simp only [bigSepL, scM1_0, owns_whole]; try rfl

end Cert.Kernel.Hand

end
-- ==== Proof.KB.R1RunA.lean ====
import proofs.«174921_j76965813944408_2_alg».proof.Proof.KB.R1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-2 kernel body on whole memrefs at contraction tile 0 (not the last): the accumulator, at anything, is zeroed and then holds the first product; the output window is handed back untouched. What its stores leave is given as lists of pieces
    (last store first) that the symbolic run of the body finds. -/
noncomputable def kernelRun1_A (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : cond1_0 i) (hc1 : ¬cond1_1 i)
    (x0 : Vec F S1x256x512 .bf16) (x1 : Vec F S1x512x4096 .f32) :
    Σ' (L2 : List (View.Piece (Elt F) S1x256x4096 .bf16)), { LS0 : List (View.Piece (Elt F) S256x4096 .f32) //
      ∀ (xi2 : Vec F S1x256x4096 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__stage_kernel i arg3 harg3 arg4 harg4 arg5 harg5 arg6 harg6) K } := by
  refine ⟨[], ?_, fun xi2 E K => ?run⟩
  case run =>
    simp only [cc1__stage_kernel_eq_skeleton]; unfold cc1__stage_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KB.R1RunB.lean ====
import proofs.«174921_j76965813944408_2_alg».proof.Proof.KB.R1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-2 kernel body on whole memrefs at a middle contraction tile: the accumulator, at what the point before left, gains one product; the output window is handed back untouched. What its stores leave is given as lists of pieces
    (last store first) that the symbolic run of the body finds. -/
noncomputable def kernelRun1_B (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : ¬cond1_1 i)
    (x0 : Vec F S1x256x512 .bf16) (x1 : Vec F S1x512x4096 .f32) (xs0 : Vec F S256x4096 .f32) :
    Σ' (L2 : List (View.Piece (Elt F) S1x256x4096 .bf16)), { LS0 : List (View.Piece (Elt F) S256x4096 .f32) //
      ∀ (xi2 : Vec F S1x256x4096 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__stage_kernel i arg3 harg3 arg4 harg4 arg5 harg5 arg6 harg6) K } := by
  refine ⟨[], ?_, fun xi2 E K => ?run⟩
  case run =>
    simp only [cc1__stage_kernel_eq_skeleton]; unfold cc1__stage_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KB.R1RunC.lean ====
import proofs.«174921_j76965813944408_2_alg».proof.Proof.KB.R1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-2 kernel body on whole memrefs at the last contraction tile (not tile 0): the accumulator gains the last product and the output block is stored from it. What its stores leave is given as lists of pieces
    (last store first) that the symbolic run of the body finds. -/
noncomputable def kernelRun1_C (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : cond1_1 i)
    (x0 : Vec F S1x256x512 .bf16) (x1 : Vec F S1x512x4096 .f32) (xs0 : Vec F S256x4096 .f32) :
    Σ' (L2 : List (View.Piece (Elt F) S1x256x4096 .bf16)), { LS0 : List (View.Piece (Elt F) S256x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__stage_kernel i arg3 harg3 arg4 harg4 arg5 harg5 arg6 harg6) K } := by
  refine ⟨?_, ?_, fun E K => ?run⟩
  case run =>
    simp only [cc1__stage_kernel_eq_skeleton]; unfold cc1__stage_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.KB.R1Frame.lean ====
import proofs.«174921_j76965813944408_2_alg».proof.Proof.KB.R1RunA
import proofs.«174921_j76965813944408_2_alg».proof.Proof.KB.R1RunB
import proofs.«174921_j76965813944408_2_alg».proof.Proof.KB.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Stage 2: what each case leaves, the accumulation point by point, the invariant and the body obligation -/

/-- The output window's buffer in case A: nothing is stored (a placeholder nothing consults: the window is idle and not written back there). -/
def out1_A_2 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : cond1_0 i) (hc1 : ¬cond1_1 i)
    (x0 : Vec F S1x256x512 .bf16) (x1 : Vec F S1x512x4096 .f32) : Vec F S1x256x4096 .bf16 :=
  VO1_2.read (Elt F) (VO1_2.writes (Elt F) VO1_2.junk (kernelRun1_A c i arg3 harg3 arg4 harg4 arg5 harg5 arg6 harg6 hc0 hc1 x0 x1).1)

/-- In case A the pieces stored into the accumulator tile it. -/
theorem scover1_A_0 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : cond1_0 i) (hc1 : ¬cond1_1 i)
    (x0 : Vec F S1x256x512 .bf16) (x1 : Vec F S1x512x4096 .f32) (y : S256x4096.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S256x4096.size (by sl_kernel_rfl) y

/-- What case A leaves in the accumulator. -/
def sout1_A_0 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : cond1_0 i) (hc1 : ¬cond1_1 i)
    (x0 : Vec F S1x256x512 .bf16) (x1 : Vec F S1x512x4096 .f32) : Vec F S256x4096 .f32 :=
  VS1_0.read (Elt F) (VS1_0.writes (Elt F) VS1_0.junk (kernelRun1_A c i arg3 harg3 arg4 harg4 arg5 harg5 arg6 harg6 hc0 hc1 x0 x1).2.1)

/-- The output window's buffer in case B: nothing is stored (a placeholder nothing consults: the window is idle and not written back there). -/
def out1_B_2 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : ¬cond1_1 i)
    (x0 : Vec F S1x256x512 .bf16) (x1 : Vec F S1x512x4096 .f32) (xs0 : Vec F S256x4096 .f32) : Vec F S1x256x4096 .bf16 :=
  VO1_2.read (Elt F) (VO1_2.writes (Elt F) VO1_2.junk (kernelRun1_B c i arg3 harg3 arg4 harg4 arg5 harg5 arg6 harg6 hc0 hc1 x0 x1 xs0).1)

/-- In case B the pieces stored into the accumulator tile it. -/
theorem scover1_B_0 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : ¬cond1_1 i)
    (x0 : Vec F S1x256x512 .bf16) (x1 : Vec F S1x512x4096 .f32) (xs0 : Vec F S256x4096 .f32) (y : S256x4096.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S256x4096.size (by sl_kernel_rfl) y

/-- What case B leaves in the accumulator. -/
def sout1_B_0 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : ¬cond1_1 i)
    (x0 : Vec F S1x256x512 .bf16) (x1 : Vec F S1x512x4096 .f32) (xs0 : Vec F S256x4096 .f32) : Vec F S256x4096 .f32 :=
  VS1_0.read (Elt F) (VS1_0.writes (Elt F) VS1_0.junk (kernelRun1_B c i arg3 harg3 arg4 harg4 arg5 harg5 arg6 harg6 hc0 hc1 x0 x1 xs0).2.1)

/-- The output window's buffer in case C: the pieces the run stored, read back. -/
def out1_C_2 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : cond1_1 i)
    (x0 : Vec F S1x256x512 .bf16) (x1 : Vec F S1x512x4096 .f32) (xs0 : Vec F S256x4096 .f32) : Vec F S1x256x4096 .bf16 :=
  VO1_2.read (Elt F) (VO1_2.writes (Elt F) VO1_2.junk (kernelRun1_C c i arg3 harg3 arg4 harg4 arg5 harg5 arg6 harg6 hc0 hc1 x0 x1 xs0).1)

/-- In case C the stored pieces tile the output block. -/
theorem cover1_C_2 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : cond1_1 i)
    (x0 : Vec F S1x256x512 .bf16) (x1 : Vec F S1x512x4096 .f32) (xs0 : Vec F S256x4096 .f32) (y : S1x256x4096.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1x256x4096.size (by sl_kernel_rfl) y

/-- In case C the pieces stored into the accumulator tile it. -/
theorem scover1_C_0 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : cond1_1 i)
    (x0 : Vec F S1x256x512 .bf16) (x1 : Vec F S1x512x4096 .f32) (xs0 : Vec F S256x4096 .f32) (y : S256x4096.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S256x4096.size (by sl_kernel_rfl) y

/-- What case C leaves in the accumulator. -/
def sout1_C_0 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : cond1_1 i)
    (x0 : Vec F S1x256x512 .bf16) (x1 : Vec F S1x512x4096 .f32) (xs0 : Vec F S256x4096 .f32) : Vec F S256x4096 .f32 :=
  VS1_0.read (Elt F) (VS1_0.writes (Elt F) VS1_0.junk (kernelRun1_C c i arg3 harg3 arg4 harg4 arg5 harg5 arg6 harg6 hc0 hc1 x0 x1 xs0).2.1)

section
variable (V : (c : Dev nD) → (b : Ref sig .tc) → Buf (Elt F) ((c : Thread nD τ).loc b))

/-- THE ACCUMULATION. After the body at position `n`: what the output window's buffer and the accumulator hold. At
    contraction tile 0 the accumulator restarts from zero; at every later tile it is what the tile before left plus this
    tile's product; the output block is stored from it at the last tile. -/
def outsAt1 (c : Dev nD) : (n : ℕ) → n < cfg1.N → Vec F S1x256x4096 .bf16 × Vec F S256x4096 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The stage's invariant before position `n`: before the first point the accumulator holds anything; afterwards it
    holds what the point before left. The other scoped buffers and the generator register ride along. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-- The stage's proof data on core `c`: the arrays as the stage finds them; after the body each input's buffer at its
    block and the output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the closed forms of the two conditions say which case the
    point is in; the invariant hands the body the accumulator (at anything at the first point, else at what the point
    before left) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _)
            iexact HR
          iexact Hg
        isplitl [Ho]; · iexact Ho
        isplitl [H0]; · iexact H0
        isplitl [H1]; · iexact H1
        iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the stage is the invariant before the first point. -/
theorem hinΦ1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem houtΦ1 (c : Dev nD) : (dat1 V c).Φ (Fin.last cfg1.N) ⊢ Pipeline.ΦA spec1 c :=
  Phi_out1 V c _ (by rw [Fin.val_last]; have : cfg1.N = 512 := N_1; omega)

end

end Cert.Kernel.Hand

end
-- ==== Proof.KB.R2Shared.lean ====
import proofs.«174921_j76965813944408_2_alg».proof.Proof.Gen.Kernel.Launch
import proofs.«174921_j76965813944408_2_alg».proof.Proof.Gen.Kernel.Skeleton
import proofs.«174921_j76965813944408_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Stage 3: what its per-case runs are stated over

The stage kernel runs on a grid (expert, row block, contraction tile), the contraction tile innermost. It zeroes its
accumulator at tile 0, adds one tile's product at every tile, and stores the output block at the last tile. -/

section
variable (V : (c : Dev nD) → (b : Ref sig .tc) → Buf (Elt F) ((c : Thread nD τ).loc b))

/-- Window `w`'s block at point `t`, read off its array as the stage finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activation window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end

/-! ## The two branch conditions, in closed form over the grid -/

/-- "This is contraction tile 0": the accumulator is zeroed. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "This is the last contraction tile": the output block is stored. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the output window is idle -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
theorem liveAt2_2_C : ∀ t : Fin cfg2.N, ¬cond2_0 (grid2.coords t) → cond2_1 (grid2.coords t) → cfg2.idle 2 (grid2.coords t) = false := by decide +kernel

/-! ## The memrefs the body is called with -/

/-- One staging buffer of the output window, through which its contents are stated. -/
abbrev VO2_2 : View sig .tc .vmem S1x512x1024 .f32 := (Memref.whole cc2_stg2_0 : Memref sig .tc .vmem S1x512x1024 .f32).view
abbrev ms2_0 (t : Fin cfg2.N) : Memref sig .tc .vmem S1x512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x1024 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S512x1024 .f32 := Memref.whole cc2_scratch0
abbrev VS2_0 : View sig .tc .vmem S512x1024 .f32 := scM2_0.view

/-- Every scoped buffer that is neither a staging buffer of this stage nor its accumulator, at some contents: carried
    through the stage unopened. -/
def rest2 (c : Dev nD) : sProp 𝕄 :=
  Pipeline.scopedRestBut (Ix := Unit) (Name := ℕ) (U := UR sig nD τ) (Lvl := ℕ) (Val := Elt F) spec2 c [cc2_scratch0]

/-- The stage's invariant before its first point: the accumulator at some contents, the other scoped buffers, the
    generator register at some state. -/
theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA rest2
  rw [Pipeline.scopedRest_split_of_list spec2 c [cc2_scratch0] (by decide) (by decide)]
  simp only [bigSepL, scM2_0, owns_whole]; try rfl

end Cert.Kernel.Hand

end
-- ==== Proof.KB.R2RunA.lean ====
import proofs.«174921_j76965813944408_2_alg».proof.Proof.KB.R2Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-3 kernel body on whole memrefs at contraction tile 0 (not the last): the accumulator, at anything, is zeroed and then holds the first product; the output window is handed back untouched. What its stores leave is given as lists of pieces
    (last store first) that the symbolic run of the body finds. -/
noncomputable def kernelRun2_A (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : cond2_0 i) (hc1 : ¬cond2_1 i)
    (x0 : Vec F S1x512x1024 .bf16) (x1 : Vec F S1x1024x1024 .f32) :
    Σ' (L2 : List (View.Piece (Elt F) S1x512x1024 .f32)), { LS0 : List (View.Piece (Elt F) S512x1024 .f32) //
      ∀ (xi2 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__stage_kernel i arg3 harg3 arg4 harg4 arg5 harg5 arg6 harg6) K } := by
  refine ⟨[], ?_, fun xi2 E K => ?run⟩
  case run =>
    simp only [cc2__stage_kernel_eq_skeleton]; unfold cc2__stage_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KB.R2RunB.lean ====
import proofs.«174921_j76965813944408_2_alg».proof.Proof.KB.R2Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-3 kernel body on whole memrefs at a middle contraction tile: the accumulator, at what the point before left, gains one product; the output window is handed back untouched. What its stores leave is given as lists of pieces
    (last store first) that the symbolic run of the body finds. -/
noncomputable def kernelRun2_B (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : ¬cond2_1 i)
    (x0 : Vec F S1x512x1024 .bf16) (x1 : Vec F S1x1024x1024 .f32) (xs0 : Vec F S512x1024 .f32) :
    Σ' (L2 : List (View.Piece (Elt F) S1x512x1024 .f32)), { LS0 : List (View.Piece (Elt F) S512x1024 .f32) //
      ∀ (xi2 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__stage_kernel i arg3 harg3 arg4 harg4 arg5 harg5 arg6 harg6) K } := by
  refine ⟨[], ?_, fun xi2 E K => ?run⟩
  case run =>
    simp only [cc2__stage_kernel_eq_skeleton]; unfold cc2__stage_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KB.R2RunC.lean ====
import proofs.«174921_j76965813944408_2_alg».proof.Proof.KB.R2Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-3 kernel body on whole memrefs at the last contraction tile (not tile 0): the accumulator gains the last product and the output block is stored from it. What its stores leave is given as lists of pieces
    (last store first) that the symbolic run of the body finds. -/
noncomputable def kernelRun2_C (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : cond2_1 i)
    (x0 : Vec F S1x512x1024 .bf16) (x1 : Vec F S1x1024x1024 .f32) (xs0 : Vec F S512x1024 .f32) :
    Σ' (L2 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__stage_kernel i arg3 harg3 arg4 harg4 arg5 harg5 arg6 harg6) K } := by
  refine ⟨?_, ?_, fun E K => ?run⟩
  case run =>
    simp only [cc2__stage_kernel_eq_skeleton]; unfold cc2__stage_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.KB.R2Frame.lean ====
import proofs.«174921_j76965813944408_2_alg».proof.Proof.KB.R2RunA
import proofs.«174921_j76965813944408_2_alg».proof.Proof.KB.R2RunB
import proofs.«174921_j76965813944408_2_alg».proof.Proof.KB.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Stage 3: what each case leaves, the accumulation point by point, the invariant and the body obligation -/

/-- The output window's buffer in case A: nothing is stored (a placeholder nothing consults: the window is idle and not written back there). -/
def out2_A_2 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : cond2_0 i) (hc1 : ¬cond2_1 i)
    (x0 : Vec F S1x512x1024 .bf16) (x1 : Vec F S1x1024x1024 .f32) : Vec F S1x512x1024 .f32 :=
  VO2_2.read (Elt F) (VO2_2.writes (Elt F) VO2_2.junk (kernelRun2_A c i arg3 harg3 arg4 harg4 arg5 harg5 arg6 harg6 hc0 hc1 x0 x1).1)

/-- In case A the pieces stored into the accumulator tile it. -/
theorem scover2_A_0 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : cond2_0 i) (hc1 : ¬cond2_1 i)
    (x0 : Vec F S1x512x1024 .bf16) (x1 : Vec F S1x1024x1024 .f32) (y : S512x1024.Idx) :
    ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S512x1024.size (by sl_kernel_rfl) y

/-- What case A leaves in the accumulator. -/
def sout2_A_0 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : cond2_0 i) (hc1 : ¬cond2_1 i)
    (x0 : Vec F S1x512x1024 .bf16) (x1 : Vec F S1x1024x1024 .f32) : Vec F S512x1024 .f32 :=
  VS2_0.read (Elt F) (VS2_0.writes (Elt F) VS2_0.junk (kernelRun2_A c i arg3 harg3 arg4 harg4 arg5 harg5 arg6 harg6 hc0 hc1 x0 x1).2.1)

/-- The output window's buffer in case B: nothing is stored (a placeholder nothing consults: the window is idle and not written back there). -/
def out2_B_2 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : ¬cond2_1 i)
    (x0 : Vec F S1x512x1024 .bf16) (x1 : Vec F S1x1024x1024 .f32) (xs0 : Vec F S512x1024 .f32) : Vec F S1x512x1024 .f32 :=
  VO2_2.read (Elt F) (VO2_2.writes (Elt F) VO2_2.junk (kernelRun2_B c i arg3 harg3 arg4 harg4 arg5 harg5 arg6 harg6 hc0 hc1 x0 x1 xs0).1)

/-- In case B the pieces stored into the accumulator tile it. -/
theorem scover2_B_0 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : ¬cond2_1 i)
    (x0 : Vec F S1x512x1024 .bf16) (x1 : Vec F S1x1024x1024 .f32) (xs0 : Vec F S512x1024 .f32) (y : S512x1024.Idx) :
    ∃ pc ∈ (kernelRun2_B c i arg3 harg3 arg4 harg4 arg5 harg5 arg6 harg6 hc0 hc1 x0 x1 xs0).2.1, y ∈ pc.1.set :=
  View.cover_of_tiledL (kernelRun2_B c i arg3 harg3 arg4 harg4 arg5 harg5 arg6 harg6 hc0 hc1 x0 x1 xs0).2.1 S512x1024.size (by sl_kernel_rfl) y

/-- What case B leaves in the accumulator. -/
def sout2_B_0 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : ¬cond2_1 i)
    (x0 : Vec F S1x512x1024 .bf16) (x1 : Vec F S1x1024x1024 .f32) (xs0 : Vec F S512x1024 .f32) : Vec F S512x1024 .f32 :=
  VS2_0.read (Elt F) (VS2_0.writes (Elt F) VS2_0.junk (kernelRun2_B c i arg3 harg3 arg4 harg4 arg5 harg5 arg6 harg6 hc0 hc1 x0 x1 xs0).2.1)

/-- The output window's buffer in case C: the pieces the run stored, read back. -/
def out2_C_2 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : cond2_1 i)
    (x0 : Vec F S1x512x1024 .bf16) (x1 : Vec F S1x1024x1024 .f32) (xs0 : Vec F S512x1024 .f32) : Vec F S1x512x1024 .f32 :=
  VO2_2.read (Elt F) (VO2_2.writes (Elt F) VO2_2.junk (kernelRun2_C c i arg3 harg3 arg4 harg4 arg5 harg5 arg6 harg6 hc0 hc1 x0 x1 xs0).1)

/-- In case C the stored pieces tile the output block. -/
theorem cover2_C_2 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : cond2_1 i)
    (x0 : Vec F S1x512x1024 .bf16) (x1 : Vec F S1x1024x1024 .f32) (xs0 : Vec F S512x1024 .f32) (y : S1x512x1024.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S1x512x1024.size (by sl_kernel_rfl) y

/-- In case C the pieces stored into the accumulator tile it. -/
theorem scover2_C_0 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : cond2_1 i)
    (x0 : Vec F S1x512x1024 .bf16) (x1 : Vec F S1x1024x1024 .f32) (xs0 : Vec F S512x1024 .f32) (y : S512x1024.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S512x1024.size (by sl_kernel_rfl) y

/-- What case C leaves in the accumulator. -/
def sout2_C_0 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : cond2_1 i)
    (x0 : Vec F S1x512x1024 .bf16) (x1 : Vec F S1x1024x1024 .f32) (xs0 : Vec F S512x1024 .f32) : Vec F S512x1024 .f32 :=
  VS2_0.read (Elt F) (VS2_0.writes (Elt F) VS2_0.junk (kernelRun2_C c i arg3 harg3 arg4 harg4 arg5 harg5 arg6 harg6 hc0 hc1 x0 x1 xs0).2.1)

section
variable (V : (c : Dev nD) → (b : Ref sig .tc) → Buf (Elt F) ((c : Thread nD τ).loc b))

/-- THE ACCUMULATION. After the body at position `n`: what the output window's buffer and the accumulator hold. At
    contraction tile 0 the accumulator restarts from zero; at every later tile it is what the tile before left plus this
    tile's product; the output block is stored from it at the last tile. -/
def outsAt2 (c : Dev nD) : (n : ℕ) → n < cfg2.N → Vec F S1x512x1024 .f32 × Vec F S512x1024 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The stage's invariant before position `n`: before the first point the accumulator holds anything; afterwards it
    holds what the point before left. The other scoped buffers and the generator register ride along. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 c) ∗ (∃ r, prngReg c r)) := by
  cases n with
  | zero => exact absurd rfl hz
  | succ n => rfl

/-- The stage's proof data on core `c`: the arrays as the stage finds them; after the body each input's buffer at its
    block and the output's at the accumulation's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; the closed forms of the two conditions say which case the
    point is in; the invariant hands the body the accumulator (at anything at the first point, else at what the point
    before left) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _)
            iexact HR
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_C c (grid2.coords t) _ _ _ _ _ _ _ _ (fun h => h0 ((hcond2_0 t).mp h)) ((hcond2_1 t).mpr h1) (iblk2 V c 0 t) (iblk2 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover2_C_2 c _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _)
            iexact HR
          iexact Hg
        isplitl [Ho]; · iexact Ho
        isplitl [H0]; · iexact H0
        isplitl [H1]; · iexact H1
        iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the stage is the invariant before the first point. -/
theorem hinΦ2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's form back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem houtΦ2 (c : Dev nD) : (dat2 V c).Φ (Fin.last cfg2.N) ⊢ Pipeline.ΦA spec2 c :=
  Phi_out2 V c _ (by rw [Fin.val_last]; have : cfg2.N = 128 := N_2; omega)

end

end Cert.Kernel.Hand

end
-- ==== Proof.KB.Run.lean ====
import proofs.«174921_j76965813944408_2_alg».proof.Proof.KB.R0Frame
import proofs.«174921_j76965813944408_2_alg».proof.Proof.KB.R1Frame
import proofs.«174921_j76965813944408_2_alg».proof.Proof.KB.R2Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: three stages in a row

The buffer contents at each stage boundary are a fold from the launch memory: a stage's arrays at what its pipeline
leaves, every other buffer as entered. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev Vv0 : (c : Dev nD) → (b : Ref sig .tc) → Buf (Elt F) ((c : Thread nD τ).loc b) := fun c b => W0 m ρ c b

/-- At stage 1's exit: its arrays at what the pipeline leaves (the inputs as entered, the output's write-backs
    folded), every other buffer as entered. -/
def W1 (c : Dev nD) : Valuation τ sig (Elt F) :=
  Pipeline.withArrays spec0 c (W0 m ρ c) fun w => (dat0 (Vv0 m ρ) c).arrAt w cfg0.N
theorem W1_arr (c : Dev nD) (w : Fin cfg0.W) :
    W1 m ρ c (Proc.devRef .tc (Pipeline.arrRef spec0 w)) = (dat0 (Vv0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev Vv1 : (c : Dev nD) → (b : Ref sig .tc) → Buf (Elt F) ((c : Thread nD τ).loc b) := fun c b => W1 m ρ c b
theorem hF0 (c : Dev nD) (w : Fin cfg0.W) : (dat0 (Vv0 m ρ) c).arrAt w cfg0.N = Vv1 m ρ c (Pipeline.arrRef spec0 w) :=
  (W1_arr m ρ c w).symm
theorem hrest0 (c : Dev nD) : ∀ b, b ∉ Finset.univ.image (Pipeline.arrRef spec0) → Vv1 m ρ c b = Vv0 m ρ c b :=
  fun b hb => W1_of_ne m ρ c b fun w e => hb (Finset.mem_image.mpr ⟨w, Finset.mem_univ _, e⟩)

/-- At stage 2's exit: its arrays at what the pipeline leaves (the inputs as entered, the output's write-backs
    folded), every other buffer as entered. -/
def W2 (c : Dev nD) : Valuation τ sig (Elt F) :=
  Pipeline.withArrays spec1 c (W1 m ρ c) fun w => (dat1 (Vv1 m ρ) c).arrAt w cfg1.N
theorem W2_arr (c : Dev nD) (w : Fin cfg1.W) :
    W2 m ρ c (Proc.devRef .tc (Pipeline.arrRef spec1 w)) = (dat1 (Vv1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev Vv2 : (c : Dev nD) → (b : Ref sig .tc) → Buf (Elt F) ((c : Thread nD τ).loc b) := fun c b => W2 m ρ c b
theorem hF1 (c : Dev nD) (w : Fin cfg1.W) : (dat1 (Vv1 m ρ) c).arrAt w cfg1.N = Vv2 m ρ c (Pipeline.arrRef spec1 w) :=
  (W2_arr m ρ c w).symm
theorem hrest1 (c : Dev nD) : ∀ b, b ∉ Finset.univ.image (Pipeline.arrRef spec1) → Vv2 m ρ c b = Vv1 m ρ c b :=
  fun b hb => W2_of_ne m ρ c b fun w e => hb (Finset.mem_image.mpr ⟨w, Finset.mem_univ _, e⟩)

/-- At stage 3's exit: its arrays at what the pipeline leaves (the inputs as entered, the output's write-backs
    folded), every other buffer as entered. -/
def W3 (c : Dev nD) : Valuation τ sig (Elt F) :=
  Pipeline.withArrays spec2 c (W2 m ρ c) fun w => (dat2 (Vv2 m ρ) c).arrAt w cfg2.N
theorem W3_arr (c : Dev nD) (w : Fin cfg2.W) :
    W3 m ρ c (Proc.devRef .tc (Pipeline.arrRef spec2 w)) = (dat2 (Vv2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev Vv3 : (c : Dev nD) → (b : Ref sig .tc) → Buf (Elt F) ((c : Thread nD τ).loc b) := fun c b => W3 m ρ c b
theorem hF2 (c : Dev nD) (w : Fin cfg2.W) : (dat2 (Vv2 m ρ) c).arrAt w cfg2.N = Vv3 m ρ c (Pipeline.arrRef spec2 w) :=
  (W3_arr m ρ c w).symm
theorem hrest2 (c : Dev nD) : ∀ b, b ∉ Finset.univ.image (Pipeline.arrRef spec2) → Vv3 m ρ c b = Vv2 m ρ c b :=
  fun b hb => W3_of_ne m ρ c b fun w e => hb (Finset.mem_image.mpr ⟨w, Finset.mem_univ _, e⟩)

/-- `main_arg0` ends as launched: stage 1 reads it through an input window and no stage writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (Vv0 m ρ) c).arrAt_in 0 rfl _).trans (A_eq0 (Vv0 m ρ) c 0))
    _ = m ((c : Thread nD τ).loc main_arg0) := rfl

/-- `main_arg1` ends as launched: stage 1 reads it through an input window and no stage writes it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 1).trans (((dat0 (Vv0 m ρ) c).arrAt_in 1 rfl _).trans (A_eq0 (Vv0 m ρ) c 1))
    _ = m ((c : Thread nD τ).loc main_arg1) := rfl

/-- `main_arg2` ends as launched: stage 2 reads it through an input window and no stage writes it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat1 (Vv1 m ρ) c).arrAt_in 1 rfl _).trans (A_eq1 (Vv1 m ρ) c 1))
    _ = W0 m ρ c (Proc.devRef .tc main_arg2) := W1_of_ne m ρ c main_arg2 (by decide)
    _ = m ((c : Thread nD τ).loc main_arg2) := rfl

/-- `main_arg3` ends as launched: stage 3 reads it through an input window and no stage writes it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 1).trans (((dat2 (Vv2 m ρ) c).arrAt_in 1 rfl _).trans (A_eq2 (Vv2 m ρ) c 1))
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-- The result array ends at what stage 3's pipeline leaves in its output window's array. -/
theorem W3_main_v2 (c : Dev nD) : W3 m ρ c (Proc.devRef .tc main_v2) = (dat2 (Vv2 m ρ) c).arrAt 2 cfg2.N :=
  W3_arr m ρ c 2

/-! ## The proof data family and the thread state -/

abbrev adm3 : (p : Fin 3) → (pcfgs (F := F) p).Adm := fun p => (cfgs p).toPCfg_adm
/-- Every pipeline's proof data, each at its stage's entry contents. -/
def pdats : (p : Fin 3) → (c : Dev nD) → Dat τ (Elt F) Unit ℕ (UR sig nD τ) ℕ (Pipeline.pin (pcfgs (F := F)) adm3 p) c
  | ⟨0, _⟩ => fun c => dat0 (Vv0 m ρ) c
  | ⟨1, _⟩ => fun c => dat1 (Vv1 m ρ) c
  | ⟨2, _⟩ => fun c => dat2 (Vv2 m ρ) c
abbrev 𝒱h : Variants := Variants.none
abbrev Lh : GSem nD τ sig → Finset Unit := fun _ => ∅
abbrev lvh : GSem nD τ sig → Unit → ℕ := fun _ _ => 0
/-- What rides beside the buffers through every segment: the generator register at some state and the core owing nothing. -/
abbrev Rh (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W3 m ρ c) ∗ ∃ r, prngReg c r)

set_option backward.isDefEq.respectTransparency.types false in
/-- STAGE 1 as a segment: entered from every unscoped buffer at `W0`, left at `W1`. Its arrays are split out of
    the unscoped buffers and put back at the exit contents; the generator register goes into the stage's invariant and
    comes back; nothing is owed; the kernel has no semaphore of its own. -/
def reg0 : Pipeline.RegionSeg (pcfgs (F := F)) adm3 (pdats m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Vv0 m ρ) c).loose
  hwaits := Pipeline.hwaits_of_owed_zero _ _ _ _ Lh lvh 0 fun _ _ => rfl
  pre c := iprop(StableHlo.held (c : Thread nD τ) (Pipeline.ucRefs τ sig) (W0 m ρ c) ∗ Rh c)
  post c := iprop(StableHlo.held (c : Thread nD τ) (Pipeline.ucRefs τ sig) (W1 m ρ c) ∗ Rh c)
  X c := iprop(∃ r, prngReg c r)
  Y c := iprop(∃ r, prngReg c r)
  Z c := Pipeline.unscopedRest (Ix := Unit) (Name := ℕ) (U := UR sig nD τ) (Lvl := ℕ) spec0 c (Vv0 m ρ c)
  hentry c := by
    rw [Pipeline.ownSems0_none]
    have hsplit := Pipeline.arrays_of_unscopedBufs (p := 0) (pcfgs (F := F)) adm3 (pdats m ρ) launch0.win launch0.arr_whole c
      ((pdats m ρ 0 c).share_full fun _ => rfl) (Vv0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    show (dat0 (Vv0 m ρ) c).Φ (Fin.last cfg0.N) ⊢ _
    iintro H
    ihave H' := (houtΦ0 (Vv0 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm3 (Ix := Unit) (Name := ℕ) (U := UR sig nD τ) (Lvl := ℕ)
      launch0.win launch0.arr_whole c (pdats m ρ) ((pdats m ρ 0 c).share_full fun _ => rfl)
      (Vv0 m ρ c) (Vv1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- STAGE 2 as a segment: entered from every unscoped buffer at `W1`, left at `W2`. Its arrays are split out of
    the unscoped buffers and put back at the exit contents; the generator register goes into the stage's invariant and
    comes back; nothing is owed; the kernel has no semaphore of its own. -/
def reg1 : Pipeline.RegionSeg (pcfgs (F := F)) adm3 (pdats m ρ) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (Vv1 m ρ) c).loose
  hwaits := Pipeline.hwaits_of_owed_zero _ _ _ _ Lh lvh 1 fun _ _ => rfl
  pre c := iprop(StableHlo.held (c : Thread nD τ) (Pipeline.ucRefs τ sig) (W1 m ρ c) ∗ Rh c)
  post c := iprop(StableHlo.held (c : Thread nD τ) (Pipeline.ucRefs τ sig) (W2 m ρ c) ∗ Rh c)
  X c := iprop(∃ r, prngReg c r)
  Y c := iprop(∃ r, prngReg c r)
  Z c := Pipeline.unscopedRest (Ix := Unit) (Name := ℕ) (U := UR sig nD τ) (Lvl := ℕ) spec1 c (Vv1 m ρ c)
  hentry c := by
    rw [Pipeline.ownSems0_none]
    have hsplit := Pipeline.arrays_of_unscopedBufs (p := 1) (pcfgs (F := F)) adm3 (pdats m ρ) launch1.win launch1.arr_whole c
      ((pdats m ρ 1 c).share_full fun _ => rfl) (Vv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    show (dat1 (Vv1 m ρ) c).Φ (Fin.last cfg1.N) ⊢ _
    iintro H
    ihave H' := (houtΦ1 (Vv1 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm3 (Ix := Unit) (Name := ℕ) (U := UR sig nD τ) (Lvl := ℕ)
      launch1.win launch1.arr_whole c (pdats m ρ) ((pdats m ρ 1 c).share_full fun _ => rfl)
      (Vv1 m ρ c) (Vv2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- STAGE 3 as a segment: entered from every unscoped buffer at `W2`, left at `W3`. Its arrays are split out of
    the unscoped buffers and put back at the exit contents; the generator register goes into the stage's invariant and
    comes back; nothing is owed; the kernel has no semaphore of its own. -/
def reg2 : Pipeline.RegionSeg (pcfgs (F := F)) adm3 (pdats m ρ) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (Vv2 m ρ) c).loose
  hwaits := Pipeline.hwaits_of_owed_zero _ _ _ _ Lh lvh 2 fun _ _ => rfl
  pre c := iprop(StableHlo.held (c : Thread nD τ) (Pipeline.ucRefs τ sig) (W2 m ρ c) ∗ Rh c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vv2 m ρ c)
  hentry c := by
    rw [Pipeline.ownSems0_none]
    have hsplit := Pipeline.arrays_of_unscopedBufs (p := 2) (pcfgs (F := F)) adm3 (pdats m ρ) launch2.win launch2.arr_whole c
      ((pdats m ρ 2 c).share_full fun _ => rfl) (Vv2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    show (dat2 (Vv2 m ρ) c).Φ (Fin.last cfg2.N) ⊢ _
    iintro H
    ihave H' := (houtΦ2 (Vv2 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm3 (Ix := Unit) (Name := ℕ) (U := UR sig nD τ) (Lvl := ℕ)
      launch2.win launch2.arr_whole c (pdats m ρ) ((pdats m ρ 2 c).share_full fun _ => rfl)
      (Vv2 m ρ c) (Vv3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three segments in order. -/
abbrev segs3 : List (Pipeline.Seg (pcfgs (F := F)) adm3 (pdats m ρ) () defs₀ 𝒱h Lh lvh) :=
  [ .region (reg0 m ρ), .region (reg1 m ρ), .region (reg2 m ρ) ]
theorem main_run3 (c : Dev nD) : main (F := F) c = Pipeline.Seg.run (segs3 m ρ) := (main_chain c).trans (by chain_rfl)

set_option backward.isDefEq.respectTransparency.types false in
/-- THE RUN. From any memory with zero counters every weakly fair execution of the program terminates, nothing
    faulting, and every final state has the result array at what stage 3's pipeline leaves and the four arguments as
    launched. -/
theorem run_main : θ_run defs (onTc (τ := τ) (main (F := F))) ⟨m, fun _ => 0, ρ⟩ (fun r => ∀ c : Dev nD,
      r.2.mem ((c.tc : Thread nD τ).loc main_v2) = (dat2 (Vv2 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm3 (pdats m ρ) () cellOf_inj emb₁ defs₀ 𝒱h Lh lvh m ρ main (segs3 m ρ)
    (fun c Q => by rw [main_run3 m ρ c])
    (by simp only [segs3, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rh c)) (Tₙ := Tend m ρ)
    (hch := ⟨fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_main_v2 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- The frame claim's post, at any `F`: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Hand

end
-- ==== Proof.KI.R0Shared.lean ====
import proofs.«174921_j76965813944408_2_alg».proof.Proof.Gen.KernelIdeal.Launch
import proofs.«174921_j76965813944408_2_alg».proof.Proof.Gen.KernelIdeal.Skeleton
import proofs.«174921_j76965813944408_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Stage 1: what its per-case runs are stated over

The stage kernel runs on a grid (expert, row block, contraction tile), the contraction tile innermost. It zeroes its
accumulator at tile 0, adds one tile's product at every tile, and stores the output block at the last tile. -/

section
variable (V : (c : Dev nD) → (b : Ref sig .tc) → Buf (Elt F) ((c : Thread nD τ).loc b))

/-- Window `w`'s block at point `t`, read off its array as the stage finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions, in closed form over the grid -/

/-- "This is contraction tile 0": the accumulator is zeroed. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- "This is the last contraction tile": the output block is stored. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1x256x4096 .bf16 := (Memref.whole cc0_stg2_0 : Memref sig .tc .vmem S1x256x4096 .bf16).view
abbrev ms0_0 (t : Fin cfg0.N) : Memref sig .tc .vmem S1x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x4096 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S256x4096 .f32 := Memref.whole cc0_scratch0
abbrev VS0_0 : View sig .tc .vmem S256x4096 .f32 := scM0_0.view

/-- Every scoped buffer that is neither a staging buffer of this stage nor its accumulator, at some contents: carried
    through the stage unopened. -/
def rest0 (c : Dev nD) : sProp 𝕄 :=
  Pipeline.scopedRestBut (Ix := Unit) (Name := ℕ) (U := UR sig nD τ) (Lvl := ℕ) (Val := Elt F) spec0 c [cc0_scratch0]

/-- The stage's invariant before its first point: the accumulator at some contents, the other scoped buffers, the
    generator register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0
  rw [Pipeline.scopedRest_split_of_list spec0 c [cc0_scratch0] (by decide) (by decide)]
  simp only [bigSepL, scM0_0, owns_whole]; try rfl

end Cert.KernelIdeal.Hand

end
-- ==== Proof.KI.R0RunA.lean ====
import proofs.«174921_j76965813944408_2_alg».proof.Proof.KI.R0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-1 kernel body on whole memrefs at contraction tile 0 (not the last): the accumulator, at anything, is zeroed and then holds the first product; the output window is handed back untouched. What its stores leave is given as lists of pieces
    (last store first) that the symbolic run of the body finds. -/
noncomputable def kernelRun0_A (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) :
    Σ' (L2 : List (View.Piece (Elt F) S1x256x4096 .bf16)), { LS0 : List (View.Piece (Elt F) S256x4096 .f32) //
      ∀ (xi2 : Vec F S1x256x4096 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__stage_kernel i arg3 harg3 arg4 harg4 arg5 harg5 arg6 harg6) K } := by
  refine ⟨[], ?_, fun xi2 E K => ?run⟩
  case run =>
    simp only [cc0__stage_kernel_eq_skeleton]; unfold cc0__stage_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R0RunB.lean ====
import proofs.«174921_j76965813944408_2_alg».proof.Proof.KI.R0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-1 kernel body on whole memrefs at a middle contraction tile: the accumulator, at what the point before left, gains one product; the output window is handed back untouched. What its stores leave is given as lists of pieces
    (last store first) that the symbolic run of the body finds. -/
noncomputable def kernelRun0_B (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) :
    Σ' (L2 : List (View.Piece (Elt F) S1x256x4096 .bf16)), { LS0 : List (View.Piece (Elt F) S256x4096 .f32) //
      ∀ (xi2 : Vec F S1x256x4096 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__stage_kernel i arg3 harg3 arg4 harg4 arg5 harg5 arg6 harg6) K } := by
  refine ⟨[], ?_, fun xi2 E K => ?run⟩
  case run =>
    simp only [cc0__stage_kernel_eq_skeleton]; unfold cc0__stage_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R0RunC.lean ====
import proofs.«174921_j76965813944408_2_alg».proof.Proof.KI.R0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-1 kernel body on whole memrefs at the last contraction tile (not tile 0): the accumulator gains the last product and the output block is stored from it. What its stores leave is given as lists of pieces
    (last store first) that the symbolic run of the body finds. -/
noncomputable def kernelRun0_C (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) :
    Σ' (L2 : List (View.Piece (Elt F) S1x256x4096 .bf16)), { LS0 : List (View.Piece (Elt F) S256x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__stage_kernel i arg3 harg3 arg4 harg4 arg5 harg5 arg6 harg6) K } := by
  refine ⟨?_, ?_, fun E K => ?run⟩
  case run =>
    simp only [cc0__stage_kernel_eq_skeleton]; unfold cc0__stage_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.R0Frame.lean ====
import proofs.«174921_j76965813944408_2_alg».proof.Proof.KI.R0RunA
import proofs.«174921_j76965813944408_2_alg».proof.Proof.KI.R0RunB
import proofs.«174921_j76965813944408_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Stage 1: what each case leaves, the accumulation point by point, the invariant and the body obligation -/

/-- The output window's buffer in case A: nothing is stored (a placeholder nothing consults: the window is idle and not written back there). -/
def out0_A_2 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) : Vec F S1x256x4096 .bf16 :=
  VO0_2.read (Elt F) (VO0_2.writes (Elt F) VO0_2.junk (kernelRun0_A c i arg3 harg3 arg4 harg4 arg5 harg5 arg6 harg6 hc0 hc1 x0 x1).1)

/-- In case A the pieces stored into the accumulator tile it. -/
theorem scover0_A_0 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) (y : S256x4096.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S256x4096.size (by sl_kernel_rfl) y

/-- What case A leaves in the accumulator. -/
def sout0_A_0 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : cond0_0 i) (hc1 : ¬cond0_1 i)
    (x0 : Vec F S1x256x512 .f32) (x1 : Vec F S1x512x4096 .f32) : Vec F S256x4096 .f32 :=
  VS0_0.read (Elt F) (VS0_0.writes (Elt F) VS0_0.junk (kernelRun0_A c i arg3 harg3 arg4 harg4 arg5 harg5 arg6 harg6 hc0 hc1 x0 x1).2.1)

/-- The output window's buffer in case B: nothing is stored (a placeholder nothing consults: the window is idle and not written back there). -/
def out0_B_2 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) : Vec F S1x256x4096 .bf16 :=
  VO0_2.read (Elt F) (VO0_2.writes (Elt F) VO0_2.junk (kernelRun0_B c i arg3 harg3 arg4 harg4 arg5 harg5 arg6 harg6 hc0 hc1 x0 x1 xs0).1)

/-- In case B the pieces stored into the accumulator tile it. -/
theorem scover0_B_0 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) (y : S256x4096.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S256x4096.size (by sl_kernel_rfl) y

/-- What case B leaves in the accumulator. -/
def sout0_B_0 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : ¬cond0_1 i)
    (x0 : Vec F S1x256x512 .f32) (x1 : Vec F S1x512x4096 .f32) (xs0 : Vec F S256x4096 .f32) : Vec F S256x4096 .f32 :=
  VS0_0.read (Elt F) (VS0_0.writes (Elt F) VS0_0.junk (kernelRun0_B c i arg3 harg3 arg4 harg4 arg5 harg5 arg6 harg6 hc0 hc1 x0 x1 xs0).2.1)

/-- The output window's buffer in case C: the pieces the run stored, read back. -/
def out0_C_2 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) : Vec F S1x256x4096 .bf16 :=
  VO0_2.read (Elt F) (VO0_2.writes (Elt F) VO0_2.junk (kernelRun0_C c i arg3 harg3 arg4 harg4 arg5 harg5 arg6 harg6 hc0 hc1 x0 x1 xs0).1)

/-- In case C the stored pieces tile the output block. -/
theorem cover0_C_2 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) (y : S1x256x4096.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x256x4096.size (by sl_kernel_rfl) y

/-- In case C the pieces stored into the accumulator tile it. -/
theorem scover0_C_0 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) (y : S256x4096.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S256x4096.size (by sl_kernel_rfl) y

/-- What case C leaves in the accumulator. -/
def sout0_C_0 (c : Dev nD) (i : grid0.Coords) (arg3 : Memref sig .tc .vmem S1x256x512 .f32) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond0_0 i) (hc1 : cond0_1 i)
    (x0 : Vec F S1x256x512 .f32) (x1 : Vec F S1x512x4096 .f32) (xs0 : Vec F S256x4096 .f32) : Vec F S256x4096 .f32 :=
  VS0_0.read (Elt F) (VS0_0.writes (Elt F) VS0_0.junk (kernelRun0_C c i arg3 harg3 arg4 harg4 arg5 harg5 arg6 harg6 hc0 hc1 x0 x1 xs0).2.1)

section
variable (V : (c : Dev nD) → (b : Ref sig .tc) → Buf (Elt F) ((c : Thread nD τ).loc b))

/-- THE ACCUMULATION. After the body at position `n`: what the output window's buffer and the accumulator hold. At
    contraction tile 0 the accumulator restarts from zero; at every later tile it is what the tile before left plus this
    tile's product; the output block is stored from it at the last tile. -/
def outsAt0 (c : Dev nD) : (n : ℕ) → n < cfg0.N → Vec F S1x256x4096 .bf16 × Vec F S256x4096 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 2 = 0 then
      if h1 : (n + 1) % 2 = 1 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 2 = 1 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 2 = 0) (h1 : ¬t.val % 2 = 1) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 2 = 0) (h1 : ¬t.val % 2 = 1) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 2 = 0) (h1 : t.val % 2 = 1) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The stage's invariant before position `n`: before the first point the accumulator holds anything; afterwards it
    holds what the point before left. The other scoped buffers and the generator register ride along. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-- The stage's proof data on core `c`: the arrays as the stage finds them; after the body each input's buffer at its
    block and the output's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the closed forms of the two conditions say which case the
    point is in; the invariant hands the body the accumulator (at anything at the first point, else at what the point
    before left) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 2 = 0
  · by_cases h1 : t.val % 2 = 1
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 2 = 1
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _)
            iexact HR
          iexact Hg
        isplitl [Ho]; · iexact Ho
        isplitl [H0]; · iexact H0
        isplitl [H1]; · iexact H1
        iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the stage is the invariant before the first point. -/
theorem hinΦ0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's form back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem houtΦ0 (c : Dev nD) : (dat0 V c).Φ (Fin.last cfg0.N) ⊢ Pipeline.ΦA spec0 c :=
  Phi_out0 V c _ (by rw [Fin.val_last]; have : cfg0.N = 128 := N_0; omega)

end

end Cert.KernelIdeal.Hand

end
-- ==== Proof.KI.R1Shared.lean ====
import proofs.«174921_j76965813944408_2_alg».proof.Proof.Gen.KernelIdeal.Launch
import proofs.«174921_j76965813944408_2_alg».proof.Proof.Gen.KernelIdeal.Skeleton
import proofs.«174921_j76965813944408_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Stage 2: what its per-case runs are stated over

The stage kernel runs on a grid (expert, row block, contraction tile), the contraction tile innermost. It zeroes its
accumulator at tile 0, adds one tile's product at every tile, and stores the output block at the last tile. -/

section
variable (V : (c : Dev nD) → (b : Ref sig .tc) → Buf (Elt F) ((c : Thread nD τ).loc b))

/-- Window `w`'s block at point `t`, read off its array as the stage finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions, in closed form over the grid -/

/-- "This is contraction tile 0": the accumulator is zeroed. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last contraction tile": the output block is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1x256x4096 .bf16 := (Memref.whole cc1_stg2_0 : Memref sig .tc .vmem S1x256x4096 .bf16).view
abbrev ms1_0 (t : Fin cfg1.N) : Memref sig .tc .vmem S1x256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x4096 .bf16 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S256x4096 .f32 := Memref.whole cc1_scratch0
abbrev VS1_0 : View sig .tc .vmem S256x4096 .f32 := scM1_0.view

/-- Every scoped buffer that is neither a staging buffer of this stage nor its accumulator, at some contents: carried
    through the stage unopened. -/
def rest1 (c : Dev nD) : sProp 𝕄 :=
  Pipeline.scopedRestBut (Ix := Unit) (Name := ℕ) (U := UR sig nD τ) (Lvl := ℕ) (Val := Elt F) spec1 c [cc1_scratch0]

/-- The stage's invariant before its first point: the accumulator at some contents, the other scoped buffers, the
    generator register at some state. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA rest1
  rw [Pipeline.scopedRest_split_of_list spec1 c [cc1_scratch0] (by decide) (by decide)]
  simp only [bigSepL, scM1_0, owns_whole]; try rfl

end Cert.KernelIdeal.Hand

end
-- ==== Proof.KI.R1RunA.lean ====
import proofs.«174921_j76965813944408_2_alg».proof.Proof.KI.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-2 kernel body on whole memrefs at contraction tile 0 (not the last): the accumulator, at anything, is zeroed and then holds the first product; the output window is handed back untouched. What its stores leave is given as lists of pieces
    (last store first) that the symbolic run of the body finds. -/
noncomputable def kernelRun1_A (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : cond1_0 i) (hc1 : ¬cond1_1 i)
    (x0 : Vec F S1x256x512 .bf16) (x1 : Vec F S1x512x4096 .f32) :
    Σ' (L2 : List (View.Piece (Elt F) S1x256x4096 .bf16)), { LS0 : List (View.Piece (Elt F) S256x4096 .f32) //
      ∀ (xi2 : Vec F S1x256x4096 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__stage_kernel i arg3 harg3 arg4 harg4 arg5 harg5 arg6 harg6) K } := by
  refine ⟨[], ?_, fun xi2 E K => ?run⟩
  case run =>
    simp only [cc1__stage_kernel_eq_skeleton]; unfold cc1__stage_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R1RunB.lean ====
import proofs.«174921_j76965813944408_2_alg».proof.Proof.KI.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-2 kernel body on whole memrefs at a middle contraction tile: the accumulator, at what the point before left, gains one product; the output window is handed back untouched. What its stores leave is given as lists of pieces
    (last store first) that the symbolic run of the body finds. -/
noncomputable def kernelRun1_B (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : ¬cond1_1 i)
    (x0 : Vec F S1x256x512 .bf16) (x1 : Vec F S1x512x4096 .f32) (xs0 : Vec F S256x4096 .f32) :
    Σ' (L2 : List (View.Piece (Elt F) S1x256x4096 .bf16)), { LS0 : List (View.Piece (Elt F) S256x4096 .f32) //
      ∀ (xi2 : Vec F S1x256x4096 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__stage_kernel i arg3 harg3 arg4 harg4 arg5 harg5 arg6 harg6) K } := by
  refine ⟨[], ?_, fun xi2 E K => ?run⟩
  case run =>
    simp only [cc1__stage_kernel_eq_skeleton]; unfold cc1__stage_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R1RunC.lean ====
import proofs.«174921_j76965813944408_2_alg».proof.Proof.KI.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-2 kernel body on whole memrefs at the last contraction tile (not tile 0): the accumulator gains the last product and the output block is stored from it. What its stores leave is given as lists of pieces
    (last store first) that the symbolic run of the body finds. -/
noncomputable def kernelRun1_C (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : cond1_1 i)
    (x0 : Vec F S1x256x512 .bf16) (x1 : Vec F S1x512x4096 .f32) (xs0 : Vec F S256x4096 .f32) :
    Σ' (L2 : List (View.Piece (Elt F) S1x256x4096 .bf16)), { LS0 : List (View.Piece (Elt F) S256x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__stage_kernel i arg3 harg3 arg4 harg4 arg5 harg5 arg6 harg6) K } := by
  refine ⟨?_, ?_, fun E K => ?run⟩
  case run =>
    simp only [cc1__stage_kernel_eq_skeleton]; unfold cc1__stage_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.R1Frame.lean ====
import proofs.«174921_j76965813944408_2_alg».proof.Proof.KI.R1RunA
import proofs.«174921_j76965813944408_2_alg».proof.Proof.KI.R1RunB
import proofs.«174921_j76965813944408_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Stage 2: what each case leaves, the accumulation point by point, the invariant and the body obligation -/

/-- The output window's buffer in case A: nothing is stored (a placeholder nothing consults: the window is idle and not written back there). -/
def out1_A_2 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : cond1_0 i) (hc1 : ¬cond1_1 i)
    (x0 : Vec F S1x256x512 .bf16) (x1 : Vec F S1x512x4096 .f32) : Vec F S1x256x4096 .bf16 :=
  VO1_2.read (Elt F) (VO1_2.writes (Elt F) VO1_2.junk (kernelRun1_A c i arg3 harg3 arg4 harg4 arg5 harg5 arg6 harg6 hc0 hc1 x0 x1).1)

/-- In case A the pieces stored into the accumulator tile it. -/
theorem scover1_A_0 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : cond1_0 i) (hc1 : ¬cond1_1 i)
    (x0 : Vec F S1x256x512 .bf16) (x1 : Vec F S1x512x4096 .f32) (y : S256x4096.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S256x4096.size (by sl_kernel_rfl) y

/-- What case A leaves in the accumulator. -/
def sout1_A_0 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : cond1_0 i) (hc1 : ¬cond1_1 i)
    (x0 : Vec F S1x256x512 .bf16) (x1 : Vec F S1x512x4096 .f32) : Vec F S256x4096 .f32 :=
  VS1_0.read (Elt F) (VS1_0.writes (Elt F) VS1_0.junk (kernelRun1_A c i arg3 harg3 arg4 harg4 arg5 harg5 arg6 harg6 hc0 hc1 x0 x1).2.1)

/-- The output window's buffer in case B: nothing is stored (a placeholder nothing consults: the window is idle and not written back there). -/
def out1_B_2 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : ¬cond1_1 i)
    (x0 : Vec F S1x256x512 .bf16) (x1 : Vec F S1x512x4096 .f32) (xs0 : Vec F S256x4096 .f32) : Vec F S1x256x4096 .bf16 :=
  VO1_2.read (Elt F) (VO1_2.writes (Elt F) VO1_2.junk (kernelRun1_B c i arg3 harg3 arg4 harg4 arg5 harg5 arg6 harg6 hc0 hc1 x0 x1 xs0).1)

/-- In case B the pieces stored into the accumulator tile it. -/
theorem scover1_B_0 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : ¬cond1_1 i)
    (x0 : Vec F S1x256x512 .bf16) (x1 : Vec F S1x512x4096 .f32) (xs0 : Vec F S256x4096 .f32) (y : S256x4096.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S256x4096.size (by sl_kernel_rfl) y

/-- What case B leaves in the accumulator. -/
def sout1_B_0 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : ¬cond1_1 i)
    (x0 : Vec F S1x256x512 .bf16) (x1 : Vec F S1x512x4096 .f32) (xs0 : Vec F S256x4096 .f32) : Vec F S256x4096 .f32 :=
  VS1_0.read (Elt F) (VS1_0.writes (Elt F) VS1_0.junk (kernelRun1_B c i arg3 harg3 arg4 harg4 arg5 harg5 arg6 harg6 hc0 hc1 x0 x1 xs0).2.1)

/-- The output window's buffer in case C: the pieces the run stored, read back. -/
def out1_C_2 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : cond1_1 i)
    (x0 : Vec F S1x256x512 .bf16) (x1 : Vec F S1x512x4096 .f32) (xs0 : Vec F S256x4096 .f32) : Vec F S1x256x4096 .bf16 :=
  VO1_2.read (Elt F) (VO1_2.writes (Elt F) VO1_2.junk (kernelRun1_C c i arg3 harg3 arg4 harg4 arg5 harg5 arg6 harg6 hc0 hc1 x0 x1 xs0).1)

/-- In case C the stored pieces tile the output block. -/
theorem cover1_C_2 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : cond1_1 i)
    (x0 : Vec F S1x256x512 .bf16) (x1 : Vec F S1x512x4096 .f32) (xs0 : Vec F S256x4096 .f32) (y : S1x256x4096.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1x256x4096.size (by sl_kernel_rfl) y

/-- In case C the pieces stored into the accumulator tile it. -/
theorem scover1_C_0 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : cond1_1 i)
    (x0 : Vec F S1x256x512 .bf16) (x1 : Vec F S1x512x4096 .f32) (xs0 : Vec F S256x4096 .f32) (y : S256x4096.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S256x4096.size (by sl_kernel_rfl) y

/-- What case C leaves in the accumulator. -/
def sout1_C_0 (c : Dev nD) (i : grid1.Coords) (arg3 : Memref sig .tc .vmem S1x256x512 .bf16) (harg3 : arg3.IsWhole) (arg4 : Memref sig .tc .vmem S1x512x4096 .f32) (harg4 : arg4.IsWhole) (arg5 : Memref sig .tc .vmem S1x256x4096 .bf16) (harg5 : arg5.IsWhole) (arg6 : Memref sig .tc .vmem S256x4096 .f32) (harg6 : arg6.IsWhole) (hc0 : ¬cond1_0 i) (hc1 : cond1_1 i)
    (x0 : Vec F S1x256x512 .bf16) (x1 : Vec F S1x512x4096 .f32) (xs0 : Vec F S256x4096 .f32) : Vec F S256x4096 .f32 :=
  VS1_0.read (Elt F) (VS1_0.writes (Elt F) VS1_0.junk (kernelRun1_C c i arg3 harg3 arg4 harg4 arg5 harg5 arg6 harg6 hc0 hc1 x0 x1 xs0).2.1)

section
variable (V : (c : Dev nD) → (b : Ref sig .tc) → Buf (Elt F) ((c : Thread nD τ).loc b))

/-- THE ACCUMULATION. After the body at position `n`: what the output window's buffer and the accumulator hold. At
    contraction tile 0 the accumulator restarts from zero; at every later tile it is what the tile before left plus this
    tile's product; the output block is stored from it at the last tile. -/
def outsAt1 (c : Dev nD) : (n : ℕ) → n < cfg1.N → Vec F S1x256x4096 .bf16 × Vec F S256x4096 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The stage's invariant before position `n`: before the first point the accumulator holds anything; afterwards it
    holds what the point before left. The other scoped buffers and the generator register ride along. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-- The stage's proof data on core `c`: the arrays as the stage finds them; after the body each input's buffer at its
    block and the output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the closed forms of the two conditions say which case the
    point is in; the invariant hands the body the accumulator (at anything at the first point, else at what the point
    before left) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _)
            iexact HR
          iexact Hg
        isplitl [Ho]; · iexact Ho
        isplitl [H0]; · iexact H0
        isplitl [H1]; · iexact H1
        iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the stage is the invariant before the first point. -/
theorem hinΦ1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem houtΦ1 (c : Dev nD) : (dat1 V c).Φ (Fin.last cfg1.N) ⊢ Pipeline.ΦA spec1 c :=
  Phi_out1 V c _ (by rw [Fin.val_last]; have : cfg1.N = 512 := N_1; omega)

end

end Cert.KernelIdeal.Hand

end
-- ==== Proof.KI.R2Shared.lean ====
import proofs.«174921_j76965813944408_2_alg».proof.Proof.Gen.KernelIdeal.Launch
import proofs.«174921_j76965813944408_2_alg».proof.Proof.Gen.KernelIdeal.Skeleton
import proofs.«174921_j76965813944408_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Stage 3: what its per-case runs are stated over

The stage kernel runs on a grid (expert, row block, contraction tile), the contraction tile innermost. It zeroes its
accumulator at tile 0, adds one tile's product at every tile, and stores the output block at the last tile. -/

section
variable (V : (c : Dev nD) → (b : Ref sig .tc) → Buf (Elt F) ((c : Thread nD τ).loc b))

/-- Window `w`'s block at point `t`, read off its array as the stage finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activation window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end

/-! ## The two branch conditions, in closed form over the grid -/

/-- "This is contraction tile 0": the accumulator is zeroed. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "This is the last contraction tile": the output block is stored. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the output window is idle -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
theorem liveAt2_2_C : ∀ t : Fin cfg2.N, ¬cond2_0 (grid2.coords t) → cond2_1 (grid2.coords t) → cfg2.idle 2 (grid2.coords t) = false := by decide +kernel

/-! ## The memrefs the body is called with -/

/-- One staging buffer of the output window, through which its contents are stated. -/
abbrev VO2_2 : View sig .tc .vmem S1x512x1024 .f32 := (Memref.whole cc2_stg2_0 : Memref sig .tc .vmem S1x512x1024 .f32).view
abbrev ms2_0 (t : Fin cfg2.N) : Memref sig .tc .vmem S1x512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x1024 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S512x1024 .f32 := Memref.whole cc2_scratch0
abbrev VS2_0 : View sig .tc .vmem S512x1024 .f32 := scM2_0.view

/-- Every scoped buffer that is neither a staging buffer of this stage nor its accumulator, at some contents: carried
    through the stage unopened. -/
def rest2 (c : Dev nD) : sProp 𝕄 :=
  Pipeline.scopedRestBut (Ix := Unit) (Name := ℕ) (U := UR sig nD τ) (Lvl := ℕ) (Val := Elt F) spec2 c [cc2_scratch0]

/-- The stage's invariant before its first point: the accumulator at some contents, the other scoped buffers, the
    generator register at some state. -/
theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA rest2
  rw [Pipeline.scopedRest_split_of_list spec2 c [cc2_scratch0] (by decide) (by decide)]
  simp only [bigSepL, scM2_0, owns_whole]; try rfl

end Cert.KernelIdeal.Hand

end
-- ==== Proof.KI.R2RunA.lean ====
import proofs.«174921_j76965813944408_2_alg».proof.Proof.KI.R2Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-3 kernel body on whole memrefs at contraction tile 0 (not the last): the accumulator, at anything, is zeroed and then holds the first product; the output window is handed back untouched. What its stores leave is given as lists of pieces
    (last store first) that the symbolic run of the body finds. -/
noncomputable def kernelRun2_A (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : cond2_0 i) (hc1 : ¬cond2_1 i)
    (x0 : Vec F S1x512x1024 .bf16) (x1 : Vec F S1x1024x1024 .f32) :
    Σ' (L2 : List (View.Piece (Elt F) S1x512x1024 .f32)), { LS0 : List (View.Piece (Elt F) S512x1024 .f32) //
      ∀ (xi2 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__stage_kernel i arg3 harg3 arg4 harg4 arg5 harg5 arg6 harg6) K } := by
  refine ⟨[], ?_, fun xi2 E K => ?run⟩
  case run =>
    simp only [cc2__stage_kernel_eq_skeleton]; unfold cc2__stage_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R2RunB.lean ====
import proofs.«174921_j76965813944408_2_alg».proof.Proof.KI.R2Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-3 kernel body on whole memrefs at a middle contraction tile: the accumulator, at what the point before left, gains one product; the output window is handed back untouched. What its stores leave is given as lists of pieces
    (last store first) that the symbolic run of the body finds. -/
noncomputable def kernelRun2_B (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : ¬cond2_1 i)
    (x0 : Vec F S1x512x1024 .bf16) (x1 : Vec F S1x1024x1024 .f32) (xs0 : Vec F S512x1024 .f32) :
    Σ' (L2 : List (View.Piece (Elt F) S1x512x1024 .f32)), { LS0 : List (View.Piece (Elt F) S512x1024 .f32) //
      ∀ (xi2 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__stage_kernel i arg3 harg3 arg4 harg4 arg5 harg5 arg6 harg6) K } := by
  refine ⟨[], ?_, fun xi2 E K => ?run⟩
  case run =>
    simp only [cc2__stage_kernel_eq_skeleton]; unfold cc2__stage_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R2RunC.lean ====
import proofs.«174921_j76965813944408_2_alg».proof.Proof.KI.R2Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stage-3 kernel body on whole memrefs at the last contraction tile (not tile 0): the accumulator gains the last product and the output block is stored from it. What its stores leave is given as lists of pieces
    (last store first) that the symbolic run of the body finds. -/
noncomputable def kernelRun2_C (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : cond2_1 i)
    (x0 : Vec F S1x512x1024 .bf16) (x1 : Vec F S1x1024x1024 .f32) (xs0 : Vec F S512x1024 .f32) :
    Σ' (L2 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__stage_kernel i arg3 harg3 arg4 harg4 arg5 harg5 arg6 harg6) K } := by
  refine ⟨?_, ?_, fun E K => ?run⟩
  case run =>
    simp only [cc2__stage_kernel_eq_skeleton]; unfold cc2__stage_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.R2Frame.lean ====
import proofs.«174921_j76965813944408_2_alg».proof.Proof.KI.R2RunA
import proofs.«174921_j76965813944408_2_alg».proof.Proof.KI.R2RunB
import proofs.«174921_j76965813944408_2_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Stage 3: what each case leaves, the accumulation point by point, the invariant and the body obligation -/

/-- The output window's buffer in case A: nothing is stored (a placeholder nothing consults: the window is idle and not written back there). -/
def out2_A_2 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : cond2_0 i) (hc1 : ¬cond2_1 i)
    (x0 : Vec F S1x512x1024 .bf16) (x1 : Vec F S1x1024x1024 .f32) : Vec F S1x512x1024 .f32 :=
  VO2_2.read (Elt F) (VO2_2.writes (Elt F) VO2_2.junk (kernelRun2_A c i arg3 harg3 arg4 harg4 arg5 harg5 arg6 harg6 hc0 hc1 x0 x1).1)

/-- In case A the pieces stored into the accumulator tile it. -/
theorem scover2_A_0 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : cond2_0 i) (hc1 : ¬cond2_1 i)
    (x0 : Vec F S1x512x1024 .bf16) (x1 : Vec F S1x1024x1024 .f32) (y : S512x1024.Idx) :
    ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S512x1024.size (by sl_kernel_rfl) y

/-- What case A leaves in the accumulator. -/
def sout2_A_0 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : cond2_0 i) (hc1 : ¬cond2_1 i)
    (x0 : Vec F S1x512x1024 .bf16) (x1 : Vec F S1x1024x1024 .f32) : Vec F S512x1024 .f32 :=
  VS2_0.read (Elt F) (VS2_0.writes (Elt F) VS2_0.junk (kernelRun2_A c i arg3 harg3 arg4 harg4 arg5 harg5 arg6 harg6 hc0 hc1 x0 x1).2.1)

/-- The output window's buffer in case B: nothing is stored (a placeholder nothing consults: the window is idle and not written back there). -/
def out2_B_2 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : ¬cond2_1 i)
    (x0 : Vec F S1x512x1024 .bf16) (x1 : Vec F S1x1024x1024 .f32) (xs0 : Vec F S512x1024 .f32) : Vec F S1x512x1024 .f32 :=
  VO2_2.read (Elt F) (VO2_2.writes (Elt F) VO2_2.junk (kernelRun2_B c i arg3 harg3 arg4 harg4 arg5 harg5 arg6 harg6 hc0 hc1 x0 x1 xs0).1)

/-- In case B the pieces stored into the accumulator tile it. -/
theorem scover2_B_0 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : ¬cond2_1 i)
    (x0 : Vec F S1x512x1024 .bf16) (x1 : Vec F S1x1024x1024 .f32) (xs0 : Vec F S512x1024 .f32) (y : S512x1024.Idx) :
    ∃ pc ∈ (kernelRun2_B c i arg3 harg3 arg4 harg4 arg5 harg5 arg6 harg6 hc0 hc1 x0 x1 xs0).2.1, y ∈ pc.1.set :=
  View.cover_of_tiledL (kernelRun2_B c i arg3 harg3 arg4 harg4 arg5 harg5 arg6 harg6 hc0 hc1 x0 x1 xs0).2.1 S512x1024.size (by sl_kernel_rfl) y

/-- What case B leaves in the accumulator. -/
def sout2_B_0 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : ¬cond2_1 i)
    (x0 : Vec F S1x512x1024 .bf16) (x1 : Vec F S1x1024x1024 .f32) (xs0 : Vec F S512x1024 .f32) : Vec F S512x1024 .f32 :=
  VS2_0.read (Elt F) (VS2_0.writes (Elt F) VS2_0.junk (kernelRun2_B c i arg3 harg3 arg4 harg4 arg5 harg5 arg6 harg6 hc0 hc1 x0 x1 xs0).2.1)

/-- The output window's buffer in case C: the pieces the run stored, read back. -/
def out2_C_2 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : cond2_1 i)
    (x0 : Vec F S1x512x1024 .bf16) (x1 : Vec F S1x1024x1024 .f32) (xs0 : Vec F S512x1024 .f32) : Vec F S1x512x1024 .f32 :=
  VO2_2.read (Elt F) (VO2_2.writes (Elt F) VO2_2.junk (kernelRun2_C c i arg3 harg3 arg4 harg4 arg5 harg5 arg6 harg6 hc0 hc1 x0 x1 xs0).1)

/-- In case C the stored pieces tile the output block. -/
theorem cover2_C_2 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : cond2_1 i)
    (x0 : Vec F S1x512x1024 .bf16) (x1 : Vec F S1x1024x1024 .f32) (xs0 : Vec F S512x1024 .f32) (y : S1x512x1024.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S1x512x1024.size (by sl_kernel_rfl) y

/-- In case C the pieces stored into the accumulator tile it. -/
theorem scover2_C_0 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : cond2_1 i)
    (x0 : Vec F S1x512x1024 .bf16) (x1 : Vec F S1x1024x1024 .f32) (xs0 : Vec F S512x1024 .f32) (y : S512x1024.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S512x1024.size (by sl_kernel_rfl) y

/-- What case C leaves in the accumulator. -/
def sout2_C_0 (c : Dev nD) (i : grid2.Coords) (arg3 : Memref sig .tc .vmem S1x512x1024 .bf16) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S512x1024 .f32) (harg6 : arg6.IsWhole) (hc0 : ¬cond2_0 i) (hc1 : cond2_1 i)
    (x0 : Vec F S1x512x1024 .bf16) (x1 : Vec F S1x1024x1024 .f32) (xs0 : Vec F S512x1024 .f32) : Vec F S512x1024 .f32 :=
  VS2_0.read (Elt F) (VS2_0.writes (Elt F) VS2_0.junk (kernelRun2_C c i arg3 harg3 arg4 harg4 arg5 harg5 arg6 harg6 hc0 hc1 x0 x1 xs0).2.1)

section
variable (V : (c : Dev nD) → (b : Ref sig .tc) → Buf (Elt F) ((c : Thread nD τ).loc b))

/-- THE ACCUMULATION. After the body at position `n`: what the output window's buffer and the accumulator hold. At
    contraction tile 0 the accumulator restarts from zero; at every later tile it is what the tile before left plus this
    tile's product; the output block is stored from it at the last tile. -/
def outsAt2 (c : Dev nD) : (n : ℕ) → n < cfg2.N → Vec F S1x512x1024 .f32 × Vec F S512x1024 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The stage's invariant before position `n`: before the first point the accumulator holds anything; afterwards it
    holds what the point before left. The other scoped buffers and the generator register ride along. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 c) ∗ (∃ r, prngReg c r)) := by
  cases n with
  | zero => exact absurd rfl hz
  | succ n => rfl

/-- The stage's proof data on core `c`: the arrays as the stage finds them; after the body each input's buffer at its
    block and the output's at the accumulation's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; the closed forms of the two conditions say which case the
    point is in; the invariant hands the body the accumulator (at anything at the first point, else at what the point
    before left) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _)
            iexact HR
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_C c (grid2.coords t) _ _ _ _ _ _ _ _ (fun h => h0 ((hcond2_0 t).mp h)) ((hcond2_1 t).mpr h1) (iblk2 V c 0 t) (iblk2 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover2_C_2 c _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _)
            iexact HR
          iexact Hg
        isplitl [Ho]; · iexact Ho
        isplitl [H0]; · iexact H0
        isplitl [H1]; · iexact H1
        iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the stage is the invariant before the first point. -/
theorem hinΦ2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's form back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem houtΦ2 (c : Dev nD) : (dat2 V c).Φ (Fin.last cfg2.N) ⊢ Pipeline.ΦA spec2 c :=
  Phi_out2 V c _ (by rw [Fin.val_last]; have : cfg2.N = 128 := N_2; omega)

end

end Cert.KernelIdeal.Hand

end
-- ==== Proof.KI.Run.lean ====
import proofs.«174921_j76965813944408_2_alg».proof.Proof.KI.R0Frame
import proofs.«174921_j76965813944408_2_alg».proof.Proof.KI.R1Frame
import proofs.«174921_j76965813944408_2_alg».proof.Proof.KI.R2Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: three stages in a row

The buffer contents at each stage boundary are a fold from the launch memory: a stage's arrays at what its pipeline
leaves, every other buffer as entered. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev Vv0 : (c : Dev nD) → (b : Ref sig .tc) → Buf (Elt F) ((c : Thread nD τ).loc b) := fun c b => W0 m ρ c b

/-- At stage 1's exit: its arrays at what the pipeline leaves (the inputs as entered, the output's write-backs
    folded), every other buffer as entered. -/
def W1 (c : Dev nD) : Valuation τ sig (Elt F) :=
  Pipeline.withArrays spec0 c (W0 m ρ c) fun w => (dat0 (Vv0 m ρ) c).arrAt w cfg0.N
theorem W1_arr (c : Dev nD) (w : Fin cfg0.W) :
    W1 m ρ c (Proc.devRef .tc (Pipeline.arrRef spec0 w)) = (dat0 (Vv0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev Vv1 : (c : Dev nD) → (b : Ref sig .tc) → Buf (Elt F) ((c : Thread nD τ).loc b) := fun c b => W1 m ρ c b
theorem hF0 (c : Dev nD) (w : Fin cfg0.W) : (dat0 (Vv0 m ρ) c).arrAt w cfg0.N = Vv1 m ρ c (Pipeline.arrRef spec0 w) :=
  (W1_arr m ρ c w).symm
theorem hrest0 (c : Dev nD) : ∀ b, b ∉ Finset.univ.image (Pipeline.arrRef spec0) → Vv1 m ρ c b = Vv0 m ρ c b :=
  fun b hb => W1_of_ne m ρ c b fun w e => hb (Finset.mem_image.mpr ⟨w, Finset.mem_univ _, e⟩)

/-- At stage 2's exit: its arrays at what the pipeline leaves (the inputs as entered, the output's write-backs
    folded), every other buffer as entered. -/
def W2 (c : Dev nD) : Valuation τ sig (Elt F) :=
  Pipeline.withArrays spec1 c (W1 m ρ c) fun w => (dat1 (Vv1 m ρ) c).arrAt w cfg1.N
theorem W2_arr (c : Dev nD) (w : Fin cfg1.W) :
    W2 m ρ c (Proc.devRef .tc (Pipeline.arrRef spec1 w)) = (dat1 (Vv1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev Vv2 : (c : Dev nD) → (b : Ref sig .tc) → Buf (Elt F) ((c : Thread nD τ).loc b) := fun c b => W2 m ρ c b
theorem hF1 (c : Dev nD) (w : Fin cfg1.W) : (dat1 (Vv1 m ρ) c).arrAt w cfg1.N = Vv2 m ρ c (Pipeline.arrRef spec1 w) :=
  (W2_arr m ρ c w).symm
theorem hrest1 (c : Dev nD) : ∀ b, b ∉ Finset.univ.image (Pipeline.arrRef spec1) → Vv2 m ρ c b = Vv1 m ρ c b :=
  fun b hb => W2_of_ne m ρ c b fun w e => hb (Finset.mem_image.mpr ⟨w, Finset.mem_univ _, e⟩)

/-- At stage 3's exit: its arrays at what the pipeline leaves (the inputs as entered, the output's write-backs
    folded), every other buffer as entered. -/
def W3 (c : Dev nD) : Valuation τ sig (Elt F) :=
  Pipeline.withArrays spec2 c (W2 m ρ c) fun w => (dat2 (Vv2 m ρ) c).arrAt w cfg2.N
theorem W3_arr (c : Dev nD) (w : Fin cfg2.W) :
    W3 m ρ c (Proc.devRef .tc (Pipeline.arrRef spec2 w)) = (dat2 (Vv2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev Vv3 : (c : Dev nD) → (b : Ref sig .tc) → Buf (Elt F) ((c : Thread nD τ).loc b) := fun c b => W3 m ρ c b
theorem hF2 (c : Dev nD) (w : Fin cfg2.W) : (dat2 (Vv2 m ρ) c).arrAt w cfg2.N = Vv3 m ρ c (Pipeline.arrRef spec2 w) :=
  (W3_arr m ρ c w).symm
theorem hrest2 (c : Dev nD) : ∀ b, b ∉ Finset.univ.image (Pipeline.arrRef spec2) → Vv3 m ρ c b = Vv2 m ρ c b :=
  fun b hb => W3_of_ne m ρ c b fun w e => hb (Finset.mem_image.mpr ⟨w, Finset.mem_univ _, e⟩)

/-- `main_arg0` ends as launched: stage 1 reads it through an input window and no stage writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (Vv0 m ρ) c).arrAt_in 0 rfl _).trans (A_eq0 (Vv0 m ρ) c 0))
    _ = m ((c : Thread nD τ).loc main_arg0) := rfl

/-- `main_arg1` ends as launched: stage 1 reads it through an input window and no stage writes it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 1).trans (((dat0 (Vv0 m ρ) c).arrAt_in 1 rfl _).trans (A_eq0 (Vv0 m ρ) c 1))
    _ = m ((c : Thread nD τ).loc main_arg1) := rfl

/-- `main_arg2` ends as launched: stage 2 reads it through an input window and no stage writes it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat1 (Vv1 m ρ) c).arrAt_in 1 rfl _).trans (A_eq1 (Vv1 m ρ) c 1))
    _ = W0 m ρ c (Proc.devRef .tc main_arg2) := W1_of_ne m ρ c main_arg2 (by decide)
    _ = m ((c : Thread nD τ).loc main_arg2) := rfl

/-- `main_arg3` ends as launched: stage 3 reads it through an input window and no stage writes it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 1).trans (((dat2 (Vv2 m ρ) c).arrAt_in 1 rfl _).trans (A_eq2 (Vv2 m ρ) c 1))
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-- The result array ends at what stage 3's pipeline leaves in its output window's array. -/
theorem W3_main_v2 (c : Dev nD) : W3 m ρ c (Proc.devRef .tc main_v2) = (dat2 (Vv2 m ρ) c).arrAt 2 cfg2.N :=
  W3_arr m ρ c 2

/-! ## The proof data family and the thread state -/

abbrev adm3 : (p : Fin 3) → (pcfgs (F := F) p).Adm := fun p => (cfgs p).toPCfg_adm
/-- Every pipeline's proof data, each at its stage's entry contents. -/
def pdats : (p : Fin 3) → (c : Dev nD) → Dat τ (Elt F) Unit ℕ (UR sig nD τ) ℕ (Pipeline.pin (pcfgs (F := F)) adm3 p) c
  | ⟨0, _⟩ => fun c => dat0 (Vv0 m ρ) c
  | ⟨1, _⟩ => fun c => dat1 (Vv1 m ρ) c
  | ⟨2, _⟩ => fun c => dat2 (Vv2 m ρ) c
abbrev 𝒱h : Variants := Variants.none
abbrev Lh : GSem nD τ sig → Finset Unit := fun _ => ∅
abbrev lvh : GSem nD τ sig → Unit → ℕ := fun _ _ => 0
/-- What rides beside the buffers through every segment: the generator register at some state and the core owing nothing. -/
abbrev Rh (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W3 m ρ c) ∗ ∃ r, prngReg c r)

set_option backward.isDefEq.respectTransparency.types false in
/-- STAGE 1 as a segment: entered from every unscoped buffer at `W0`, left at `W1`. Its arrays are split out of
    the unscoped buffers and put back at the exit contents; the generator register goes into the stage's invariant and
    comes back; nothing is owed; the kernel has no semaphore of its own. -/
def reg0 : Pipeline.RegionSeg (pcfgs (F := F)) adm3 (pdats m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Vv0 m ρ) c).loose
  hwaits := Pipeline.hwaits_of_owed_zero _ _ _ _ Lh lvh 0 fun _ _ => rfl
  pre c := iprop(StableHlo.held (c : Thread nD τ) (Pipeline.ucRefs τ sig) (W0 m ρ c) ∗ Rh c)
  post c := iprop(StableHlo.held (c : Thread nD τ) (Pipeline.ucRefs τ sig) (W1 m ρ c) ∗ Rh c)
  X c := iprop(∃ r, prngReg c r)
  Y c := iprop(∃ r, prngReg c r)
  Z c := Pipeline.unscopedRest (Ix := Unit) (Name := ℕ) (U := UR sig nD τ) (Lvl := ℕ) spec0 c (Vv0 m ρ c)
  hentry c := by
    rw [Pipeline.ownSems0_none]
    have hsplit := Pipeline.arrays_of_unscopedBufs (p := 0) (pcfgs (F := F)) adm3 (pdats m ρ) launch0.win launch0.arr_whole c
      ((pdats m ρ 0 c).share_full fun _ => rfl) (Vv0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    show (dat0 (Vv0 m ρ) c).Φ (Fin.last cfg0.N) ⊢ _
    iintro H
    ihave H' := (houtΦ0 (Vv0 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm3 (Ix := Unit) (Name := ℕ) (U := UR sig nD τ) (Lvl := ℕ)
      launch0.win launch0.arr_whole c (pdats m ρ) ((pdats m ρ 0 c).share_full fun _ => rfl)
      (Vv0 m ρ c) (Vv1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- STAGE 2 as a segment: entered from every unscoped buffer at `W1`, left at `W2`. Its arrays are split out of
    the unscoped buffers and put back at the exit contents; the generator register goes into the stage's invariant and
    comes back; nothing is owed; the kernel has no semaphore of its own. -/
def reg1 : Pipeline.RegionSeg (pcfgs (F := F)) adm3 (pdats m ρ) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (Vv1 m ρ) c).loose
  hwaits := Pipeline.hwaits_of_owed_zero _ _ _ _ Lh lvh 1 fun _ _ => rfl
  pre c := iprop(StableHlo.held (c : Thread nD τ) (Pipeline.ucRefs τ sig) (W1 m ρ c) ∗ Rh c)
  post c := iprop(StableHlo.held (c : Thread nD τ) (Pipeline.ucRefs τ sig) (W2 m ρ c) ∗ Rh c)
  X c := iprop(∃ r, prngReg c r)
  Y c := iprop(∃ r, prngReg c r)
  Z c := Pipeline.unscopedRest (Ix := Unit) (Name := ℕ) (U := UR sig nD τ) (Lvl := ℕ) spec1 c (Vv1 m ρ c)
  hentry c := by
    rw [Pipeline.ownSems0_none]
    have hsplit := Pipeline.arrays_of_unscopedBufs (p := 1) (pcfgs (F := F)) adm3 (pdats m ρ) launch1.win launch1.arr_whole c
      ((pdats m ρ 1 c).share_full fun _ => rfl) (Vv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    show (dat1 (Vv1 m ρ) c).Φ (Fin.last cfg1.N) ⊢ _
    iintro H
    ihave H' := (houtΦ1 (Vv1 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm3 (Ix := Unit) (Name := ℕ) (U := UR sig nD τ) (Lvl := ℕ)
      launch1.win launch1.arr_whole c (pdats m ρ) ((pdats m ρ 1 c).share_full fun _ => rfl)
      (Vv1 m ρ c) (Vv2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- STAGE 3 as a segment: entered from every unscoped buffer at `W2`, left at `W3`. Its arrays are split out of
    the unscoped buffers and put back at the exit contents; the generator register goes into the stage's invariant and
    comes back; nothing is owed; the kernel has no semaphore of its own. -/
def reg2 : Pipeline.RegionSeg (pcfgs (F := F)) adm3 (pdats m ρ) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (Vv2 m ρ) c).loose
  hwaits := Pipeline.hwaits_of_owed_zero _ _ _ _ Lh lvh 2 fun _ _ => rfl
  pre c := iprop(StableHlo.held (c : Thread nD τ) (Pipeline.ucRefs τ sig) (W2 m ρ c) ∗ Rh c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vv2 m ρ c)
  hentry c := by
    rw [Pipeline.ownSems0_none]
    have hsplit := Pipeline.arrays_of_unscopedBufs (p := 2) (pcfgs (F := F)) adm3 (pdats m ρ) launch2.win launch2.arr_whole c
      ((pdats m ρ 2 c).share_full fun _ => rfl) (Vv2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    show (dat2 (Vv2 m ρ) c).Φ (Fin.last cfg2.N) ⊢ _
    iintro H
    ihave H' := (houtΦ2 (Vv2 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm3 (Ix := Unit) (Name := ℕ) (U := UR sig nD τ) (Lvl := ℕ)
      launch2.win launch2.arr_whole c (pdats m ρ) ((pdats m ρ 2 c).share_full fun _ => rfl)
      (Vv2 m ρ c) (Vv3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three segments in order. -/
abbrev segs3 : List (Pipeline.Seg (pcfgs (F := F)) adm3 (pdats m ρ) () defs₀ 𝒱h Lh lvh) :=
  [ .region (reg0 m ρ), .region (reg1 m ρ), .region (reg2 m ρ) ]
theorem main_run3 (c : Dev nD) : main (F := F) c = Pipeline.Seg.run (segs3 m ρ) := (main_chain c).trans (by chain_rfl)

set_option backward.isDefEq.respectTransparency.types false in
/-- THE RUN. From any memory with zero counters every weakly fair execution of the program terminates, nothing
    faulting, and every final state has the result array at what stage 3's pipeline leaves and the four arguments as
    launched. -/
theorem run_main : θ_run defs (onTc (τ := τ) (main (F := F))) ⟨m, fun _ => 0, ρ⟩ (fun r => ∀ c : Dev nD,
      r.2.mem ((c.tc : Thread nD τ).loc main_v2) = (dat2 (Vv2 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm3 (pdats m ρ) () cellOf_inj emb₁ defs₀ 𝒱h Lh lvh m ρ main (segs3 m ρ)
    (fun c Q => by rw [main_run3 m ρ c])
    (by simp only [segs3, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rh c)) (Tₙ := Tend m ρ)
    (hch := ⟨fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_main_v2 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- The frame claim's post, at any `F`: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.MlpSpec.lean ====
/-
  A perceptron of three layers, applied expert by expert, as one function of its four argument arrays over the
  extended reals.  No program is mentioned here.

  For each of 8 experts e and each of 2048 rows n:
    h1[e, n, h] = leaky (∑ d < 1024, x[e, n, d] · w1[e, d, h])      (h < 4096)
    h2[e, n, h] = leaky (∑ d < 4096, h1[e, n, d] · w2[e, d, h])     (h < 4096)
    out[e, n, h] =       ∑ d < 4096, h2[e, n, d] · w3[e, d, h]      (h < 1024)
  where leaky a is a itself when a ≥ 0 and c · a otherwise, c the value the word 0x3C23D70A denotes (the single
  precision number nearest 0.01).  The comparison, the product and the two constants are spelt with the ideal
  instance's own scalar operations, so that a program's compare-and-select at an element is this function by
  unfolding alone; the constant is never evaluated.
-/
import Idealize.ShloMosaic.PureOps.Ideal
import Idealize.ShloMosaic.Lib.ValueIdx
import Mathlib.Algebra.BigOperators.Fin

noncomputable section

namespace Cert.MlpSpec

open Idealize.ShloMosaic Idealize.ShloMosaic.ValueIdx

/-- The leaky rectifier on an extended real: a when a ≥ 0, else c · a. -/
def leaky (a : EReal) : EReal :=
  Scalar.select (FloatOps.cmpf (F := Ideal) (φ := .f32) .oge a (FloatOps.ofBits (F := Ideal) .f32 0x00000000#32)) a
    (FloatOps.mulf (F := Ideal) (φ := .f32) (FloatOps.ofBits (F := Ideal) .f32 0x3C23D70A#32) a)

/-- The same, with the comparison read in the order of the extended reals. -/
theorem leaky_eq (a : EReal) :
    leaky a = if Ideal.ofBits .f32 0x00000000#32 ≤ a then a else Ideal.ofBits .f32 0x3C23D70A#32 * a := by
  unfold leaky Scalar.select
  by_cases h : Ideal.ofBits .f32 0x00000000#32 ≤ a
  · rw [if_pos h, if_pos]
    show BitVec.ofBool (decide (Ideal.ofBits .f32 0x00000000#32 ≤ a)) = 1#1
    rw [decide_eq_true h]; rfl
  · rw [if_neg h, if_neg]
    · rfl
    · show ¬BitVec.ofBool (decide (Ideal.ofBits .f32 0x00000000#32 ≤ a)) = 1#1
      rw [decide_eq_false h]; decide

/-! ## One entry of each layer, by coordinates -/

/-- Entry (e, n, h) of the first layer: 1024 terms. -/
def stage1At (x : (⟨3, ![8, 2048, 1024]⟩ : Shape).Idx → EReal) (w : (⟨3, ![8, 1024, 4096]⟩ : Shape).Idx → EReal)
    (e : Fin 8) (n : Fin 2048) (h : Fin 4096) : EReal :=
  leaky (∑ k : Fin 1024, x (ix3 e n k) * w (ix3 e k h))

/-- Entry (e, n, h) of the second layer: 4096 terms. -/
def stage2At (x : (⟨3, ![8, 2048, 4096]⟩ : Shape).Idx → EReal) (w : (⟨3, ![8, 4096, 4096]⟩ : Shape).Idx → EReal)
    (e : Fin 8) (n : Fin 2048) (h : Fin 4096) : EReal :=
  leaky (∑ k : Fin 4096, x (ix3 e n k) * w (ix3 e k h))

/-- Entry (e, n, h) of the third layer: 4096 terms, no rectifier. -/
def stage3At (x : (⟨3, ![8, 2048, 4096]⟩ : Shape).Idx → EReal) (w : (⟨3, ![8, 4096, 1024]⟩ : Shape).Idx → EReal)
    (e : Fin 8) (n : Fin 2048) (h : Fin 1024) : EReal :=
  ∑ k : Fin 4096, x (ix3 e n k) * w (ix3 e k h)

/-! ## The layers as whole arrays -/

/-- The first layer. -/
def stage1 (x : (⟨3, ![8, 2048, 1024]⟩ : Shape).Idx → EReal) (w : (⟨3, ![8, 1024, 4096]⟩ : Shape).Idx → EReal) :
    (⟨3, ![8, 2048, 4096]⟩ : Shape).Idx → EReal :=
  fun i => stage1At x w (i 0) (i 1) (i 2)

/-- The second layer. -/
def stage2 (x : (⟨3, ![8, 2048, 4096]⟩ : Shape).Idx → EReal) (w : (⟨3, ![8, 4096, 4096]⟩ : Shape).Idx → EReal) :
    (⟨3, ![8, 2048, 4096]⟩ : Shape).Idx → EReal :=
  fun i => stage2At x w (i 0) (i 1) (i 2)

/-- The third layer. -/
def stage3 (x : (⟨3, ![8, 2048, 4096]⟩ : Shape).Idx → EReal) (w : (⟨3, ![8, 4096, 1024]⟩ : Shape).Idx → EReal) :
    (⟨3, ![8, 2048, 1024]⟩ : Shape).Idx → EReal :=
  fun i => stage3At x w (i 0) (i 1) (i 2)

/-- The three layers in turn. -/
def mlp (x : (⟨3, ![8, 2048, 1024]⟩ : Shape).Idx → EReal) (w1 : (⟨3, ![8, 1024, 4096]⟩ : Shape).Idx → EReal)
    (w2 : (⟨3, ![8, 4096, 4096]⟩ : Shape).Idx → EReal) (w3 : (⟨3, ![8, 4096, 1024]⟩ : Shape).Idx → EReal) :
    (⟨3, ![8, 2048, 1024]⟩ : Shape).Idx → EReal :=
  stage3 (stage2 (stage1 x w1) w2) w3

/-! ## The layers read at an index given by its coordinates -/

theorem stage1_apply (x : (⟨3, ![8, 2048, 1024]⟩ : Shape).Idx → EReal) (w : (⟨3, ![8, 1024, 4096]⟩ : Shape).Idx → EReal)
    (e : Fin 8) (n : Fin 2048) (h : Fin 4096) :
    stage1 x w (ix3 e n h) = leaky (∑ k : Fin 1024, x (ix3 e n k) * w (ix3 e k h)) := rfl

theorem stage2_apply (x : (⟨3, ![8, 2048, 4096]⟩ : Shape).Idx → EReal) (w : (⟨3, ![8, 4096, 4096]⟩ : Shape).Idx → EReal)
    (e : Fin 8) (n : Fin 2048) (h : Fin 4096) :
    stage2 x w (ix3 e n h) = leaky (∑ k : Fin 4096, x (ix3 e n k) * w (ix3 e k h)) := rfl

theorem stage3_apply (x : (⟨3, ![8, 2048, 4096]⟩ : Shape).Idx → EReal) (w : (⟨3, ![8, 4096, 1024]⟩ : Shape).Idx → EReal)
    (e : Fin 8) (n : Fin 2048) (h : Fin 1024) :
    stage3 x w (ix3 e n h) = ∑ k : Fin 4096, x (ix3 e n k) * w (ix3 e k h) := rfl

end Cert.MlpSpec

end
-- ==== Proof.RefValue.lean ====
/-
  The reference program's result, read at the ideal values, is the three-layer perceptron of its four arguments.

  Layer by layer: a batched contraction read at an index is the sum over the contracted coordinate of the products of
  the two operands' entries; the compare-with-zero, the product with the constant and the select that follow it are
  the leaky rectifier at that entry.  The third contraction is the result itself.
-/
import proofs.«174921_j76965813944408_2_alg».proof.Proof.Gen.ReferenceIdeal.Read
import proofs.«174921_j76965813944408_2_alg».proof.Proof.MlpSpec

noncomputable section

namespace Cert.ReferenceIdeal.RefValue

open Cert.ReferenceIdeal Cert.ReferenceIdeal.Gen Cert.ReferenceIdeal.Read Idealize.ShloMosaic Idealize.ShloMosaic.ValueIdx
open Cert.MlpSpec

/-! ## The operand indices of the three contractions, by coordinates -/

theorem lidx0 (e : Fin 8) (n : Fin 2048) (h : Fin 4096) (k : Fin 1024) : lidx_main_v0 (ix3 e n h) k = ix3 e n k :=
  funext fun a => Fin.ext (by match a with | ⟨0, _⟩ => rfl | ⟨1, _⟩ => rfl | ⟨2, _⟩ => rfl)
theorem ridx0 (e : Fin 8) (n : Fin 2048) (h : Fin 4096) (k : Fin 1024) : ridx_main_v0 (ix3 e n h) k = ix3 e k h :=
  funext fun a => Fin.ext (by match a with | ⟨0, _⟩ => rfl | ⟨1, _⟩ => rfl | ⟨2, _⟩ => rfl)
theorem lidx6 (e : Fin 8) (n : Fin 2048) (h : Fin 4096) (k : Fin 4096) : lidx_main_v6 (ix3 e n h) k = ix3 e n k :=
  funext fun a => Fin.ext (by match a with | ⟨0, _⟩ => rfl | ⟨1, _⟩ => rfl | ⟨2, _⟩ => rfl)
theorem ridx6 (e : Fin 8) (n : Fin 2048) (h : Fin 4096) (k : Fin 4096) : ridx_main_v6 (ix3 e n h) k = ix3 e k h :=
  funext fun a => Fin.ext (by match a with | ⟨0, _⟩ => rfl | ⟨1, _⟩ => rfl | ⟨2, _⟩ => rfl)
theorem lidx12 (e : Fin 8) (n : Fin 2048) (h : Fin 1024) (k : Fin 4096) : lidx_main_v12 (ix3 e n h) k = ix3 e n k :=
  funext fun a => Fin.ext (by match a with | ⟨0, _⟩ => rfl | ⟨1, _⟩ => rfl | ⟨2, _⟩ => rfl)
theorem ridx12 (e : Fin 8) (n : Fin 2048) (h : Fin 1024) (k : Fin 4096) : ridx_main_v12 (ix3 e n h) k = ix3 e k h :=
  funext fun a => Fin.ext (by match a with | ⟨0, _⟩ => rfl | ⟨1, _⟩ => rfl | ⟨2, _⟩ => rfl)

/-! ## The layers -/

/-- The first rectified contraction is the first layer. -/
theorem h1_eq (x0 : (⟨S8x2048x1024, .f32⟩ : BufTy).Contents (Elt Ideal)) (x1 : (⟨S8x1024x4096, .f32⟩ : BufTy).Contents (Elt Ideal)) :
    val_main_v5 (F := Ideal) x0 x1 = stage1 x0 x1 := by
  funext i
  obtain ⟨e, n, h, rfl⟩ : ∃ (e : Fin 8) (n : Fin 2048) (h : Fin 4096), i = ix3 e n h := ⟨i 0, i 1, i 2, eq_ix3 i⟩
  rw [val_main_v5_apply, val_main_v2_apply, val_main_v4_apply, val_main_v1_apply, val_main_v3_apply, val_main_cst_apply,
    val_main_cst_0_apply, val_main_v0_apply]
  simp only [lidx0, ridx0]
  rfl

/-- The second rectified contraction is the second layer of its left operand. -/
theorem h2_eq (x0 : (⟨S8x2048x1024, .f32⟩ : BufTy).Contents (Elt Ideal)) (x1 : (⟨S8x1024x4096, .f32⟩ : BufTy).Contents (Elt Ideal))
    (x2 : (⟨S8x4096x4096, .f32⟩ : BufTy).Contents (Elt Ideal)) :
    val_main_v11 (F := Ideal) x0 x1 x2 = stage2 (val_main_v5 (F := Ideal) x0 x1) x2 := by
  funext i
  obtain ⟨e, n, h, rfl⟩ : ∃ (e : Fin 8) (n : Fin 2048) (h : Fin 4096), i = ix3 e n h := ⟨i 0, i 1, i 2, eq_ix3 i⟩
  rw [val_main_v11_apply, val_main_v8_apply, val_main_v10_apply, val_main_v7_apply, val_main_v9_apply, val_main_cst_1_apply,
    val_main_cst_2_apply, val_main_v6_apply]
  simp only [lidx6, ridx6]
  rfl

/-- The third contraction is the third layer of its left operand. -/
theorem out_eq (x0 : (⟨S8x2048x1024, .f32⟩ : BufTy).Contents (Elt Ideal)) (x1 : (⟨S8x1024x4096, .f32⟩ : BufTy).Contents (Elt Ideal))
    (x2 : (⟨S8x4096x4096, .f32⟩ : BufTy).Contents (Elt Ideal)) (x3 : (⟨S8x4096x1024, .f32⟩ : BufTy).Contents (Elt Ideal)) :
    val_main_v12 (F := Ideal) x0 x1 x2 x3 = stage3 (val_main_v11 (F := Ideal) x0 x1 x2) x3 := by
  funext i
  obtain ⟨e, n, h, rfl⟩ : ∃ (e : Fin 8) (n : Fin 2048) (h : Fin 1024), i = ix3 e n h := ⟨i 0, i 1, i 2, eq_ix3 i⟩
  rw [val_main_v12_apply]
  simp only [lidx12, ridx12]
  rfl

/-- The reference's result is the perceptron of its arguments. -/
theorem ref_eq (x0 : (⟨S8x2048x1024, .f32⟩ : BufTy).Contents (Elt Ideal)) (x1 : (⟨S8x1024x4096, .f32⟩ : BufTy).Contents (Elt Ideal))
    (x2 : (⟨S8x4096x4096, .f32⟩ : BufTy).Contents (Elt Ideal)) (x3 : (⟨S8x4096x1024, .f32⟩ : BufTy).Contents (Elt Ideal)) :
    val_main_v12 (F := Ideal) x0 x1 x2 x3 = mlp x0 x1 x2 x3 := by
  rw [out_eq, h2_eq, h1_eq]
  rfl

end Cert.ReferenceIdeal.RefValue

end
-- ==== Proof.PayValue.lean ====
/-
  The arithmetic of one grid step of each of the three stage kernels, read at an entry, at the ideal values.

  A step of a stage reads a tile x of the left operand (rows p, contracted positions k), a tile w of the right operand
  (contracted positions k, columns q) and the accumulator acc, and writes back acc[p, q] + ∑ k, x[p, k] · w[k, q]: the
  matrix unit's product goes into a zero accumulator and is then added, and the changes of float format on the way in
  are the identity on the extended reals.  The first step of a row tile first sets the accumulator to zero; the last
  one writes the accumulator to the output block, through the leaky rectifier in the first two stages and as it is in
  the third.  Leading axes of extent one are dropped and added by shape casts that keep the row-major position.
-/
import proofs.«174921_j76965813944408_2_alg».proof.Proof.Gen.KernelIdeal.Skeleton
import proofs.«174921_j76965813944408_2_alg».proof.Proof.MlpSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-! ## The two matrix products at an entry -/

theorem matmul_256_512_4096_l0 (j : S256x4096.Idx) (k : dot_S256x512_S512x4096_S256x4096_1_0_0_1_n_n.contr.Idx) : (dot_S256x512_S512x4096_S256x4096_1_0_0_1_n_n.lhsIdx j k 0).val = (j 0).val := by
  unfold DotDims.lhsIdx
  rw [dif_neg (show ¬(0 : Fin S256x512.rank) ∈ dot_S256x512_S512x4096_S256x4096_1_0_0_1_n_n.lhsBatch by decide),
    dif_pos (show (0 : Fin S256x512.rank) ∈ dot_S256x512_S512x4096_S256x4096_1_0_0_1_n_n.lhsNonContracting by decide)]
  rfl
theorem matmul_256_512_4096_l1 (j : S256x4096.Idx) (k : dot_S256x512_S512x4096_S256x4096_1_0_0_1_n_n.contr.Idx) : (dot_S256x512_S512x4096_S256x4096_1_0_0_1_n_n.lhsIdx j k 1).val = (k ⟨0, by decide⟩).val :=
  dot_S256x512_S512x4096_S256x4096_1_0_0_1_n_n.lhsIdx_val_of_single rfl j k
theorem matmul_256_512_4096_r0 (j : S256x4096.Idx) (k : dot_S256x512_S512x4096_S256x4096_1_0_0_1_n_n.contr.Idx) : (dot_S256x512_S512x4096_S256x4096_1_0_0_1_n_n.rhsIdx j k 0).val = (k ⟨0, by decide⟩).val :=
  dot_S256x512_S512x4096_S256x4096_1_0_0_1_n_n.rhsIdx_val_of_single rfl j k
theorem matmul_256_512_4096_r1 (j : S256x4096.Idx) (k : dot_S256x512_S512x4096_S256x4096_1_0_0_1_n_n.contr.Idx) : (dot_S256x512_S512x4096_S256x4096_1_0_0_1_n_n.rhsIdx j k 1).val = (j 1).val := by
  unfold DotDims.rhsIdx
  rw [dif_neg (show ¬(1 : Fin S512x4096.rank) ∈ dot_S256x512_S512x4096_S256x4096_1_0_0_1_n_n.rhsBatch by decide),
    dif_pos (show (1 : Fin S512x4096.rank) ∈ dot_S256x512_S512x4096_S256x4096_1_0_0_1_n_n.rhsNonContracting by decide)]
  rfl

/-- The 256×512 by 512×4096 product into a zero accumulator, read at (p, q): the sum over the contracted coordinate. -/
theorem matmul_256_512_4096 {φ₁ φ₂ : FTy} (a : FVec Ideal S256x512 φ₁) (b : FVec Ideal S512x4096 φ₂) (p : Fin 256) (q : Fin 4096) :
    matmul dot_S256x512_S512x4096_S256x4096_1_0_0_1_n_n none a b (constant (F := Ideal) S256x4096 .f32 0x00000000#32) (ix2 p q)
      = ∑ k : Fin 512, a (ix2 p k) * b (ix2 k q) := by
  refine (Ideal.matmul_constant_zero_apply dot_S256x512_S512x4096_S256x4096_1_0_0_1_n_n none a b (ix2 p q)).trans ?_
  rw [← Equiv.sum_comp (contrEquiv1 dot_S256x512_S512x4096_S256x4096_1_0_0_1_n_n 512 rfl rfl).symm]
  refine Finset.sum_congr rfl fun k _ => ?_
  have hk := contrEquiv1_symm_val dot_S256x512_S512x4096_S256x4096_1_0_0_1_n_n 512 rfl rfl k
  have el : dot_S256x512_S512x4096_S256x4096_1_0_0_1_n_n.lhsIdx (ix2 p q) ((contrEquiv1 dot_S256x512_S512x4096_S256x4096_1_0_0_1_n_n 512 rfl rfl).symm k) = ix2 p k :=
    funext fun c => Fin.ext (by
      match c with
      | ⟨0, _⟩ => exact matmul_256_512_4096_l0 _ _
      | ⟨1, _⟩ => exact (matmul_256_512_4096_l1 _ _).trans hk)
  have er : dot_S256x512_S512x4096_S256x4096_1_0_0_1_n_n.rhsIdx (ix2 p q) ((contrEquiv1 dot_S256x512_S512x4096_S256x4096_1_0_0_1_n_n 512 rfl rfl).symm k) = ix2 k q :=
    funext fun c => Fin.ext (by
      match c with
      | ⟨0, _⟩ => exact (matmul_256_512_4096_r0 _ _).trans hk
      | ⟨1, _⟩ => exact matmul_256_512_4096_r1 _ _)
  rw [el, er]

theorem matmul_512_1024_1024_l0 (j : S512x1024.Idx) (k : dot_S512x1024_S1024x1024_S512x1024_1_0_0_1_n_n.contr.Idx) : (dot_S512x1024_S1024x1024_S512x1024_1_0_0_1_n_n.lhsIdx j k 0).val = (j 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem matmul_512_1024_1024_l1 (j : S512x1024.Idx) (k : dot_S512x1024_S1024x1024_S512x1024_1_0_0_1_n_n.contr.Idx) : (dot_S512x1024_S1024x1024_S512x1024_1_0_0_1_n_n.lhsIdx j k 1).val = (k ⟨0, by decide⟩).val :=
  dot_S512x1024_S1024x1024_S512x1024_1_0_0_1_n_n.lhsIdx_val_of_single rfl j k
theorem matmul_512_1024_1024_r0 (j : S512x1024.Idx) (k : dot_S512x1024_S1024x1024_S512x1024_1_0_0_1_n_n.contr.Idx) : (dot_S512x1024_S1024x1024_S512x1024_1_0_0_1_n_n.rhsIdx j k 0).val = (k ⟨0, by decide⟩).val :=
  dot_S512x1024_S1024x1024_S512x1024_1_0_0_1_n_n.rhsIdx_val_of_single rfl j k
theorem matmul_512_1024_1024_r1 (j : S512x1024.Idx) (k : dot_S512x1024_S1024x1024_S512x1024_1_0_0_1_n_n.contr.Idx) : (dot_S512x1024_S1024x1024_S512x1024_1_0_0_1_n_n.rhsIdx j k 1).val = (j 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The 512×1024 by 1024×1024 product into a zero accumulator, read at (p, q): the sum over the contracted coordinate. -/
theorem matmul_512_1024_1024 {φ₁ φ₂ : FTy} (a : FVec Ideal S512x1024 φ₁) (b : FVec Ideal S1024x1024 φ₂) (p : Fin 512) (q : Fin 1024) :
    matmul dot_S512x1024_S1024x1024_S512x1024_1_0_0_1_n_n none a b (constant (F := Ideal) S512x1024 .f32 0x00000000#32) (ix2 p q)
      = ∑ k : Fin 1024, a (ix2 p k) * b (ix2 k q) := by
  refine (Ideal.matmul_constant_zero_apply dot_S512x1024_S1024x1024_S512x1024_1_0_0_1_n_n none a b (ix2 p q)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k :=
    funext fun c => Fin.ext (by
      match c with
      | ⟨0, _⟩ => exact matmul_512_1024_1024_l0 _ _
      | ⟨1, _⟩ => exact (matmul_512_1024_1024_l1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q :=
    funext fun c => Fin.ext (by
      match c with
      | ⟨0, _⟩ => exact (matmul_512_1024_1024_r0 _ _).trans hk
      | ⟨1, _⟩ => exact matmul_512_1024_1024_r1 _ _)
  rw [el, er]

/-! ## Stage 1: tiles of 256 rows, 512 contracted, 4096 columns -/

/-- What the first step of a row tile writes into the accumulator: zero. -/
theorem k0_pay1_apply (p : Fin 256) (q : Fin 4096) : k0_pay1 (F := Ideal) (ix2 p q) = 0 := by
  unfold k0_pay1
  refine (congrFun (shapeCast_self _ _) (ix2 p q)).trans ?_
  exact Ideal.ofBits_zero_f32

/-- What every step writes into the accumulator: its previous entry plus this tile's partial product. -/
theorem k0_pay2_apply (x : FVec Ideal S1x256x512 .f32) (w : FVec Ideal S1x512x4096 .f32) (acc : FVec Ideal S256x4096 .f32)
    (p : Fin 256) (q : Fin 4096) :
    k0_pay2 (F := Ideal) x w acc (ix2 p q) = acc (ix2 p q) + ∑ k : Fin 512, x (ix3 0 p k) * w (ix3 0 k q) := by
  unfold k0_pay2
  refine (congrFun (shapeCast_self _ _) (ix2 p q)).trans ?_
  refine congrArg (acc (ix2 p q) + ·) ?_
  refine (matmul_256_512_4096 _ _ p q).trans ?_
  refine Finset.sum_congr rfl fun k _ => ?_
  exact congrArg₂ (· * ·) (shapeCast_1ab_ab_apply x _ p k) (shapeCast_1ab_ab_apply w _ k q)

/-- What the last step writes into the output block: the rectified accumulator. -/
theorem k0_pay3_apply (acc : FVec Ideal S256x4096 .f32) (p : Fin 256) (q : Fin 4096) :
    k0_pay3 (F := Ideal) acc (ix3 0 p q) = MlpSpec.leaky (acc (ix2 p q)) := by
  unfold k0_pay3
  refine (shapeCast_ab_1ab_apply _ _ 0 p q).trans ?_
  rfl

/-! ## Stage 2: tiles of 256 rows, 512 contracted, 4096 columns -/

/-- What the first step of a row tile writes into the accumulator: zero. -/
theorem k1_pay1_apply (p : Fin 256) (q : Fin 4096) : k1_pay1 (F := Ideal) (ix2 p q) = 0 := by
  unfold k1_pay1
  refine (congrFun (shapeCast_self _ _) (ix2 p q)).trans ?_
  exact Ideal.ofBits_zero_f32

/-- What every step writes into the accumulator: its previous entry plus this tile's partial product. -/
theorem k1_pay2_apply (x : FVec Ideal S1x256x512 .bf16) (w : FVec Ideal S1x512x4096 .f32) (acc : FVec Ideal S256x4096 .f32)
    (p : Fin 256) (q : Fin 4096) :
    k1_pay2 (F := Ideal) x w acc (ix2 p q) = acc (ix2 p q) + ∑ k : Fin 512, x (ix3 0 p k) * w (ix3 0 k q) := by
  unfold k1_pay2
  refine (congrFun (shapeCast_self _ _) (ix2 p q)).trans ?_
  refine congrArg (acc (ix2 p q) + ·) ?_
  refine (matmul_256_512_4096 _ _ p q).trans ?_
  refine Finset.sum_congr rfl fun k _ => ?_
  exact congrArg₂ (· * ·) (shapeCast_1ab_ab_apply x _ p k) (shapeCast_1ab_ab_apply w _ k q)

/-- What the last step writes into the output block: the rectified accumulator. -/
theorem k1_pay3_apply (acc : FVec Ideal S256x4096 .f32) (p : Fin 256) (q : Fin 4096) :
    k1_pay3 (F := Ideal) acc (ix3 0 p q) = MlpSpec.leaky (acc (ix2 p q)) := by
  unfold k1_pay3
  refine (shapeCast_ab_1ab_apply _ _ 0 p q).trans ?_
  rfl

/-! ## Stage 3: tiles of 512 rows, 1024 contracted, 1024 columns -/

/-- What the first step of a row tile writes into the accumulator: zero. -/
theorem k2_pay1_apply (p : Fin 512) (q : Fin 1024) : k2_pay1 (F := Ideal) (ix2 p q) = 0 := by
  unfold k2_pay1
  refine (congrFun (shapeCast_self _ _) (ix2 p q)).trans ?_
  exact Ideal.ofBits_zero_f32

/-- What every step writes into the accumulator: its previous entry plus this tile's partial product. -/
theorem k2_pay2_apply (x : FVec Ideal S1x512x1024 .bf16) (w : FVec Ideal S1x1024x1024 .f32) (acc : FVec Ideal S512x1024 .f32)
    (p : Fin 512) (q : Fin 1024) :
    k2_pay2 (F := Ideal) x w acc (ix2 p q) = acc (ix2 p q) + ∑ k : Fin 1024, x (ix3 0 p k) * w (ix3 0 k q) := by
  unfold k2_pay2
  refine (congrFun (shapeCast_self _ _) (ix2 p q)).trans ?_
  refine congrArg (acc (ix2 p q) + ·) ?_
  refine (matmul_512_1024_1024 _ _ p q).trans ?_
  refine Finset.sum_congr rfl fun k _ => ?_
  exact congrArg₂ (· * ·) (shapeCast_1ab_ab_apply x _ p k) (shapeCast_1ab_ab_apply w _ k q)

/-- What the last step writes into the output block: the accumulator. -/
theorem k2_pay3_apply (acc : FVec Ideal S512x1024 .f32) (p : Fin 512) (q : Fin 1024) :
    k2_pay3 (F := Ideal) acc (ix3 0 p q) = acc (ix2 p q) := by
  unfold k2_pay3
  exact shapeCast_ab_1ab_apply _ _ 0 p q

end Cert.KernelIdeal.PayValue

end
-- ==== Proof.LibTileSum.lean ====
/-
  Sums cut into tiles, over any additive commutative monoid: no subtraction and no cancellation is used, so every
  statement holds where infinite values are allowed.

  A sum over K·T consecutive indices is the sum over K tiles of the T terms of each tile; an accumulator that starts
  from zero and adds one tile's sum per step holds, after step n, the sum of tiles 0 … n.  Together, at 8 tiles of
  1024: the accumulator after the eighth tile is the sum over all 8192 indices.
-/
import Mathlib.Algebra.BigOperators.Fin

namespace Cert.TileSum

variable {M : Type*} [AddCommMonoid M]

/-- Position q of tile j, tiles of T, lies below K·T when j is below K:
    j·T + q < j·T + T = (j + 1)·T ≤ K·T. -/
theorem tile_lt {K T : ℕ} (j : Fin K) (q : Fin T) : j.val * T + q.val < K * T :=
  calc j.val * T + q.val < j.val * T + T := Nat.add_lt_add_left q.isLt _
    _ = (j.val + 1) * T := (Nat.succ_mul _ _).symm
    _ ≤ K * T := Nat.mul_le_mul_right _ j.isLt

/-- A running total over tiles is the sum of the tiles, when the recurrence is known only for the tiles below a
    bound N: if A 0 is 0 plus tile 0's sum and, for j + 1 < N, A (j + 1) is A j plus tile (j + 1)'s sum, then for
    n < N, A n is the double sum over the tiles 0 … n. -/
theorem running_total_below {T : ℕ} (N : ℕ) (g : ℕ → Fin T → M) (A : ℕ → M)
    (h0 : A 0 = 0 + ∑ q, g 0 q) (hs : ∀ j, j + 1 < N → A (j + 1) = A j + ∑ q, g (j + 1) q) (n : ℕ) (hn : n < N) :
    A n = ∑ j ∈ Finset.range (n + 1), ∑ q, g j q := by
  induction n with
  | zero => rw [h0, zero_add, Finset.sum_range_one]
  | succ n ih =>
    rw [hs n hn, ih (Nat.lt_of_succ_lt hn)]
    exact (Finset.sum_range_succ (fun j => ∑ q, g j q) (n + 1)).symm

/-- A running total over tiles is the sum of the tiles: if A 0 is 0 plus tile 0's sum and each later A is the
    previous plus that tile's sum, A n is the double sum up to n. -/
theorem running_total {T : ℕ} (g : ℕ → Fin T → M) (A : ℕ → M)
    (h0 : A 0 = 0 + ∑ q, g 0 q) (hs : ∀ j, A (j + 1) = A j + ∑ q, g (j + 1) q) (n : ℕ) :
    A n = ∑ j ∈ Finset.range (n + 1), ∑ q, g j q :=
  running_total_below (n + 1) g A h0 (fun j _ => hs j) n (Nat.lt_succ_self n)

/-- A sum over K·T consecutive indices is the sum over K tiles of T: index j·T + q is position q of tile j, and
    (j, q) ↦ j·T + q is a bijection from pairs onto the indices below K·T. -/
theorem sum_tiles (K T : ℕ) (f : Fin (K * T) → M) :
    ∑ n, f n = ∑ j : Fin K, ∑ q : Fin T, f ⟨j.val * T + q.val, tile_lt j q⟩ := by
  rw [← Equiv.sum_comp finProdFinEquiv f, Fintype.sum_prod_type]
  refine Finset.sum_congr rfl fun j _ => Finset.sum_congr rfl fun q _ => congrArg f (Fin.ext ?_)
  rw [finProdFinEquiv_apply_val, Nat.mul_comm, Nat.add_comm]

/-- Tile j of a function on 8192 indices, by position in the tile; zero from the ninth tile on. -/
def tile8 (f : Fin 8192 → M) (j : ℕ) (q : Fin 1024) : M :=
  if h : j < 8 then f ⟨j * 1024 + q.val, by omega⟩ else 0

/-- Below the ninth tile it is the function at index j·1024 + q. -/
theorem tile8_of_lt (f : Fin 8192 → M) (j : ℕ) (hj : j < 8) (q : Fin 1024) :
    tile8 f j q = f ⟨j * 1024 + q.val, by omega⟩ := dif_pos hj

/-- The two together at 8 tiles of 1024: the accumulator after the eighth tile is the sum over all 8192. -/
theorem acc_eight (f : Fin 8192 → M) (A : ℕ → M)
    (h0 : A 0 = 0 + ∑ q : Fin 1024, f ⟨0 * 1024 + q.val, by omega⟩)
    (hs : ∀ j, (hj : j + 1 < 8) → A (j + 1) = A j + ∑ q : Fin 1024, f ⟨(j + 1) * 1024 + q.val, by omega⟩) :
    A 7 = ∑ n : Fin 8192, f n := by
  have e0 : A 0 = 0 + ∑ q, tile8 f 0 q :=
    h0.trans (congrArg (0 + ·) (Finset.sum_congr rfl fun q _ => (tile8_of_lt f 0 (by omega) q).symm))
  have es : ∀ j, j + 1 < 8 → A (j + 1) = A j + ∑ q, tile8 f (j + 1) q := fun j hj =>
    (hs j hj).trans (congrArg (A j + ·) (Finset.sum_congr rfl fun q _ => (tile8_of_lt f (j + 1) hj q).symm))
  refine (running_total_below 8 (tile8 f) A e0 es 7 (by omega)).trans ?_
  refine Eq.trans ?_ (sum_tiles 8 1024 f).symm
  refine (Fin.sum_univ_eq_sum_range (fun j => ∑ q, tile8 f j q) 8).symm.trans ?_
  exact Finset.sum_congr rfl fun j _ => Finset.sum_congr rfl fun q _ => tile8_of_lt f j.val j.isLt q

end Cert.TileSum
-- ==== Proof.TileAcc.lean ====
/-
  An accumulator that starts from zero and adds the partial product of one tile of the contracted axis per step holds,
  after the last tile, the whole contraction: the sum over K·T indices cut into K tiles of T.  Only commutativity and
  associativity of the sum are used, so this holds where entries may be infinite.

  The general statement is over any additive commutative monoid and any way of naming "position q of tile j" whose
  value is j·T + q; below it is read at the three layers of the perceptron: 2 tiles of 512, 8 tiles of 512 and
  4 tiles of 1024.
-/
import proofs.«174921_j76965813944408_2_alg».proof.Proof.MlpSpec
import proofs.«174921_j76965813944408_2_alg».proof.Proof.LibTileSum

noncomputable section

namespace Cert.TileAcc

open Idealize.ShloMosaic Idealize.ShloMosaic.ValueIdx Cert.MlpSpec

/-- If A 0 is 0 plus tile 0's sum and, while j + 1 < K, A (j + 1) is A j plus tile (j + 1)'s sum, then A (K − 1) is
    the sum over all N = K·T indices.  Position q of tile j is ι j q, any index whose value is j·T + q. -/
theorem acc_total {M : Type*} [AddCommMonoid M] {K T N : ℕ} (hN : N = K * T) (hK : 0 < K) (f : Fin N → M)
    (ι : ℕ → Fin T → Fin N) (hι : ∀ j, j < K → ∀ q, (ι j q).val = j * T + q.val) (A : ℕ → M)
    (h0 : A 0 = 0 + ∑ q, f (ι 0 q)) (hs : ∀ j, j + 1 < K → A (j + 1) = A j + ∑ q, f (ι (j + 1) q)) :
    A (K - 1) = ∑ k, f k := by
  subst hN
  refine (Cert.TileSum.running_total_below K (fun j q => f (ι j q)) A h0 hs (K - 1) (by omega)).trans ?_
  rw [show K - 1 + 1 = K by omega, Cert.TileSum.sum_tiles K T f,
    ← Fin.sum_univ_eq_sum_range (fun j => ∑ q, f (ι j q)) K]
  exact Finset.sum_congr rfl fun j _ => Finset.sum_congr rfl fun q _ => congrArg f (Fin.ext (hι j.val j.isLt q))

/-- Position q of tile j, tiles of T, among N indices: j·T + q, reduced below N (no reduction happens while
    j·T + q < N). -/
def tileIdx {T N : ℕ} (hN : 0 < N) (j : ℕ) (q : Fin T) : Fin N := ⟨(j * T + q.val) % N, Nat.mod_lt _ hN⟩

/-- Its value for a tile below K, when N = K·T. -/
theorem tileIdx_val {K T N : ℕ} (hKT : N = K * T) (hN : 0 < N) (j : ℕ) (hj : j < K) (q : Fin T) :
    (tileIdx hN j q).val = j * T + q.val :=
  Nat.mod_eq_of_lt (hKT ▸ Cert.TileSum.tile_lt ⟨j, hj⟩ q)

/-! ## The three layers -/

/-- First layer, 2 tiles of 512 over 1024: the rectified last accumulator is the layer's entry. -/
theorem stage1_of_acc (x : (⟨3, ![8, 2048, 1024]⟩ : Shape).Idx → EReal) (w : (⟨3, ![8, 1024, 4096]⟩ : Shape).Idx → EReal)
    (e : Fin 8) (n : Fin 2048) (h : Fin 4096) (ι : ℕ → Fin 512 → Fin 1024)
    (hι : ∀ j, j < 2 → ∀ q, (ι j q).val = j * 512 + q.val) (A : ℕ → EReal)
    (h0 : A 0 = 0 + ∑ q : Fin 512, x (ix3 e n (ι 0 q)) * w (ix3 e (ι 0 q) h))
    (hs : ∀ j, j + 1 < 2 → A (j + 1) = A j + ∑ q : Fin 512, x (ix3 e n (ι (j + 1) q)) * w (ix3 e (ι (j + 1) q) h)) :
    leaky (A 1) = stage1 x w (ix3 e n h) :=
  congrArg leaky (acc_total (K := 2) (T := 512) (N := 1024) rfl (by omega)
    (fun k => x (ix3 e n k) * w (ix3 e k h)) ι hι A h0 hs)

/-- Second layer, 8 tiles of 512 over 4096. -/
theorem stage2_of_acc (x : (⟨3, ![8, 2048, 4096]⟩ : Shape).Idx → EReal) (w : (⟨3, ![8, 4096, 4096]⟩ : Shape).Idx → EReal)
    (e : Fin 8) (n : Fin 2048) (h : Fin 4096) (ι : ℕ → Fin 512 → Fin 4096)
    (hι : ∀ j, j < 8 → ∀ q, (ι j q).val = j * 512 + q.val) (A : ℕ → EReal)
    (h0 : A 0 = 0 + ∑ q : Fin 512, x (ix3 e n (ι 0 q)) * w (ix3 e (ι 0 q) h))
    (hs : ∀ j, j + 1 < 8 → A (j + 1) = A j + ∑ q : Fin 512, x (ix3 e n (ι (j + 1) q)) * w (ix3 e (ι (j + 1) q) h)) :
    leaky (A 7) = stage2 x w (ix3 e n h) :=
  congrArg leaky (acc_total (K := 8) (T := 512) (N := 4096) rfl (by omega)
    (fun k => x (ix3 e n k) * w (ix3 e k h)) ι hι A h0 hs)

/-- Third layer, 4 tiles of 1024 over 4096, no rectifier. -/
theorem stage3_of_acc (x : (⟨3, ![8, 2048, 4096]⟩ : Shape).Idx → EReal) (w : (⟨3, ![8, 4096, 1024]⟩ : Shape).Idx → EReal)
    (e : Fin 8) (n : Fin 2048) (h : Fin 1024) (ι : ℕ → Fin 1024 → Fin 4096)
    (hι : ∀ j, j < 4 → ∀ q, (ι j q).val = j * 1024 + q.val) (A : ℕ → EReal)
    (h0 : A 0 = 0 + ∑ q : Fin 1024, x (ix3 e n (ι 0 q)) * w (ix3 e (ι 0 q) h))
    (hs : ∀ j, j + 1 < 4 → A (j + 1) = A j + ∑ q : Fin 1024, x (ix3 e n (ι (j + 1) q)) * w (ix3 e (ι (j + 1) q) h)) :
    A 3 = stage3 x w (ix3 e n h) :=
  acc_total (K := 4) (T := 1024) (N := 4096) rfl (by omega)
    (fun k => x (ix3 e n k) * w (ix3 e k h)) ι hι A h0 hs

end Cert.TileAcc

end
-- ==== Proof.StageValue.lean ====
/-
  The accumulator of a stage kernel across the tiles of the contracted axis, as a function of the whole operand arrays.

  For one expert e and one tile of rows, the grid visits the tiles 0, 1, … of the contracted axis in turn.  The step at
  tile 0 sets the accumulator to zero and adds tile 0's partial product; the step at tile j + 1 adds tile j + 1's to
  what the step at tile j left; so after tile j the accumulator holds the contraction over the tiles 0 … j, and after
  the last tile the whole contraction, which the last step writes out (rectified in the first two stages).  Each step's
  blocks are given by equations: entry (p, r) of the left block is the array's entry at row `rows p` and contracted
  position r of the tile, entry (r, q) of the right block the array's at that position and column q.
-/
import proofs.«174921_j76965813944408_2_alg».proof.Proof.PayValue
import proofs.«174921_j76965813944408_2_alg».proof.Proof.TileAcc

noncomputable section

namespace Cert.KernelIdeal.StageValue

open Cert.KernelIdeal Cert.KernelIdeal.Gen Cert.KernelIdeal.PayValue Cert.TileAcc Idealize.ShloMosaic Idealize.ShloMosaic.ValueIdx

/-! ## Stage 1: 2 tiles of 512 over 1024, row tiles of 256, 4096 columns -/

/-- The accumulator for expert e and the row tile whose row p is row `rows p` of the array, after the tiles 0 … j of
    the contracted axis: the partial contraction over those tiles. -/
def acc1 (X : (⟨3, ![8, 2048, 1024]⟩ : Shape).Idx → EReal) (W : (⟨3, ![8, 1024, 4096]⟩ : Shape).Idx → EReal) (e : Fin 8)
    (rows : Fin 256 → Fin 2048) (j : ℕ) : FVec Ideal S256x4096 .f32 :=
  fun i => ∑ t ∈ Finset.range (j + 1), ∑ r : Fin 512,
    X (ix3 e (rows (i 0)) (tileIdx (N := 1024) (by decide) t r)) * W (ix3 e (tileIdx (N := 1024) (by decide) t r) (i 1))

theorem acc1_apply (X : (⟨3, ![8, 2048, 1024]⟩ : Shape).Idx → EReal) (W : (⟨3, ![8, 1024, 4096]⟩ : Shape).Idx → EReal) (e : Fin 8)
    (rows : Fin 256 → Fin 2048) (j : ℕ) (p : Fin 256) (q : Fin 4096) :
    acc1 X W e rows j (ix2 p q) = ∑ t ∈ Finset.range (j + 1), ∑ r : Fin 512,
      X (ix3 e (rows p) (tileIdx (N := 1024) (by decide) t r)) * W (ix3 e (tileIdx (N := 1024) (by decide) t r) q) := rfl

/-- The step at tile 0, on the accumulator just set to zero, leaves the partial contraction over tile 0. -/
theorem acc1_first (X : (⟨3, ![8, 2048, 1024]⟩ : Shape).Idx → EReal) (W : (⟨3, ![8, 1024, 4096]⟩ : Shape).Idx → EReal) (e : Fin 8)
    (rows : Fin 256 → Fin 2048) (xb : FVec Ideal S1x256x512 .f32) (wb : FVec Ideal S1x512x4096 .f32)
    (hx : ∀ (p : Fin 256) (r : Fin 512), xb (ix3 0 p r) = X (ix3 e (rows p) (tileIdx (N := 1024) (by decide) 0 r)))
    (hw : ∀ (r : Fin 512) (q : Fin 4096), wb (ix3 0 r q) = W (ix3 e (tileIdx (N := 1024) (by decide) 0 r) q)) :
    k0_pay2 (F := Ideal) xb wb (k0_pay1 (F := Ideal)) = acc1 X W e rows 0 := by
  funext i
  obtain ⟨p, q, rfl⟩ : ∃ (p : Fin 256) (q : Fin 4096), i = ix2 p q := ⟨i 0, i 1, eq_ix2 i⟩
  refine (k0_pay2_apply xb wb _ p q).trans ?_
  rw [k0_pay1_apply, zero_add, acc1_apply, Finset.sum_range_one]
  exact Finset.sum_congr rfl fun r _ => congrArg₂ (· * ·) (hx p r) (hw r q)

/-- The step at tile j + 1, on the partial contraction over the tiles 0 … j, leaves that over 0 … j + 1. -/
theorem acc1_step (X : (⟨3, ![8, 2048, 1024]⟩ : Shape).Idx → EReal) (W : (⟨3, ![8, 1024, 4096]⟩ : Shape).Idx → EReal) (e : Fin 8)
    (rows : Fin 256 → Fin 2048) (j : ℕ) (xb : FVec Ideal S1x256x512 .f32) (wb : FVec Ideal S1x512x4096 .f32)
    (hx : ∀ (p : Fin 256) (r : Fin 512), xb (ix3 0 p r) = X (ix3 e (rows p) (tileIdx (N := 1024) (by decide) (j + 1) r)))
    (hw : ∀ (r : Fin 512) (q : Fin 4096), wb (ix3 0 r q) = W (ix3 e (tileIdx (N := 1024) (by decide) (j + 1) r) q)) :
    k0_pay2 (F := Ideal) xb wb (acc1 X W e rows j) = acc1 X W e rows (j + 1) := by
  funext i
  obtain ⟨p, q, rfl⟩ : ∃ (p : Fin 256) (q : Fin 4096), i = ix2 p q := ⟨i 0, i 1, eq_ix2 i⟩
  refine (k0_pay2_apply xb wb _ p q).trans ?_
  rw [acc1_apply, acc1_apply, Finset.sum_range_succ _ (j + 1)]
  exact congrArg (_ + ·) (Finset.sum_congr rfl fun r _ => congrArg₂ (· * ·) (hx p r) (hw r q))

/-- After the last tile the accumulator holds the whole contraction. -/
theorem acc1_last (X : (⟨3, ![8, 2048, 1024]⟩ : Shape).Idx → EReal) (W : (⟨3, ![8, 1024, 4096]⟩ : Shape).Idx → EReal) (e : Fin 8)
    (rows : Fin 256 → Fin 2048) (p : Fin 256) (q : Fin 4096) :
    acc1 X W e rows 1 (ix2 p q) = ∑ k : Fin 1024, X (ix3 e (rows p) k) * W (ix3 e k q) := by
  rw [acc1_apply, Cert.TileSum.sum_tiles 2 512 (fun k : Fin 1024 => X (ix3 e (rows p) k) * W (ix3 e k q)),
    ← Fin.sum_univ_eq_sum_range (fun t => ∑ r : Fin 512,
      X (ix3 e (rows p) (tileIdx (N := 1024) (by decide) t r)) * W (ix3 e (tileIdx (N := 1024) (by decide) t r) q)) 2]
  refine Finset.sum_congr rfl fun t _ => Finset.sum_congr rfl fun r _ => ?_
  have ht : tileIdx (N := 1024) (by decide) t.val r = ⟨t.val * 512 + r.val, Cert.TileSum.tile_lt t r⟩ :=
    Fin.ext (tileIdx_val (K := 2) rfl (by decide) t.val t.isLt r)
  rw [ht]

/-- What the last step writes into the output block, at (p, q): the layer's entry at row `rows p`. -/
theorem out1_apply (X : (⟨3, ![8, 2048, 1024]⟩ : Shape).Idx → EReal) (W : (⟨3, ![8, 1024, 4096]⟩ : Shape).Idx → EReal) (e : Fin 8)
    (rows : Fin 256 → Fin 2048) (p : Fin 256) (q : Fin 4096) :
    k0_pay3 (F := Ideal) (acc1 X W e rows 1) (ix3 0 p q) = MlpSpec.stage1 X W (ix3 e (rows p) q) := by
  refine (k0_pay3_apply _ p q).trans ?_
  rw [acc1_last, MlpSpec.stage1_apply]

/-! ## Stage 2: 8 tiles of 512 over 4096, row tiles of 256, 4096 columns -/

/-- The accumulator for expert e and the row tile whose row p is row `rows p` of the array, after the tiles 0 … j of
    the contracted axis: the partial contraction over those tiles. -/
def acc2 (X : (⟨3, ![8, 2048, 4096]⟩ : Shape).Idx → EReal) (W : (⟨3, ![8, 4096, 4096]⟩ : Shape).Idx → EReal) (e : Fin 8)
    (rows : Fin 256 → Fin 2048) (j : ℕ) : FVec Ideal S256x4096 .f32 :=
  fun i => ∑ t ∈ Finset.range (j + 1), ∑ r : Fin 512,
    X (ix3 e (rows (i 0)) (tileIdx (N := 4096) (by decide) t r)) * W (ix3 e (tileIdx (N := 4096) (by decide) t r) (i 1))

theorem acc2_apply (X : (⟨3, ![8, 2048, 4096]⟩ : Shape).Idx → EReal) (W : (⟨3, ![8, 4096, 4096]⟩ : Shape).Idx → EReal) (e : Fin 8)
    (rows : Fin 256 → Fin 2048) (j : ℕ) (p : Fin 256) (q : Fin 4096) :
    acc2 X W e rows j (ix2 p q) = ∑ t ∈ Finset.range (j + 1), ∑ r : Fin 512,
      X (ix3 e (rows p) (tileIdx (N := 4096) (by decide) t r)) * W (ix3 e (tileIdx (N := 4096) (by decide) t r) q) := rfl

/-- The step at tile 0, on the accumulator just set to zero, leaves the partial contraction over tile 0. -/
theorem acc2_first (X : (⟨3, ![8, 2048, 4096]⟩ : Shape).Idx → EReal) (W : (⟨3, ![8, 4096, 4096]⟩ : Shape).Idx → EReal) (e : Fin 8)
    (rows : Fin 256 → Fin 2048) (xb : FVec Ideal S1x256x512 .bf16) (wb : FVec Ideal S1x512x4096 .f32)
    (hx : ∀ (p : Fin 256) (r : Fin 512), xb (ix3 0 p r) = X (ix3 e (rows p) (tileIdx (N := 4096) (by decide) 0 r)))
    (hw : ∀ (r : Fin 512) (q : Fin 4096), wb (ix3 0 r q) = W (ix3 e (tileIdx (N := 4096) (by decide) 0 r) q)) :
    k1_pay2 (F := Ideal) xb wb (k1_pay1 (F := Ideal)) = acc2 X W e rows 0 := by
  funext i
  obtain ⟨p, q, rfl⟩ : ∃ (p : Fin 256) (q : Fin 4096), i = ix2 p q := ⟨i 0, i 1, eq_ix2 i⟩
  refine (k1_pay2_apply xb wb _ p q).trans ?_
  rw [k1_pay1_apply, zero_add, acc2_apply, Finset.sum_range_one]
  exact Finset.sum_congr rfl fun r _ => congrArg₂ (· * ·) (hx p r) (hw r q)

/-- The step at tile j + 1, on the partial contraction over the tiles 0 … j, leaves that over 0 … j + 1. -/
theorem acc2_step (X : (⟨3, ![8, 2048, 4096]⟩ : Shape).Idx → EReal) (W : (⟨3, ![8, 4096, 4096]⟩ : Shape).Idx → EReal) (e : Fin 8)
    (rows : Fin 256 → Fin 2048) (j : ℕ) (xb : FVec Ideal S1x256x512 .bf16) (wb : FVec Ideal S1x512x4096 .f32)
    (hx : ∀ (p : Fin 256) (r : Fin 512), xb (ix3 0 p r) = X (ix3 e (rows p) (tileIdx (N := 4096) (by decide) (j + 1) r)))
    (hw : ∀ (r : Fin 512) (q : Fin 4096), wb (ix3 0 r q) = W (ix3 e (tileIdx (N := 4096) (by decide) (j + 1) r) q)) :
    k1_pay2 (F := Ideal) xb wb (acc2 X W e rows j) = acc2 X W e rows (j + 1) := by
  funext i
  obtain ⟨p, q, rfl⟩ : ∃ (p : Fin 256) (q : Fin 4096), i = ix2 p q := ⟨i 0, i 1, eq_ix2 i⟩
  refine (k1_pay2_apply xb wb _ p q).trans ?_
  rw [acc2_apply, acc2_apply, Finset.sum_range_succ _ (j + 1)]
  exact congrArg (_ + ·) (Finset.sum_congr rfl fun r _ => congrArg₂ (· * ·) (hx p r) (hw r q))

/-- After the last tile the accumulator holds the whole contraction. -/
theorem acc2_last (X : (⟨3, ![8, 2048, 4096]⟩ : Shape).Idx → EReal) (W : (⟨3, ![8, 4096, 4096]⟩ : Shape).Idx → EReal) (e : Fin 8)
    (rows : Fin 256 → Fin 2048) (p : Fin 256) (q : Fin 4096) :
    acc2 X W e rows 7 (ix2 p q) = ∑ k : Fin 4096, X (ix3 e (rows p) k) * W (ix3 e k q) := by
  rw [acc2_apply, Cert.TileSum.sum_tiles 8 512 (fun k : Fin 4096 => X (ix3 e (rows p) k) * W (ix3 e k q)),
    ← Fin.sum_univ_eq_sum_range (fun t => ∑ r : Fin 512,
      X (ix3 e (rows p) (tileIdx (N := 4096) (by decide) t r)) * W (ix3 e (tileIdx (N := 4096) (by decide) t r) q)) 8]
  refine Finset.sum_congr rfl fun t _ => Finset.sum_congr rfl fun r _ => ?_
  have ht : tileIdx (N := 4096) (by decide) t.val r = ⟨t.val * 512 + r.val, Cert.TileSum.tile_lt t r⟩ :=
    Fin.ext (tileIdx_val (K := 8) rfl (by decide) t.val t.isLt r)
  rw [ht]

/-- What the last step writes into the output block, at (p, q): the layer's entry at row `rows p`. -/
theorem out2_apply (X : (⟨3, ![8, 2048, 4096]⟩ : Shape).Idx → EReal) (W : (⟨3, ![8, 4096, 4096]⟩ : Shape).Idx → EReal) (e : Fin 8)
    (rows : Fin 256 → Fin 2048) (p : Fin 256) (q : Fin 4096) :
    k1_pay3 (F := Ideal) (acc2 X W e rows 7) (ix3 0 p q) = MlpSpec.stage2 X W (ix3 e (rows p) q) := by
  refine (k1_pay3_apply _ p q).trans ?_
  rw [acc2_last, MlpSpec.stage2_apply]

/-! ## Stage 3: 4 tiles of 1024 over 4096, row tiles of 512, 1024 columns -/

/-- The accumulator for expert e and the row tile whose row p is row `rows p` of the array, after the tiles 0 … j of
    the contracted axis: the partial contraction over those tiles. -/
def acc3 (X : (⟨3, ![8, 2048, 4096]⟩ : Shape).Idx → EReal) (W : (⟨3, ![8, 4096, 1024]⟩ : Shape).Idx → EReal) (e : Fin 8)
    (rows : Fin 512 → Fin 2048) (j : ℕ) : FVec Ideal S512x1024 .f32 :=
  fun i => ∑ t ∈ Finset.range (j + 1), ∑ r : Fin 1024,
    X (ix3 e (rows (i 0)) (tileIdx (N := 4096) (by decide) t r)) * W (ix3 e (tileIdx (N := 4096) (by decide) t r) (i 1))

theorem acc3_apply (X : (⟨3, ![8, 2048, 4096]⟩ : Shape).Idx → EReal) (W : (⟨3, ![8, 4096, 1024]⟩ : Shape).Idx → EReal) (e : Fin 8)
    (rows : Fin 512 → Fin 2048) (j : ℕ) (p : Fin 512) (q : Fin 1024) :
    acc3 X W e rows j (ix2 p q) = ∑ t ∈ Finset.range (j + 1), ∑ r : Fin 1024,
      X (ix3 e (rows p) (tileIdx (N := 4096) (by decide) t r)) * W (ix3 e (tileIdx (N := 4096) (by decide) t r) q) := rfl

/-- The step at tile 0, on the accumulator just set to zero, leaves the partial contraction over tile 0. -/
theorem acc3_first (X : (⟨3, ![8, 2048, 4096]⟩ : Shape).Idx → EReal) (W : (⟨3, ![8, 4096, 1024]⟩ : Shape).Idx → EReal) (e : Fin 8)
    (rows : Fin 512 → Fin 2048) (xb : FVec Ideal S1x512x1024 .bf16) (wb : FVec Ideal S1x1024x1024 .f32)
    (hx : ∀ (p : Fin 512) (r : Fin 1024), xb (ix3 0 p r) = X (ix3 e (rows p) (tileIdx (N := 4096) (by decide) 0 r)))
    (hw : ∀ (r : Fin 1024) (q : Fin 1024), wb (ix3 0 r q) = W (ix3 e (tileIdx (N := 4096) (by decide) 0 r) q)) :
    k2_pay2 (F := Ideal) xb wb (k2_pay1 (F := Ideal)) = acc3 X W e rows 0 := by
  funext i
  obtain ⟨p, q, rfl⟩ : ∃ (p : Fin 512) (q : Fin 1024), i = ix2 p q := ⟨i 0, i 1, eq_ix2 i⟩
  refine (k2_pay2_apply xb wb _ p q).trans ?_
  rw [k2_pay1_apply, zero_add, acc3_apply, Finset.sum_range_one]
  exact Finset.sum_congr rfl fun r _ => congrArg₂ (· * ·) (hx p r) (hw r q)

/-- The step at tile j + 1, on the partial contraction over the tiles 0 … j, leaves that over 0 … j + 1. -/
theorem acc3_step (X : (⟨3, ![8, 2048, 4096]⟩ : Shape).Idx → EReal) (W : (⟨3, ![8, 4096, 1024]⟩ : Shape).Idx → EReal) (e : Fin 8)
    (rows : Fin 512 → Fin 2048) (j : ℕ) (xb : FVec Ideal S1x512x1024 .bf16) (wb : FVec Ideal S1x1024x1024 .f32)
    (hx : ∀ (p : Fin 512) (r : Fin 1024), xb (ix3 0 p r) = X (ix3 e (rows p) (tileIdx (N := 4096) (by decide) (j + 1) r)))
    (hw : ∀ (r : Fin 1024) (q : Fin 1024), wb (ix3 0 r q) = W (ix3 e (tileIdx (N := 4096) (by decide) (j + 1) r) q)) :
    k2_pay2 (F := Ideal) xb wb (acc3 X W e rows j) = acc3 X W e rows (j + 1) := by
  funext i
  obtain ⟨p, q, rfl⟩ : ∃ (p : Fin 512) (q : Fin 1024), i = ix2 p q := ⟨i 0, i 1, eq_ix2 i⟩
  refine (k2_pay2_apply xb wb _ p q).trans ?_
  rw [acc3_apply, acc3_apply, Finset.sum_range_succ _ (j + 1)]
  exact congrArg (_ + ·) (Finset.sum_congr rfl fun r _ => congrArg₂ (· * ·) (hx p r) (hw r q))

/-- After the last tile the accumulator holds the whole contraction. -/
theorem acc3_last (X : (⟨3, ![8, 2048, 4096]⟩ : Shape).Idx → EReal) (W : (⟨3, ![8, 4096, 1024]⟩ : Shape).Idx → EReal) (e : Fin 8)
    (rows : Fin 512 → Fin 2048) (p : Fin 512) (q : Fin 1024) :
    acc3 X W e rows 3 (ix2 p q) = ∑ k : Fin 4096, X (ix3 e (rows p) k) * W (ix3 e k q) := by
  rw [acc3_apply, Cert.TileSum.sum_tiles 4 1024 (fun k : Fin 4096 => X (ix3 e (rows p) k) * W (ix3 e k q)),
    ← Fin.sum_univ_eq_sum_range (fun t => ∑ r : Fin 1024,
      X (ix3 e (rows p) (tileIdx (N := 4096) (by decide) t r)) * W (ix3 e (tileIdx (N := 4096) (by decide) t r) q)) 4]
  refine Finset.sum_congr rfl fun t _ => Finset.sum_congr rfl fun r _ => ?_
  have ht : tileIdx (N := 4096) (by decide) t.val r = ⟨t.val * 1024 + r.val, Cert.TileSum.tile_lt t r⟩ :=
    Fin.ext (tileIdx_val (K := 4) rfl (by decide) t.val t.isLt r)
  rw [ht]

/-- What the last step writes into the output block, at (p, q): the layer's entry at row `rows p`. -/
theorem out3_apply (X : (⟨3, ![8, 2048, 4096]⟩ : Shape).Idx → EReal) (W : (⟨3, ![8, 4096, 1024]⟩ : Shape).Idx → EReal) (e : Fin 8)
    (rows : Fin 512 → Fin 2048) (p : Fin 512) (q : Fin 1024) :
    k2_pay3 (F := Ideal) (acc3 X W e rows 3) (ix3 0 p q) = MlpSpec.stage3 X W (ix3 e (rows p) q) := by
  refine (k2_pay3_apply _ p q).trans ?_
  rw [acc3_last, MlpSpec.stage3_apply]

end Cert.KernelIdeal.StageValue

end
-- ==== Proof.KI.R0Value.lean ====
/-
  The value of stage 1 of the perceptron kernel: the array it writes is layer 1 of the two arrays it reads.

  The stage runs on a grid of points (expert, row tile, contraction tile), the contraction tile innermost: 2 tiles of
  512 contracted positions, row tiles of 256 rows, 4096 columns.  Read in three steps.
  * What one step leaves, case by case (tile 0; a middle tile; the last tile), is the step's arithmetic of the blocks
    it loaded: the accumulator becomes its old contents (zero at tile 0) plus the tile's partial product, and at the
    last tile the output block is stored from the accumulator through the leaky rectifier.
  * By induction over the points, after point t the accumulator holds the contraction over the tiles 0 … t mod 2 of
    the rows and expert of t: each operand block is the array read at block index × block size + inner coordinate.
  * So the block written back at a last-tile point is that block of the layer, and since every entry of the output
    array lies in the block of exactly such a point, the array ends holding the layer.
  Only the regrouping of a finite sum into tiles is used; no entry is assumed finite.
-/
import proofs.«174921_j76965813944408_2_alg».proof.Proof.KI.R0Frame
import proofs.«174921_j76965813944408_2_alg».proof.Proof.StageValue
import Idealize.ShloMosaic.Lib.Pipeline.Value
import Idealize.ShloMosaic.Lib.Tactic

noncomputable section

namespace Cert.KernelIdeal.HandValue

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx Cert.KernelIdeal.PayValue Cert.KernelIdeal.StageValue Cert.TileAcc

variable {F : FTy → Type} [FloatOps F]

theorem hz2_0 : (![0, 0] : Fin 2 → Nat) = fun _ => 0 := funext fun a => by fin_cases a <;> rfl
theorem hz3_0 : (![0, 0, 0] : Fin 3 → Nat) = fun _ => 0 := funext fun a => by fin_cases a <;> rfl

/-! ## What each case of the step leaves, as the step's arithmetic of the blocks it read -/

/-- At tile 0 the accumulator is set to zero and then gains the first partial product. -/
theorem soutA0_eq (c : Dev nD) (i : grid0.Coords) (a3 : Memref sig .tc .vmem S1x256x512 .f32) (h3 : a3.IsWhole)
    (a4 : Memref sig .tc .vmem S1x512x4096 .f32) (h4 : a4.IsWhole) (a5 : Memref sig .tc .vmem S1x256x4096 .bf16) (h5 : a5.IsWhole)
    (a6 : Memref sig .tc .vmem S256x4096 .f32) (h6 : a6.IsWhole) (hc0 : cond0_0 i) (hc1 : ¬cond0_1 i) (x0 : Vec F S1x256x512 .f32) (x1 : Vec F S1x512x4096 .f32) :
    sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S256x4096) hz2_0, View.readCov_unit_zero (S := S256x4096) _ hz2_0]
  simp only [View.readAt_eq_ld, h3.read_unread, h4.read_unread, View.ld_unit_zero (S := S1x256x512) hz3_0,
    View.ld_unit_zero (S := S1x512x4096) hz3_0]

/-- At a middle tile the accumulator gains that tile's partial product. -/
theorem soutB0_eq (c : Dev nD) (i : grid0.Coords) (a3 : Memref sig .tc .vmem S1x256x512 .f32) (h3 : a3.IsWhole)
    (a4 : Memref sig .tc .vmem S1x512x4096 .f32) (h4 : a4.IsWhole) (a5 : Memref sig .tc .vmem S1x256x4096 .bf16) (h5 : a5.IsWhole)
    (a6 : Memref sig .tc .vmem S256x4096 .f32) (h6 : a6.IsWhole) (hc0 : ¬cond0_0 i) (hc1 : ¬cond0_1 i) (x0 : Vec F S1x256x512 .f32) (x1 : Vec F S1x512x4096 .f32) (xs0 : Vec F S256x4096 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  try sl_unfold_words
  rw [View.canon_unit_zero hz2_0]
  simp only [View.readAt_eq_ld, h3.read_unread, h4.read_unread, h6.read_unread, View.ld_unit_zero (S := S1x256x512) hz3_0,
    View.ld_unit_zero (S := S1x512x4096) hz3_0, View.ld_unit_zero (S := S256x4096) hz2_0]

/-- At the last tile the accumulator gains the last partial product, -/
theorem soutC0_eq (c : Dev nD) (i : grid0.Coords) (a3 : Memref sig .tc .vmem S1x256x512 .f32) (h3 : a3.IsWhole)
    (a4 : Memref sig .tc .vmem S1x512x4096 .f32) (h4 : a4.IsWhole) (a5 : Memref sig .tc .vmem S1x256x4096 .bf16) (h5 : a5.IsWhole)
    (a6 : Memref sig .tc .vmem S256x4096 .f32) (h6 : a6.IsWhole) (hc0 : ¬cond0_0 i) (hc1 : cond0_1 i) (x0 : Vec F S1x256x512 .f32) (x1 : Vec F S1x512x4096 .f32) (xs0 : Vec F S256x4096 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  try sl_unfold_words
  rw [View.canon_unit_zero hz2_0]
  simp only [View.readAt_eq_ld, h3.read_unread, h4.read_unread, h6.read_unread, View.ld_unit_zero (S := S1x256x512) hz3_0,
    View.ld_unit_zero (S := S1x512x4096) hz3_0, View.ld_unit_zero (S := S256x4096) hz2_0]

/-- and the output block is stored from it. -/
theorem outC0_eq (c : Dev nD) (i : grid0.Coords) (a3 : Memref sig .tc .vmem S1x256x512 .f32) (h3 : a3.IsWhole)
    (a4 : Memref sig .tc .vmem S1x512x4096 .f32) (h4 : a4.IsWhole) (a5 : Memref sig .tc .vmem S1x256x4096 .bf16) (h5 : a5.IsWhole)
    (a6 : Memref sig .tc .vmem S256x4096 .f32) (h6 : a6.IsWhole) (hc0 : ¬cond0_0 i) (hc1 : cond0_1 i) (x0 : Vec F S1x256x512 .f32) (x1 : Vec F S1x512x4096 .f32) (xs0 : Vec F S256x4096 .f32) :
    out0_C_2 c i a3 h3 a4 h4 a5 h5 a6 h6 hc0 hc1 x0 x1 xs0 = k0_pay3 (k0_pay2 x0 x1 xs0) := by
  unfold out0_C_2
  rw [View.read_writes_eq_canon _ _ _ (cover0_C_2 c i a3 h3 a4 h4 a5 h5 a6 h6 hc0 hc1 x0 x1 xs0)]
  unfold kernelRun0_C
  dsimp only
  try sl_unfold_words
  rw [View.canon_unit_zero hz3_0, View.readCov_unit_zero (S := S256x4096) _ hz2_0]
  simp only [View.readAt_eq_ld, h3.read_unread, h4.read_unread, h6.read_unread, View.ld_unit_zero (S := S1x256x512) hz3_0,
    View.ld_unit_zero (S := S1x512x4096) hz3_0, View.ld_unit_zero (S := S256x4096) hz2_0]

/-! ## Where the blocks of a point sit in the arrays

Point t of the grid is (expert, row tile, contraction tile) = (t / 16, t / 2 % 8, t % 2).  The left operand's block at t
is rows (t / 2 % 8)·256 … of expert t / 16, contracted positions (t % 2)·512 …; the right operand's is those contracted
positions, all columns; the output's is those rows, all columns. -/

theorem idx_facts0 : ∀ t : Fin cfg0.N,
    win0_0.index t (0 : Fin 3) = t.val / 16 ∧ win0_0.index t (1 : Fin 3) = t.val / 2 % 8 ∧ win0_0.index t (2 : Fin 3) = t.val % 2
    ∧ win0_1.index t (0 : Fin 3) = t.val / 16 ∧ win0_1.index t (1 : Fin 3) = t.val % 2 ∧ win0_1.index t (2 : Fin 3) = 0
    ∧ win0_2.index t (0 : Fin 3) = t.val / 16 ∧ win0_2.index t (1 : Fin 3) = t.val / 2 % 8 ∧ win0_2.index t (2 : Fin 3) = 0 :=
  (by decide +kernel : ∀ t : Fin grid0.N, _)

/-- The expert of point t. -/
def expOf0 (t : ℕ) (ht : t < 128) : Fin 8 := ⟨t / 16, by omega⟩
/-- Row p of point t's row tile, as a row of the array. -/
def rowOf0 (t : ℕ) (ht : t < 128) : Fin 256 → Fin 2048 := fun p => ⟨t / 2 % 8 * 256 + p.val, by have := p.isLt; omega⟩

section AtIdeal
variable (V : (c : Dev nD) → (b : Ref sig .tc) → Buf (Elt Ideal) ((c : Thread nD τ).loc b))

/-- The left operand array and the right operand array as the stage finds them. -/
abbrev X0 (c : Dev nD) : (⟨3, ![8, 2048, 1024]⟩ : Shape).Idx → EReal := V c main_arg0
abbrev W0 (c : Dev nD) : (⟨3, ![8, 1024, 4096]⟩ : Shape).Idx → EReal := V c main_arg1

/-- The left operand's block at point t, entry (p, r): the array's entry at the block's row p and contracted position r. -/
theorem iblk0_0_apply (c : Dev nD) (t : Fin cfg0.N) (p : Fin 256) (r : Fin 512) (e : Fin 8) (n : Fin 2048) (j : Fin 1024)
    (he : e.val = t.val / 16) (hn : n.val = t.val / 2 % 8 * 256 + p.val) (hj : j.val = t.val % 2 * 512 + r.val) :
    (iblk0 V c 0 t : FVec Ideal S1x256x512 .f32) (ix3 0 p r) = X0 V c (ix3 e n j) := by
  obtain ⟨e0, e1, e2, -⟩ := idx_facts0 t
  unfold iblk0
  rw [View.read_apply]
  show V c main_arg0 _ = V c main_arg0 _
  congr 1
  funext a; apply Fin.ext
  match a with
  | ⟨0, _⟩ => show win0_0.index t (0 : Fin 3) * 1 + 1 * 0 = e.val; rw [e0, he]; omega
  | ⟨1, _⟩ => show win0_0.index t (1 : Fin 3) * 256 + 1 * p.val = n.val; rw [e1, hn]; omega
  | ⟨2, _⟩ => show win0_0.index t (2 : Fin 3) * 512 + 1 * r.val = j.val; rw [e2, hj]; omega

/-- The right operand's block at point t, entry (r, q): the array's entry at contracted position r of the tile and column q. -/
theorem iblk0_1_apply (c : Dev nD) (t : Fin cfg0.N) (r : Fin 512) (q : Fin 4096) (e : Fin 8) (j : Fin 1024)
    (he : e.val = t.val / 16) (hj : j.val = t.val % 2 * 512 + r.val) :
    (iblk0 V c 1 t : FVec Ideal S1x512x4096 .f32) (ix3 0 r q) = W0 V c (ix3 e j q) := by
  obtain ⟨-, -, -, e0, e1, e2, -⟩ := idx_facts0 t
  unfold iblk0
  rw [View.read_apply]
  show V c main_arg1 _ = V c main_arg1 _
  congr 1
  funext a; apply Fin.ext
  match a with
  | ⟨0, _⟩ => show win0_1.index t (0 : Fin 3) * 1 + 1 * 0 = e.val; rw [e0, he]; omega
  | ⟨1, _⟩ => show win0_1.index t (1 : Fin 3) * 512 + 1 * r.val = j.val; rw [e1, hj]; omega
  | ⟨2, _⟩ => show win0_1.index t (2 : Fin 3) * 4096 + 1 * q.val = q.val; rw [e2]; omega

/-! ## The accumulator after every point -/

/-- After point t the accumulator holds the contraction over the tiles 0 … t % 2 for t's expert and row tile. -/
def accAt0 (c : Dev nD) (t : ℕ) (ht : t < 128) : FVec Ideal S256x4096 .f32 :=
  acc1 (X0 V c) (W0 V c) (expOf0 t ht) (rowOf0 t ht) (t % 2)

theorem acc1_congr {X : (⟨3, ![8, 2048, 1024]⟩ : Shape).Idx → EReal} {W : (⟨3, ![8, 1024, 4096]⟩ : Shape).Idx → EReal} {e e' : Fin 8}
    {rows rows' : Fin 256 → Fin 2048} {j j' : ℕ} (he : e = e') (hr : rows = rows') (hj : j = j') :
    acc1 X W e rows j = acc1 X W e' rows' j' := by subst he hr hj; rfl

/-- The blocks of point t are the tile t % 2 of the operands' rows and columns. -/
theorem hx0 (c : Dev nD) (t : Fin cfg0.N) (ht : t.val < 128) (j : ℕ) (hj : t.val % 2 = j) (p : Fin 256) (r : Fin 512) :
    (iblk0 V c 0 t : FVec Ideal S1x256x512 .f32) (ix3 0 p r)
      = X0 V c (ix3 (expOf0 t.val ht) (rowOf0 t.val ht p) (tileIdx (N := 1024) (by decide) j r)) :=
  iblk0_0_apply V c t p r _ _ _ rfl rfl (by rw [tileIdx_val (K := 2) rfl (by decide) j (by omega) r, hj])
theorem hw0 (c : Dev nD) (t : Fin cfg0.N) (ht : t.val < 128) (j : ℕ) (hj : t.val % 2 = j) (r : Fin 512) (q : Fin 4096) :
    (iblk0 V c 1 t : FVec Ideal S1x512x4096 .f32) (ix3 0 r q)
      = W0 V c (ix3 (expOf0 t.val ht) (tileIdx (N := 1024) (by decide) j r) q) :=
  iblk0_1_apply V c t r q _ _ rfl (by rw [tileIdx_val (K := 2) rfl (by decide) j (by omega) r, hj])

/-- One point: if the point before left the accumulator at its partial contraction, so does this one. -/
theorem acc_point0 (c : Dev nD) (t : Fin cfg0.N) (ht : t.val < 128)
    (hprev : t.val ≠ 0 → (outsAt0 V c (t.val - 1) (Nat.lt_of_le_of_lt (Nat.sub_le _ _) t.isLt)).2 = accAt0 V c (t.val - 1) (by omega)) :
    (outsAt0 V c t.val t.isLt).2 = accAt0 V c t.val ht := by
  by_cases h0 : t.val % 2 = 0
  · have h1 : ¬t.val % 2 = 1 := by omega
    rw [outsAt0_A V c t h0 h1]
    dsimp only
    refine (soutA0_eq (F := Ideal) c (grid0.coords t) (ms0_0 t) (hs0_0 t) (ms0_1 t) (hs0_1 t) (ms0_2 t) (hs0_2 t) scM0_0 (Memref.isWhole_whole _) _ _ (iblk0 V c 0 t) (iblk0 V c 1 t)).trans ?_
    refine (acc1_first (X0 V c) (W0 V c) (expOf0 t.val ht) (rowOf0 t.val ht) (iblk0 V c 0 t) (iblk0 V c 1 t)
      (hx0 V c t ht 0 h0) (hw0 V c t ht 0 h0)).trans ?_
    exact acc1_congr rfl rfl h0.symm
  · have hz : t.val ≠ 0 := fun h => h0 (by rw [h])
    have hstep : k0_pay2 (F := Ideal) (iblk0 V c 0 t) (iblk0 V c 1 t) (accAt0 V c (t.val - 1) (by omega)) = accAt0 V c t.val ht := by
      have e1 : accAt0 V c (t.val - 1) (by omega)
          = acc1 (X0 V c) (W0 V c) (expOf0 t.val ht) (rowOf0 t.val ht) (t.val % 2 - 1) :=
        acc1_congr (Fin.ext (by show (t.val - 1) / 16 = t.val / 16; omega))
          (funext fun p => Fin.ext (by show (t.val - 1) / 2 % 8 * 256 + p.val = t.val / 2 % 8 * 256 + p.val; omega)) (by omega)
      rw [e1]
      refine (acc1_step (X0 V c) (W0 V c) (expOf0 t.val ht) (rowOf0 t.val ht) (t.val % 2 - 1) (iblk0 V c 0 t) (iblk0 V c 1 t)
        (hx0 V c t ht _ (by omega)) (hw0 V c t ht _ (by omega))).trans ?_
      exact acc1_congr rfl rfl (by omega)
    by_cases h1 : t.val % 2 = 1
    · rw [outsAt0_C V c t h0 h1]
      dsimp only
      refine (soutC0_eq (F := Ideal) c (grid0.coords t) (ms0_0 t) (hs0_0 t) (ms0_1 t) (hs0_1 t) (ms0_2 t) (hs0_2 t) scM0_0 (Memref.isWhole_whole _) _ _ (iblk0 V c 0 t) (iblk0 V c 1 t) _).trans ?_
      rw [hprev hz]
      exact hstep
    · rw [outsAt0_B V c t h0 h1]
      dsimp only
      refine (soutB0_eq (F := Ideal) c (grid0.coords t) (ms0_0 t) (hs0_0 t) (ms0_1 t) (hs0_1 t) (ms0_2 t) (hs0_2 t) scM0_0 (Memref.isWhole_whole _) _ _ (iblk0 V c 0 t) (iblk0 V c 1 t) _).trans ?_
      rw [hprev hz]
      exact hstep

/-- After every point the accumulator holds its partial contraction. -/
theorem acc_all0 (c : Dev nD) : ∀ (n : ℕ) (hn : n < cfg0.N) (hn' : n < 128), (outsAt0 V c n hn).2 = accAt0 V c n hn'
  | 0, hn, hn' => acc_point0 V c ⟨0, hn⟩ hn' (fun h => absurd rfl h)
  | n + 1, hn, hn' => acc_point0 V c ⟨n + 1, hn⟩ hn' (fun _ => acc_all0 c n (Nat.lt_of_succ_lt hn) (by omega))

/-! ## What is written back, and the array after the stage -/

/-- The stage's result as one function of its operand arrays. -/
abbrev G0 (c : Dev nD) : (⟨3, ![8, 2048, 4096]⟩ : Shape).Idx → EReal := MlpSpec.stage1 (X0 V c) (W0 V c)

/-- What the last tile's point stores in the output block, entry (p, q): the layer's entry at the block's row p. -/
theorem outAt0_apply (c : Dev nD) (t : Fin cfg0.N) (ht : t.val < 128) (h0 : ¬t.val % 2 = 0) (h1 : t.val % 2 = 1)
    (p : Fin 256) (q : Fin 4096) :
    ((outsAt0 V c t.val t.isLt).1 : FVec Ideal S1x256x4096 .bf16) (ix3 0 p q)
      = G0 V c (ix3 (expOf0 t.val ht) (rowOf0 t.val ht p) q) := by
  have hacc := acc_all0 V c t.val t.isLt ht
  rw [outsAt0_C V c t h0 h1] at hacc ⊢
  dsimp only at hacc ⊢
  rw [soutC0_eq (F := Ideal) c (grid0.coords t) (ms0_0 t) (hs0_0 t) (ms0_1 t) (hs0_1 t) (ms0_2 t) (hs0_2 t) scM0_0 (Memref.isWhole_whole _) _ _ (iblk0 V c 0 t) (iblk0 V c 1 t) _] at hacc
  rw [outC0_eq (F := Ideal) c (grid0.coords t) (ms0_0 t) (hs0_0 t) (ms0_1 t) (hs0_1 t) (ms0_2 t) (hs0_2 t) scM0_0 (Memref.isWhole_whole _) _ _ (iblk0 V c 0 t) (iblk0 V c 1 t) _, hacc]
  have e1 : accAt0 V c t.val ht = acc1 (X0 V c) (W0 V c) (expOf0 t.val ht) (rowOf0 t.val ht) 1 :=
    acc1_congr rfl rfl h1
  rw [e1]
  exact out1_apply (X0 V c) (W0 V c) (expOf0 t.val ht) (rowOf0 t.val ht) p q

end AtIdeal

section AtIdeal
variable (V : (c : Dev nD) → (b : Ref sig .tc) → Buf (Elt Ideal) ((c : Thread nD τ).loc b))

/-- What a last-tile point writes back is its block of the layer. -/
theorem flushed0_eq (c : Dev nD) (t : Fin cfg0.N) (hf : (cfg0.win 2).flush t = true) :
    (dat0 V c).flushed 2 t = ((cfg0.win 2).blk t).view.read (Elt Ideal) (G0 V c) := by
  have ht : t.val < 128 := lt_of_lt_of_eq t.isLt (show cfg0.N = 128 from N_0)
  have h1 : t.val % 2 = 1 := (flush0_2 t).mp hf
  have h0 : ¬t.val % 2 = 0 := by omega
  obtain ⟨-, -, -, -, -, -, e0, e1, e2⟩ := idx_facts0 t
  show (cfg0.win 2).cut (grid0.coords t) ((dat0 V c).after 2 t) = _
  rw [after0_2]
  funext j
  have hj0 : (j 0).val < 1 := (j 0).isLt
  have hj1 : (j 1).val < 256 := (j 1).isLt
  have hj2 : (j 2).val < 4096 := (j 2).isLt
  show ((outsAt0 V c t.val t.isLt).1 : FVec Ideal S1x256x4096 .bf16) ((cfg0.win 2).xinj (grid0.coords t) j)
    = G0 V c (((cfg0.win 2).blk t).view.emb j)
  have hx : (cfg0.win 2).xinj (grid0.coords t) j = ix3 (0 : Fin 1) (⟨(j 1).val, hj1⟩ : Fin 256) (⟨(j 2).val, hj2⟩ : Fin 4096) :=
    funext fun a => Fin.ext (by
      match a with
      | ⟨0, _⟩ => show (j 0).val = 0; omega
      | ⟨1, _⟩ => rfl
      | ⟨2, _⟩ => rfl)
  rw [hx, outAt0_apply V c t ht h0 h1]
  refine congrArg (G0 V c) (funext fun a => Fin.ext ?_)
  match a with
  | ⟨0, _⟩ => show t.val / 16 = win0_2.index t (0 : Fin 3) * 1 + 1 * (j 0).val; rw [e0]; omega
  | ⟨1, _⟩ => show t.val / 2 % 8 * 256 + (j 1).val = win0_2.index t (1 : Fin 3) * 256 + 1 * (j 1).val; rw [e1]; omega
  | ⟨2, _⟩ => show (j 2).val = win0_2.index t (2 : Fin 3) * 4096 + 1 * (j 2).val; rw [e2]; omega

/-- THE ARRAY AFTER THE STAGE: every entry (e, n, h) lies in the block written back at the last tile of expert e and
    row tile n / 256, so the output array ends holding the layer of the two operand arrays. -/
theorem final0 (c : Dev nD) : (dat0 V c).arrAt 2 cfg0.N = G0 V c :=
  (dat0 V c).arrAt_eq_of_cover 2 (G0 V c) (flushed0_eq V c) fun i => by
    have hi0 : (i 0).val < 8 := (i 0).isLt
    have hi1 : (i 1).val < 2048 := (i 1).isLt
    have hi2 : (i 2).val < 4096 := (i 2).isLt
    have hN : cfg0.N = 128 := N_0
    obtain ⟨t, ht⟩ : ∃ t : Fin cfg0.N, t.val = (i 0).val * 16 + (i 1).val / 256 * 2 + 1 :=
      ⟨⟨(i 0).val * 16 + (i 1).val / 256 * 2 + 1, by rw [hN]; omega⟩, rfl⟩
    refine ⟨t, (flush0_2 t).mpr (by omega), ?_⟩
    obtain ⟨-, -, -, -, -, -, e0, e1, e2⟩ := idx_facts0 t
    show i ∈ ((View.whole main_v0).slice (win0_2.rect t)).set
    rw [View.set_slice_whole, Rect.mem_set_unit]
    intro a
    match a with
    | ⟨0, _⟩ =>
      show win0_2.index t (0 : Fin 3) * 1 ≤ (i 0).val ∧ (i 0).val < win0_2.index t (0 : Fin 3) * 1 + 1
      rw [e0]; omega
    | ⟨1, _⟩ =>
      show win0_2.index t (1 : Fin 3) * 256 ≤ (i 1).val ∧ (i 1).val < win0_2.index t (1 : Fin 3) * 256 + 256
      rw [e1]; omega
    | ⟨2, _⟩ =>
      show win0_2.index t (2 : Fin 3) * 4096 ≤ (i 2).val ∧ (i 2).val < win0_2.index t (2 : Fin 3) * 4096 + 4096
      rw [e2]; omega

end AtIdeal

end Cert.KernelIdeal.HandValue

end
-- ==== Proof.KI.R1Value.lean ====
/-
  The value of stage 2 of the perceptron kernel: the array it writes is layer 2 of the two arrays it reads.

  The stage runs on a grid of points (expert, row tile, contraction tile), the contraction tile innermost: 8 tiles of
  512 contracted positions, row tiles of 256 rows, 4096 columns.  Read in three steps.
  * What one step leaves, case by case (tile 0; a middle tile; the last tile), is the step's arithmetic of the blocks
    it loaded: the accumulator becomes its old contents (zero at tile 0) plus the tile's partial product, and at the
    last tile the output block is stored from the accumulator through the leaky rectifier.
  * By induction over the points, after point t the accumulator holds the contraction over the tiles 0 … t mod 8 of
    the rows and expert of t: each operand block is the array read at block index × block size + inner coordinate.
  * So the block written back at a last-tile point is that block of the layer, and since every entry of the output
    array lies in the block of exactly such a point, the array ends holding the layer.
  Only the regrouping of a finite sum into tiles is used; no entry is assumed finite.
-/
import proofs.«174921_j76965813944408_2_alg».proof.Proof.KI.R1Frame
import proofs.«174921_j76965813944408_2_alg».proof.Proof.StageValue
import Idealize.ShloMosaic.Lib.Pipeline.Value
import Idealize.ShloMosaic.Lib.Tactic

noncomputable section

namespace Cert.KernelIdeal.HandValue

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx Cert.KernelIdeal.PayValue Cert.KernelIdeal.StageValue Cert.TileAcc

variable {F : FTy → Type} [FloatOps F]

theorem hz2_1 : (![0, 0] : Fin 2 → Nat) = fun _ => 0 := funext fun a => by fin_cases a <;> rfl
theorem hz3_1 : (![0, 0, 0] : Fin 3 → Nat) = fun _ => 0 := funext fun a => by fin_cases a <;> rfl

/-! ## What each case of the step leaves, as the step's arithmetic of the blocks it read -/

/-- At tile 0 the accumulator is set to zero and then gains the first partial product. -/
theorem soutA1_eq (c : Dev nD) (i : grid1.Coords) (a3 : Memref sig .tc .vmem S1x256x512 .bf16) (h3 : a3.IsWhole)
    (a4 : Memref sig .tc .vmem S1x512x4096 .f32) (h4 : a4.IsWhole) (a5 : Memref sig .tc .vmem S1x256x4096 .bf16) (h5 : a5.IsWhole)
    (a6 : Memref sig .tc .vmem S256x4096 .f32) (h6 : a6.IsWhole) (hc0 : cond1_0 i) (hc1 : ¬cond1_1 i) (x0 : Vec F S1x256x512 .bf16) (x1 : Vec F S1x512x4096 .f32) :
    sout1_A_0 c i a3 h3 a4 h4 a5 h5 a6 h6 hc0 hc1 x0 x1 = k1_pay2 x0 x1 k1_pay1 := by
  unfold sout1_A_0
  rw [View.read_writes_eq_canon _ _ _ (scover1_A_0 c i a3 h3 a4 h4 a5 h5 a6 h6 hc0 hc1 x0 x1)]
  unfold kernelRun1_A
  dsimp only
  sl_unfold_words
  rw [View.canon_cons_unit_zero (S := S256x4096) hz2_1, View.readCov_unit_zero (S := S256x4096) _ hz2_1]
  simp only [View.readAt_eq_ld, h3.read_unread, h4.read_unread, View.ld_unit_zero (S := S1x256x512) hz3_1,
    View.ld_unit_zero (S := S1x512x4096) hz3_1]

/-- At a middle tile the accumulator gains that tile's partial product. -/
theorem soutB1_eq (c : Dev nD) (i : grid1.Coords) (a3 : Memref sig .tc .vmem S1x256x512 .bf16) (h3 : a3.IsWhole)
    (a4 : Memref sig .tc .vmem S1x512x4096 .f32) (h4 : a4.IsWhole) (a5 : Memref sig .tc .vmem S1x256x4096 .bf16) (h5 : a5.IsWhole)
    (a6 : Memref sig .tc .vmem S256x4096 .f32) (h6 : a6.IsWhole) (hc0 : ¬cond1_0 i) (hc1 : ¬cond1_1 i) (x0 : Vec F S1x256x512 .bf16) (x1 : Vec F S1x512x4096 .f32) (xs0 : Vec F S256x4096 .f32) :
    sout1_B_0 c i a3 h3 a4 h4 a5 h5 a6 h6 hc0 hc1 x0 x1 xs0 = k1_pay2 x0 x1 xs0 := by
  unfold sout1_B_0
  rw [View.read_writes_eq_canon _ _ _ (scover1_B_0 c i a3 h3 a4 h4 a5 h5 a6 h6 hc0 hc1 x0 x1 xs0)]
  unfold kernelRun1_B
  dsimp only
  try sl_unfold_words
  rw [View.canon_unit_zero hz2_1]
  simp only [View.readAt_eq_ld, h3.read_unread, h4.read_unread, h6.read_unread, View.ld_unit_zero (S := S1x256x512) hz3_1,
    View.ld_unit_zero (S := S1x512x4096) hz3_1, View.ld_unit_zero (S := S256x4096) hz2_1]

/-- At the last tile the accumulator gains the last partial product, -/
theorem soutC1_eq (c : Dev nD) (i : grid1.Coords) (a3 : Memref sig .tc .vmem S1x256x512 .bf16) (h3 : a3.IsWhole)
    (a4 : Memref sig .tc .vmem S1x512x4096 .f32) (h4 : a4.IsWhole) (a5 : Memref sig .tc .vmem S1x256x4096 .bf16) (h5 : a5.IsWhole)
    (a6 : Memref sig .tc .vmem S256x4096 .f32) (h6 : a6.IsWhole) (hc0 : ¬cond1_0 i) (hc1 : cond1_1 i) (x0 : Vec F S1x256x512 .bf16) (x1 : Vec F S1x512x4096 .f32) (xs0 : Vec F S256x4096 .f32) :
    sout1_C_0 c i a3 h3 a4 h4 a5 h5 a6 h6 hc0 hc1 x0 x1 xs0 = k1_pay2 x0 x1 xs0 := by
  unfold sout1_C_0
  rw [View.read_writes_eq_canon _ _ _ (scover1_C_0 c i a3 h3 a4 h4 a5 h5 a6 h6 hc0 hc1 x0 x1 xs0)]
  unfold kernelRun1_C
  dsimp only
  try sl_unfold_words
  rw [View.canon_unit_zero hz2_1]
  simp only [View.readAt_eq_ld, h3.read_unread, h4.read_unread, h6.read_unread, View.ld_unit_zero (S := S1x256x512) hz3_1,
    View.ld_unit_zero (S := S1x512x4096) hz3_1, View.ld_unit_zero (S := S256x4096) hz2_1]

/-- and the output block is stored from it. -/
theorem outC1_eq (c : Dev nD) (i : grid1.Coords) (a3 : Memref sig .tc .vmem S1x256x512 .bf16) (h3 : a3.IsWhole)
    (a4 : Memref sig .tc .vmem S1x512x4096 .f32) (h4 : a4.IsWhole) (a5 : Memref sig .tc .vmem S1x256x4096 .bf16) (h5 : a5.IsWhole)
    (a6 : Memref sig .tc .vmem S256x4096 .f32) (h6 : a6.IsWhole) (hc0 : ¬cond1_0 i) (hc1 : cond1_1 i) (x0 : Vec F S1x256x512 .bf16) (x1 : Vec F S1x512x4096 .f32) (xs0 : Vec F S256x4096 .f32) :
    out1_C_2 c i a3 h3 a4 h4 a5 h5 a6 h6 hc0 hc1 x0 x1 xs0 = k1_pay3 (k1_pay2 x0 x1 xs0) := by
  unfold out1_C_2
  rw [View.read_writes_eq_canon _ _ _ (cover1_C_2 c i a3 h3 a4 h4 a5 h5 a6 h6 hc0 hc1 x0 x1 xs0)]
  unfold kernelRun1_C
  dsimp only
  try sl_unfold_words
  rw [View.canon_unit_zero hz3_1, View.readCov_unit_zero (S := S256x4096) _ hz2_1]
  simp only [View.readAt_eq_ld, h3.read_unread, h4.read_unread, h6.read_unread, View.ld_unit_zero (S := S1x256x512) hz3_1,
    View.ld_unit_zero (S := S1x512x4096) hz3_1, View.ld_unit_zero (S := S256x4096) hz2_1]

/-! ## Where the blocks of a point sit in the arrays

Point t of the grid is (expert, row tile, contraction tile) = (t / 64, t / 8 % 8, t % 8).  The left operand's block at t
is rows (t / 8 % 8)·256 … of expert t / 64, contracted positions (t % 8)·512 …; the right operand's is those contracted
positions, all columns; the output's is those rows, all columns. -/

theorem idx_facts1 : ∀ t : Fin cfg1.N,
    win1_0.index t (0 : Fin 3) = t.val / 64 ∧ win1_0.index t (1 : Fin 3) = t.val / 8 % 8 ∧ win1_0.index t (2 : Fin 3) = t.val % 8
    ∧ win1_1.index t (0 : Fin 3) = t.val / 64 ∧ win1_1.index t (1 : Fin 3) = t.val % 8 ∧ win1_1.index t (2 : Fin 3) = 0
    ∧ win1_2.index t (0 : Fin 3) = t.val / 64 ∧ win1_2.index t (1 : Fin 3) = t.val / 8 % 8 ∧ win1_2.index t (2 : Fin 3) = 0 :=
  (by decide +kernel : ∀ t : Fin grid1.N, _)

/-- The expert of point t. -/
def expOf1 (t : ℕ) (ht : t < 512) : Fin 8 := ⟨t / 64, by omega⟩
/-- Row p of point t's row tile, as a row of the array. -/
def rowOf1 (t : ℕ) (ht : t < 512) : Fin 256 → Fin 2048 := fun p => ⟨t / 8 % 8 * 256 + p.val, by have := p.isLt; omega⟩

section AtIdeal
variable (V : (c : Dev nD) → (b : Ref sig .tc) → Buf (Elt Ideal) ((c : Thread nD τ).loc b))

/-- The left operand array and the right operand array as the stage finds them. -/
abbrev X1 (c : Dev nD) : (⟨3, ![8, 2048, 4096]⟩ : Shape).Idx → EReal := V c main_v0
abbrev W1 (c : Dev nD) : (⟨3, ![8, 4096, 4096]⟩ : Shape).Idx → EReal := V c main_arg2

/-- The left operand's block at point t, entry (p, r): the array's entry at the block's row p and contracted position r. -/
theorem iblk1_0_apply (c : Dev nD) (t : Fin cfg1.N) (p : Fin 256) (r : Fin 512) (e : Fin 8) (n : Fin 2048) (j : Fin 4096)
    (he : e.val = t.val / 64) (hn : n.val = t.val / 8 % 8 * 256 + p.val) (hj : j.val = t.val % 8 * 512 + r.val) :
    (iblk1 V c 0 t : FVec Ideal S1x256x512 .bf16) (ix3 0 p r) = X1 V c (ix3 e n j) := by
  obtain ⟨e0, e1, e2, -⟩ := idx_facts1 t
  unfold iblk1
  rw [View.read_apply]
  show V c main_v0 _ = V c main_v0 _
  congr 1
  funext a; apply Fin.ext
  match a with
  | ⟨0, _⟩ => show win1_0.index t (0 : Fin 3) * 1 + 1 * 0 = e.val; rw [e0, he]; omega
  | ⟨1, _⟩ => show win1_0.index t (1 : Fin 3) * 256 + 1 * p.val = n.val; rw [e1, hn]; omega
  | ⟨2, _⟩ => show win1_0.index t (2 : Fin 3) * 512 + 1 * r.val = j.val; rw [e2, hj]; omega

/-- The right operand's block at point t, entry (r, q): the array's entry at contracted position r of the tile and column q. -/
theorem iblk1_1_apply (c : Dev nD) (t : Fin cfg1.N) (r : Fin 512) (q : Fin 4096) (e : Fin 8) (j : Fin 4096)
    (he : e.val = t.val / 64) (hj : j.val = t.val % 8 * 512 + r.val) :
    (iblk1 V c 1 t : FVec Ideal S1x512x4096 .f32) (ix3 0 r q) = W1 V c (ix3 e j q) := by
  obtain ⟨-, -, -, e0, e1, e2, -⟩ := idx_facts1 t
  unfold iblk1
  rw [View.read_apply]
  show V c main_arg2 _ = V c main_arg2 _
  congr 1
  funext a; apply Fin.ext
  match a with
  | ⟨0, _⟩ => show win1_1.index t (0 : Fin 3) * 1 + 1 * 0 = e.val; rw [e0, he]; omega
  | ⟨1, _⟩ => show win1_1.index t (1 : Fin 3) * 512 + 1 * r.val = j.val; rw [e1, hj]; omega
  | ⟨2, _⟩ => show win1_1.index t (2 : Fin 3) * 4096 + 1 * q.val = q.val; rw [e2]; omega

/-! ## The accumulator after every point -/

/-- After point t the accumulator holds the contraction over the tiles 0 … t % 8 for t's expert and row tile. -/
def accAt1 (c : Dev nD) (t : ℕ) (ht : t < 512) : FVec Ideal S256x4096 .f32 :=
  acc2 (X1 V c) (W1 V c) (expOf1 t ht) (rowOf1 t ht) (t % 8)

theorem acc2_congr {X : (⟨3, ![8, 2048, 4096]⟩ : Shape).Idx → EReal} {W : (⟨3, ![8, 4096, 4096]⟩ : Shape).Idx → EReal} {e e' : Fin 8}
    {rows rows' : Fin 256 → Fin 2048} {j j' : ℕ} (he : e = e') (hr : rows = rows') (hj : j = j') :
    acc2 X W e rows j = acc2 X W e' rows' j' := by subst he hr hj; rfl

/-- The blocks of point t are the tile t % 8 of the operands' rows and columns. -/
theorem hx1 (c : Dev nD) (t : Fin cfg1.N) (ht : t.val < 512) (j : ℕ) (hj : t.val % 8 = j) (p : Fin 256) (r : Fin 512) :
    (iblk1 V c 0 t : FVec Ideal S1x256x512 .bf16) (ix3 0 p r)
      = X1 V c (ix3 (expOf1 t.val ht) (rowOf1 t.val ht p) (tileIdx (N := 4096) (by decide) j r)) :=
  iblk1_0_apply V c t p r _ _ _ rfl rfl (by rw [tileIdx_val (K := 8) rfl (by decide) j (by omega) r, hj])
theorem hw1 (c : Dev nD) (t : Fin cfg1.N) (ht : t.val < 512) (j : ℕ) (hj : t.val % 8 = j) (r : Fin 512) (q : Fin 4096) :
    (iblk1 V c 1 t : FVec Ideal S1x512x4096 .f32) (ix3 0 r q)
      = W1 V c (ix3 (expOf1 t.val ht) (tileIdx (N := 4096) (by decide) j r) q) :=
  iblk1_1_apply V c t r q _ _ rfl (by rw [tileIdx_val (K := 8) rfl (by decide) j (by omega) r, hj])

/-- One point: if the point before left the accumulator at its partial contraction, so does this one. -/
theorem acc_point1 (c : Dev nD) (t : Fin cfg1.N) (ht : t.val < 512)
    (hprev : t.val ≠ 0 → (outsAt1 V c (t.val - 1) (Nat.lt_of_le_of_lt (Nat.sub_le _ _) t.isLt)).2 = accAt1 V c (t.val - 1) (by omega)) :
    (outsAt1 V c t.val t.isLt).2 = accAt1 V c t.val ht := by
  by_cases h0 : t.val % 8 = 0
  · have h1 : ¬t.val % 8 = 7 := by omega
    rw [outsAt1_A V c t h0 h1]
    dsimp only
    refine (soutA1_eq (F := Ideal) c (grid1.coords t) (ms1_0 t) (hs1_0 t) (ms1_1 t) (hs1_1 t) (ms1_2 t) (hs1_2 t) scM1_0 (Memref.isWhole_whole _) _ _ (iblk1 V c 0 t) (iblk1 V c 1 t)).trans ?_
    refine (acc2_first (X1 V c) (W1 V c) (expOf1 t.val ht) (rowOf1 t.val ht) (iblk1 V c 0 t) (iblk1 V c 1 t)
      (hx1 V c t ht 0 h0) (hw1 V c t ht 0 h0)).trans ?_
    exact acc2_congr rfl rfl h0.symm
  · have hz : t.val ≠ 0 := fun h => h0 (by rw [h])
    have hstep : k1_pay2 (F := Ideal) (iblk1 V c 0 t) (iblk1 V c 1 t) (accAt1 V c (t.val - 1) (by omega)) = accAt1 V c t.val ht := by
      have e1 : accAt1 V c (t.val - 1) (by omega)
          = acc2 (X1 V c) (W1 V c) (expOf1 t.val ht) (rowOf1 t.val ht) (t.val % 8 - 1) :=
        acc2_congr (Fin.ext (by show (t.val - 1) / 64 = t.val / 64; omega))
          (funext fun p => Fin.ext (by show (t.val - 1) / 8 % 8 * 256 + p.val = t.val / 8 % 8 * 256 + p.val; omega)) (by omega)
      rw [e1]
      refine (acc2_step (X1 V c) (W1 V c) (expOf1 t.val ht) (rowOf1 t.val ht) (t.val % 8 - 1) (iblk1 V c 0 t) (iblk1 V c 1 t)
        (hx1 V c t ht _ (by omega)) (hw1 V c t ht _ (by omega))).trans ?_
      exact acc2_congr rfl rfl (by omega)
    by_cases h1 : t.val % 8 = 7
    · rw [outsAt1_C V c t h0 h1]
      dsimp only
      refine (soutC1_eq (F := Ideal) c (grid1.coords t) (ms1_0 t) (hs1_0 t) (ms1_1 t) (hs1_1 t) (ms1_2 t) (hs1_2 t) scM1_0 (Memref.isWhole_whole _) _ _ (iblk1 V c 0 t) (iblk1 V c 1 t) _).trans ?_
      rw [hprev hz]
      exact hstep
    · rw [outsAt1_B V c t h0 h1]
      dsimp only
      refine (soutB1_eq (F := Ideal) c (grid1.coords t) (ms1_0 t) (hs1_0 t) (ms1_1 t) (hs1_1 t) (ms1_2 t) (hs1_2 t) scM1_0 (Memref.isWhole_whole _) _ _ (iblk1 V c 0 t) (iblk1 V c 1 t) _).trans ?_
      rw [hprev hz]
      exact hstep

/-- After every point the accumulator holds its partial contraction. -/
theorem acc_all1 (c : Dev nD) : ∀ (n : ℕ) (hn : n < cfg1.N) (hn' : n < 512), (outsAt1 V c n hn).2 = accAt1 V c n hn'
  | 0, hn, hn' => acc_point1 V c ⟨0, hn⟩ hn' (fun h => absurd rfl h)
  | n + 1, hn, hn' => acc_point1 V c ⟨n + 1, hn⟩ hn' (fun _ => acc_all1 c n (Nat.lt_of_succ_lt hn) (by omega))

/-! ## What is written back, and the array after the stage -/

/-- The stage's result as one function of its operand arrays. -/
abbrev G1 (c : Dev nD) : (⟨3, ![8, 2048, 4096]⟩ : Shape).Idx → EReal := MlpSpec.stage2 (X1 V c) (W1 V c)

/-- What the last tile's point stores in the output block, entry (p, q): the layer's entry at the block's row p. -/
theorem outAt1_apply (c : Dev nD) (t : Fin cfg1.N) (ht : t.val < 512) (h0 : ¬t.val % 8 = 0) (h1 : t.val % 8 = 7)
    (p : Fin 256) (q : Fin 4096) :
    ((outsAt1 V c t.val t.isLt).1 : FVec Ideal S1x256x4096 .bf16) (ix3 0 p q)
      = G1 V c (ix3 (expOf1 t.val ht) (rowOf1 t.val ht p) q) := by
  have hacc := acc_all1 V c t.val t.isLt ht
  rw [outsAt1_C V c t h0 h1] at hacc ⊢
  dsimp only at hacc ⊢
  rw [soutC1_eq (F := Ideal) c (grid1.coords t) (ms1_0 t) (hs1_0 t) (ms1_1 t) (hs1_1 t) (ms1_2 t) (hs1_2 t) scM1_0 (Memref.isWhole_whole _) _ _ (iblk1 V c 0 t) (iblk1 V c 1 t) _] at hacc
  rw [outC1_eq (F := Ideal) c (grid1.coords t) (ms1_0 t) (hs1_0 t) (ms1_1 t) (hs1_1 t) (ms1_2 t) (hs1_2 t) scM1_0 (Memref.isWhole_whole _) _ _ (iblk1 V c 0 t) (iblk1 V c 1 t) _, hacc]
  have e1 : accAt1 V c t.val ht = acc2 (X1 V c) (W1 V c) (expOf1 t.val ht) (rowOf1 t.val ht) 7 :=
    acc2_congr rfl rfl h1
  rw [e1]
  exact out2_apply (X1 V c) (W1 V c) (expOf1 t.val ht) (rowOf1 t.val ht) p q

end AtIdeal

section AtIdeal
variable (V : (c : Dev nD) → (b : Ref sig .tc) → Buf (Elt Ideal) ((c : Thread nD τ).loc b))

/-- What a last-tile point writes back is its block of the layer. -/
theorem flushed1_eq (c : Dev nD) (t : Fin cfg1.N) (hf : (cfg1.win 2).flush t = true) :
    (dat1 V c).flushed 2 t = ((cfg1.win 2).blk t).view.read (Elt Ideal) (G1 V c) := by
  have ht : t.val < 512 := lt_of_lt_of_eq t.isLt (show cfg1.N = 512 from N_1)
  have h1 : t.val % 8 = 7 := (flush1_2 t).mp hf
  have h0 : ¬t.val % 8 = 0 := by omega
  obtain ⟨-, -, -, -, -, -, e0, e1, e2⟩ := idx_facts1 t
  show (cfg1.win 2).cut (grid1.coords t) ((dat1 V c).after 2 t) = _
  rw [after1_2]
  funext j
  have hj0 : (j 0).val < 1 := (j 0).isLt
  have hj1 : (j 1).val < 256 := (j 1).isLt
  have hj2 : (j 2).val < 4096 := (j 2).isLt
  show ((outsAt1 V c t.val t.isLt).1 : FVec Ideal S1x256x4096 .bf16) ((cfg1.win 2).xinj (grid1.coords t) j)
    = G1 V c (((cfg1.win 2).blk t).view.emb j)
  have hx : (cfg1.win 2).xinj (grid1.coords t) j = ix3 (0 : Fin 1) (⟨(j 1).val, hj1⟩ : Fin 256) (⟨(j 2).val, hj2⟩ : Fin 4096) :=
    funext fun a => Fin.ext (by
      match a with
      | ⟨0, _⟩ => show (j 0).val = 0; omega
      | ⟨1, _⟩ => rfl
      | ⟨2, _⟩ => rfl)
  rw [hx, outAt1_apply V c t ht h0 h1]
  refine congrArg (G1 V c) (funext fun a => Fin.ext ?_)
  match a with
  | ⟨0, _⟩ => show t.val / 64 = win1_2.index t (0 : Fin 3) * 1 + 1 * (j 0).val; rw [e0]; omega
  | ⟨1, _⟩ => show t.val / 8 % 8 * 256 + (j 1).val = win1_2.index t (1 : Fin 3) * 256 + 1 * (j 1).val; rw [e1]; omega
  | ⟨2, _⟩ => show (j 2).val = win1_2.index t (2 : Fin 3) * 4096 + 1 * (j 2).val; rw [e2]; omega

/-- THE ARRAY AFTER THE STAGE: every entry (e, n, h) lies in the block written back at the last tile of expert e and
    row tile n / 256, so the output array ends holding the layer of the two operand arrays. -/
theorem final1 (c : Dev nD) : (dat1 V c).arrAt 2 cfg1.N = G1 V c :=
  (dat1 V c).arrAt_eq_of_cover 2 (G1 V c) (flushed1_eq V c) fun i => by
    have hi0 : (i 0).val < 8 := (i 0).isLt
    have hi1 : (i 1).val < 2048 := (i 1).isLt
    have hi2 : (i 2).val < 4096 := (i 2).isLt
    have hN : cfg1.N = 512 := N_1
    obtain ⟨t, ht⟩ : ∃ t : Fin cfg1.N, t.val = (i 0).val * 64 + (i 1).val / 256 * 8 + 7 :=
      ⟨⟨(i 0).val * 64 + (i 1).val / 256 * 8 + 7, by rw [hN]; omega⟩, rfl⟩
    refine ⟨t, (flush1_2 t).mpr (by omega), ?_⟩
    obtain ⟨-, -, -, -, -, -, e0, e1, e2⟩ := idx_facts1 t
    show i ∈ ((View.whole main_v1).slice (win1_2.rect t)).set
    rw [View.set_slice_whole, Rect.mem_set_unit]
    intro a
    match a with
    | ⟨0, _⟩ =>
      show win1_2.index t (0 : Fin 3) * 1 ≤ (i 0).val ∧ (i 0).val < win1_2.index t (0 : Fin 3) * 1 + 1
      rw [e0]; omega
    | ⟨1, _⟩ =>
      show win1_2.index t (1 : Fin 3) * 256 ≤ (i 1).val ∧ (i 1).val < win1_2.index t (1 : Fin 3) * 256 + 256
      rw [e1]; omega
    | ⟨2, _⟩ =>
      show win1_2.index t (2 : Fin 3) * 4096 ≤ (i 2).val ∧ (i 2).val < win1_2.index t (2 : Fin 3) * 4096 + 4096
      rw [e2]; omega

end AtIdeal

end Cert.KernelIdeal.HandValue

end
-- ==== Proof.KI.R2Value.lean ====
/-
  The value of stage 3 of the perceptron kernel: the array it writes is layer 3 of the two arrays it reads.

  The stage runs on a grid of points (expert, row tile, contraction tile), the contraction tile innermost: 4 tiles of
  1024 contracted positions, row tiles of 512 rows, 1024 columns.  Read in three steps.
  * What one step leaves, case by case (tile 0; a middle tile; the last tile), is the step's arithmetic of the blocks
    it loaded: the accumulator becomes its old contents (zero at tile 0) plus the tile's partial product, and at the
    last tile the output block is stored from the accumulator.
  * By induction over the points, after point t the accumulator holds the contraction over the tiles 0 … t mod 4 of
    the rows and expert of t: each operand block is the array read at block index × block size + inner coordinate.
  * So the block written back at a last-tile point is that block of the layer, and since every entry of the output
    array lies in the block of exactly such a point, the array ends holding the layer.
  Only the regrouping of a finite sum into tiles is used; no entry is assumed finite.
-/
import proofs.«174921_j76965813944408_2_alg».proof.Proof.KI.R2Frame
import proofs.«174921_j76965813944408_2_alg».proof.Proof.StageValue
import Idealize.ShloMosaic.Lib.Pipeline.Value
import Idealize.ShloMosaic.Lib.Tactic

noncomputable section

namespace Cert.KernelIdeal.HandValue

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx Cert.KernelIdeal.PayValue Cert.KernelIdeal.StageValue Cert.TileAcc

variable {F : FTy → Type} [FloatOps F]

theorem hz2_2 : (![0, 0] : Fin 2 → Nat) = fun _ => 0 := funext fun a => by fin_cases a <;> rfl
theorem hz3_2 : (![0, 0, 0] : Fin 3 → Nat) = fun _ => 0 := funext fun a => by fin_cases a <;> rfl

/-! ## What each case of the step leaves, as the step's arithmetic of the blocks it read -/

/-- At tile 0 the accumulator is set to zero and then gains the first partial product. -/
theorem soutA2_eq (c : Dev nD) (i : grid2.Coords) (a3 : Memref sig .tc .vmem S1x512x1024 .bf16) (h3 : a3.IsWhole)
    (a4 : Memref sig .tc .vmem S1x1024x1024 .f32) (h4 : a4.IsWhole) (a5 : Memref sig .tc .vmem S1x512x1024 .f32) (h5 : a5.IsWhole)
    (a6 : Memref sig .tc .vmem S512x1024 .f32) (h6 : a6.IsWhole) (hc0 : cond2_0 i) (hc1 : ¬cond2_1 i) (x0 : Vec F S1x512x1024 .bf16) (x1 : Vec F S1x1024x1024 .f32) :
    sout2_A_0 c i a3 h3 a4 h4 a5 h5 a6 h6 hc0 hc1 x0 x1 = k2_pay2 x0 x1 k2_pay1 := by
  unfold sout2_A_0
  rw [View.read_writes_eq_canon _ _ _ (scover2_A_0 c i a3 h3 a4 h4 a5 h5 a6 h6 hc0 hc1 x0 x1)]
  unfold kernelRun2_A
  dsimp only
  sl_unfold_words
  rw [View.canon_cons_unit_zero (S := S512x1024) hz2_2, View.readCov_unit_zero (S := S512x1024) _ hz2_2]
  simp only [View.readAt_eq_ld, h3.read_unread, h4.read_unread, View.ld_unit_zero (S := S1x512x1024) hz3_2,
    View.ld_unit_zero (S := S1x1024x1024) hz3_2]

/-- At a middle tile the accumulator gains that tile's partial product. -/
theorem soutB2_eq (c : Dev nD) (i : grid2.Coords) (a3 : Memref sig .tc .vmem S1x512x1024 .bf16) (h3 : a3.IsWhole)
    (a4 : Memref sig .tc .vmem S1x1024x1024 .f32) (h4 : a4.IsWhole) (a5 : Memref sig .tc .vmem S1x512x1024 .f32) (h5 : a5.IsWhole)
    (a6 : Memref sig .tc .vmem S512x1024 .f32) (h6 : a6.IsWhole) (hc0 : ¬cond2_0 i) (hc1 : ¬cond2_1 i) (x0 : Vec F S1x512x1024 .bf16) (x1 : Vec F S1x1024x1024 .f32) (xs0 : Vec F S512x1024 .f32) :
    sout2_B_0 c i a3 h3 a4 h4 a5 h5 a6 h6 hc0 hc1 x0 x1 xs0 = k2_pay2 x0 x1 xs0 := by
  unfold sout2_B_0
  rw [View.read_writes_eq_canon _ _ _ (scover2_B_0 c i a3 h3 a4 h4 a5 h5 a6 h6 hc0 hc1 x0 x1 xs0)]
  unfold kernelRun2_B
  dsimp only
  try sl_unfold_words
  rw [View.canon_unit_zero hz2_2]
  simp only [View.readAt_eq_ld, h3.read_unread, h4.read_unread, h6.read_unread, View.ld_unit_zero (S := S1x512x1024) hz3_2,
    View.ld_unit_zero (S := S1x1024x1024) hz3_2, View.ld_unit_zero (S := S512x1024) hz2_2]

/-- At the last tile the accumulator gains the last partial product, -/
theorem soutC2_eq (c : Dev nD) (i : grid2.Coords) (a3 : Memref sig .tc .vmem S1x512x1024 .bf16) (h3 : a3.IsWhole)
    (a4 : Memref sig .tc .vmem S1x1024x1024 .f32) (h4 : a4.IsWhole) (a5 : Memref sig .tc .vmem S1x512x1024 .f32) (h5 : a5.IsWhole)
    (a6 : Memref sig .tc .vmem S512x1024 .f32) (h6 : a6.IsWhole) (hc0 : ¬cond2_0 i) (hc1 : cond2_1 i) (x0 : Vec F S1x512x1024 .bf16) (x1 : Vec F S1x1024x1024 .f32) (xs0 : Vec F S512x1024 .f32) :
    sout2_C_0 c i a3 h3 a4 h4 a5 h5 a6 h6 hc0 hc1 x0 x1 xs0 = k2_pay2 x0 x1 xs0 := by
  unfold sout2_C_0
  rw [View.read_writes_eq_canon _ _ _ (scover2_C_0 c i a3 h3 a4 h4 a5 h5 a6 h6 hc0 hc1 x0 x1 xs0)]
  unfold kernelRun2_C
  dsimp only
  try sl_unfold_words
  rw [View.canon_unit_zero hz2_2]
  simp only [View.readAt_eq_ld, h3.read_unread, h4.read_unread, h6.read_unread, View.ld_unit_zero (S := S1x512x1024) hz3_2,
    View.ld_unit_zero (S := S1x1024x1024) hz3_2, View.ld_unit_zero (S := S512x1024) hz2_2]

/-- and the output block is stored from it. -/
theorem outC2_eq (c : Dev nD) (i : grid2.Coords) (a3 : Memref sig .tc .vmem S1x512x1024 .bf16) (h3 : a3.IsWhole)
    (a4 : Memref sig .tc .vmem S1x1024x1024 .f32) (h4 : a4.IsWhole) (a5 : Memref sig .tc .vmem S1x512x1024 .f32) (h5 : a5.IsWhole)
    (a6 : Memref sig .tc .vmem S512x1024 .f32) (h6 : a6.IsWhole) (hc0 : ¬cond2_0 i) (hc1 : cond2_1 i) (x0 : Vec F S1x512x1024 .bf16) (x1 : Vec F S1x1024x1024 .f32) (xs0 : Vec F S512x1024 .f32) :
    out2_C_2 c i a3 h3 a4 h4 a5 h5 a6 h6 hc0 hc1 x0 x1 xs0 = k2_pay3 (k2_pay2 x0 x1 xs0) := by
  unfold out2_C_2
  rw [View.read_writes_eq_canon _ _ _ (cover2_C_2 c i a3 h3 a4 h4 a5 h5 a6 h6 hc0 hc1 x0 x1 xs0)]
  unfold kernelRun2_C
  dsimp only
  try sl_unfold_words
  rw [View.canon_unit_zero hz3_2, View.readCov_unit_zero (S := S512x1024) _ hz2_2]
  simp only [View.readAt_eq_ld, h3.read_unread, h4.read_unread, h6.read_unread, View.ld_unit_zero (S := S1x512x1024) hz3_2,
    View.ld_unit_zero (S := S1x1024x1024) hz3_2, View.ld_unit_zero (S := S512x1024) hz2_2]

/-! ## Where the blocks of a point sit in the arrays

Point t of the grid is (expert, row tile, contraction tile) = (t / 16, t / 4 % 4, t % 4).  The left operand's block at t
is rows (t / 4 % 4)·512 … of expert t / 16, contracted positions (t % 4)·1024 …; the right operand's is those contracted
positions, all columns; the output's is those rows, all columns. -/

theorem idx_facts2 : ∀ t : Fin cfg2.N,
    win2_0.index t (0 : Fin 3) = t.val / 16 ∧ win2_0.index t (1 : Fin 3) = t.val / 4 % 4 ∧ win2_0.index t (2 : Fin 3) = t.val % 4
    ∧ win2_1.index t (0 : Fin 3) = t.val / 16 ∧ win2_1.index t (1 : Fin 3) = t.val % 4 ∧ win2_1.index t (2 : Fin 3) = 0
    ∧ win2_2.index t (0 : Fin 3) = t.val / 16 ∧ win2_2.index t (1 : Fin 3) = t.val / 4 % 4 ∧ win2_2.index t (2 : Fin 3) = 0 :=
  (by decide +kernel : ∀ t : Fin grid2.N, _)

/-- The expert of point t. -/
def expOf2 (t : ℕ) (ht : t < 128) : Fin 8 := ⟨t / 16, by omega⟩
/-- Row p of point t's row tile, as a row of the array. -/
def rowOf2 (t : ℕ) (ht : t < 128) : Fin 512 → Fin 2048 := fun p => ⟨t / 4 % 4 * 512 + p.val, by have := p.isLt; omega⟩

section AtIdeal
variable (V : (c : Dev nD) → (b : Ref sig .tc) → Buf (Elt Ideal) ((c : Thread nD τ).loc b))

/-- The left operand array and the right operand array as the stage finds them. -/
abbrev X2 (c : Dev nD) : (⟨3, ![8, 2048, 4096]⟩ : Shape).Idx → EReal := V c main_v1
abbrev W2 (c : Dev nD) : (⟨3, ![8, 4096, 1024]⟩ : Shape).Idx → EReal := V c main_arg3

/-- The left operand's block at point t, entry (p, r): the array's entry at the block's row p and contracted position r. -/
theorem iblk2_0_apply (c : Dev nD) (t : Fin cfg2.N) (p : Fin 512) (r : Fin 1024) (e : Fin 8) (n : Fin 2048) (j : Fin 4096)
    (he : e.val = t.val / 16) (hn : n.val = t.val / 4 % 4 * 512 + p.val) (hj : j.val = t.val % 4 * 1024 + r.val) :
    (iblk2 V c 0 t : FVec Ideal S1x512x1024 .bf16) (ix3 0 p r) = X2 V c (ix3 e n j) := by
  obtain ⟨e0, e1, e2, -⟩ := idx_facts2 t
  unfold iblk2
  rw [View.read_apply]
  show V c main_v1 _ = V c main_v1 _
  congr 1
  funext a; apply Fin.ext
  match a with
  | ⟨0, _⟩ => show win2_0.index t (0 : Fin 3) * 1 + 1 * 0 = e.val; rw [e0, he]; omega
  | ⟨1, _⟩ => show win2_0.index t (1 : Fin 3) * 512 + 1 * p.val = n.val; rw [e1, hn]; omega
  | ⟨2, _⟩ => show win2_0.index t (2 : Fin 3) * 1024 + 1 * r.val = j.val; rw [e2, hj]; omega

/-- The right operand's block at point t, entry (r, q): the array's entry at contracted position r of the tile and column q. -/
theorem iblk2_1_apply (c : Dev nD) (t : Fin cfg2.N) (r : Fin 1024) (q : Fin 1024) (e : Fin 8) (j : Fin 4096)
    (he : e.val = t.val / 16) (hj : j.val = t.val % 4 * 1024 + r.val) :
    (iblk2 V c 1 t : FVec Ideal S1x1024x1024 .f32) (ix3 0 r q) = W2 V c (ix3 e j q) := by
  obtain ⟨-, -, -, e0, e1, e2, -⟩ := idx_facts2 t
  unfold iblk2
  rw [View.read_apply]
  show V c main_arg3 _ = V c main_arg3 _
  congr 1
  funext a; apply Fin.ext
  match a with
  | ⟨0, _⟩ => show win2_1.index t (0 : Fin 3) * 1 + 1 * 0 = e.val; rw [e0, he]; omega
  | ⟨1, _⟩ => show win2_1.index t (1 : Fin 3) * 1024 + 1 * r.val = j.val; rw [e1, hj]; omega
  | ⟨2, _⟩ => show win2_1.index t (2 : Fin 3) * 1024 + 1 * q.val = q.val; rw [e2]; omega

/-! ## The accumulator after every point -/

/-- After point t the accumulator holds the contraction over the tiles 0 … t % 4 for t's expert and row tile. -/
def accAt2 (c : Dev nD) (t : ℕ) (ht : t < 128) : FVec Ideal S512x1024 .f32 :=
  acc3 (X2 V c) (W2 V c) (expOf2 t ht) (rowOf2 t ht) (t % 4)

theorem acc3_congr {X : (⟨3, ![8, 2048, 4096]⟩ : Shape).Idx → EReal} {W : (⟨3, ![8, 4096, 1024]⟩ : Shape).Idx → EReal} {e e' : Fin 8}
    {rows rows' : Fin 512 → Fin 2048} {j j' : ℕ} (he : e = e') (hr : rows = rows') (hj : j = j') :
    acc3 X W e rows j = acc3 X W e' rows' j' := by subst he hr hj; rfl

/-- The blocks of point t are the tile t % 4 of the operands' rows and columns. -/
theorem hx2 (c : Dev nD) (t : Fin cfg2.N) (ht : t.val < 128) (j : ℕ) (hj : t.val % 4 = j) (p : Fin 512) (r : Fin 1024) :
    (iblk2 V c 0 t : FVec Ideal S1x512x1024 .bf16) (ix3 0 p r)
      = X2 V c (ix3 (expOf2 t.val ht) (rowOf2 t.val ht p) (tileIdx (N := 4096) (by decide) j r)) :=
  iblk2_0_apply V c t p r _ _ _ rfl rfl (by rw [tileIdx_val (K := 4) rfl (by decide) j (by omega) r, hj])
theorem hw2 (c : Dev nD) (t : Fin cfg2.N) (ht : t.val < 128) (j : ℕ) (hj : t.val % 4 = j) (r : Fin 1024) (q : Fin 1024) :
    (iblk2 V c 1 t : FVec Ideal S1x1024x1024 .f32) (ix3 0 r q)
      = W2 V c (ix3 (expOf2 t.val ht) (tileIdx (N := 4096) (by decide) j r) q) :=
  iblk2_1_apply V c t r q _ _ rfl (by rw [tileIdx_val (K := 4) rfl (by decide) j (by omega) r, hj])

/-- One point: if the point before left the accumulator at its partial contraction, so does this one. -/
theorem acc_point2 (c : Dev nD) (t : Fin cfg2.N) (ht : t.val < 128)
    (hprev : t.val ≠ 0 → (outsAt2 V c (t.val - 1) (Nat.lt_of_le_of_lt (Nat.sub_le _ _) t.isLt)).2 = accAt2 V c (t.val - 1) (by omega)) :
    (outsAt2 V c t.val t.isLt).2 = accAt2 V c t.val ht := by
  by_cases h0 : t.val % 4 = 0
  · have h1 : ¬t.val % 4 = 3 := by omega
    rw [outsAt2_A V c t h0 h1]
    dsimp only
    refine (soutA2_eq (F := Ideal) c (grid2.coords t) (ms2_0 t) (hs2_0 t) (ms2_1 t) (hs2_1 t) (ms2_2 t) (hs2_2 t) scM2_0 (Memref.isWhole_whole _) _ _ (iblk2 V c 0 t) (iblk2 V c 1 t)).trans ?_
    refine (acc3_first (X2 V c) (W2 V c) (expOf2 t.val ht) (rowOf2 t.val ht) (iblk2 V c 0 t) (iblk2 V c 1 t)
      (hx2 V c t ht 0 h0) (hw2 V c t ht 0 h0)).trans ?_
    exact acc3_congr rfl rfl h0.symm
  · have hz : t.val ≠ 0 := fun h => h0 (by rw [h])
    have hstep : k2_pay2 (F := Ideal) (iblk2 V c 0 t) (iblk2 V c 1 t) (accAt2 V c (t.val - 1) (by omega)) = accAt2 V c t.val ht := by
      have e1 : accAt2 V c (t.val - 1) (by omega)
          = acc3 (X2 V c) (W2 V c) (expOf2 t.val ht) (rowOf2 t.val ht) (t.val % 4 - 1) :=
        acc3_congr (Fin.ext (by show (t.val - 1) / 16 = t.val / 16; omega))
          (funext fun p => Fin.ext (by show (t.val - 1) / 4 % 4 * 512 + p.val = t.val / 4 % 4 * 512 + p.val; omega)) (by omega)
      rw [e1]
      refine (acc3_step (X2 V c) (W2 V c) (expOf2 t.val ht) (rowOf2 t.val ht) (t.val % 4 - 1) (iblk2 V c 0 t) (iblk2 V c 1 t)
        (hx2 V c t ht _ (by omega)) (hw2 V c t ht _ (by omega))).trans ?_
      exact acc3_congr rfl rfl (by omega)
    by_cases h1 : t.val % 4 = 3
    · rw [outsAt2_C V c t h0 h1]
      dsimp only
      refine (soutC2_eq (F := Ideal) c (grid2.coords t) (ms2_0 t) (hs2_0 t) (ms2_1 t) (hs2_1 t) (ms2_2 t) (hs2_2 t) scM2_0 (Memref.isWhole_whole _) _ _ (iblk2 V c 0 t) (iblk2 V c 1 t) _).trans ?_
      rw [hprev hz]
      exact hstep
    · rw [outsAt2_B V c t h0 h1]
      dsimp only
      refine (soutB2_eq (F := Ideal) c (grid2.coords t) (ms2_0 t) (hs2_0 t) (ms2_1 t) (hs2_1 t) (ms2_2 t) (hs2_2 t) scM2_0 (Memref.isWhole_whole _) _ _ (iblk2 V c 0 t) (iblk2 V c 1 t) _).trans ?_
      rw [hprev hz]
      exact hstep

/-- After every point the accumulator holds its partial contraction. -/
theorem acc_all2 (c : Dev nD) : ∀ (n : ℕ) (hn : n < cfg2.N) (hn' : n < 128), (outsAt2 V c n hn).2 = accAt2 V c n hn'
  | 0, hn, hn' => acc_point2 V c ⟨0, hn⟩ hn' (fun h => absurd rfl h)
  | n + 1, hn, hn' => acc_point2 V c ⟨n + 1, hn⟩ hn' (fun _ => acc_all2 c n (Nat.lt_of_succ_lt hn) (by omega))

/-! ## What is written back, and the array after the stage -/

/-- The stage's result as one function of its operand arrays. -/
abbrev G2 (c : Dev nD) : (⟨3, ![8, 2048, 1024]⟩ : Shape).Idx → EReal := MlpSpec.stage3 (X2 V c) (W2 V c)

/-- What the last tile's point stores in the output block, entry (p, q): the layer's entry at the block's row p. -/
theorem outAt2_apply (c : Dev nD) (t : Fin cfg2.N) (ht : t.val < 128) (h0 : ¬t.val % 4 = 0) (h1 : t.val % 4 = 3)
    (p : Fin 512) (q : Fin 1024) :
    ((outsAt2 V c t.val t.isLt).1 : FVec Ideal S1x512x1024 .f32) (ix3 0 p q)
      = G2 V c (ix3 (expOf2 t.val ht) (rowOf2 t.val ht p) q) := by
  have hacc := acc_all2 V c t.val t.isLt ht
  rw [outsAt2_C V c t h0 h1] at hacc ⊢
  dsimp only at hacc ⊢
  rw [soutC2_eq (F := Ideal) c (grid2.coords t) (ms2_0 t) (hs2_0 t) (ms2_1 t) (hs2_1 t) (ms2_2 t) (hs2_2 t) scM2_0 (Memref.isWhole_whole _) _ _ (iblk2 V c 0 t) (iblk2 V c 1 t) _] at hacc
  rw [outC2_eq (F := Ideal) c (grid2.coords t) (ms2_0 t) (hs2_0 t) (ms2_1 t) (hs2_1 t) (ms2_2 t) (hs2_2 t) scM2_0 (Memref.isWhole_whole _) _ _ (iblk2 V c 0 t) (iblk2 V c 1 t) _, hacc]
  have e1 : accAt2 V c t.val ht = acc3 (X2 V c) (W2 V c) (expOf2 t.val ht) (rowOf2 t.val ht) 3 :=
    acc3_congr rfl rfl h1
  rw [e1]
  exact out3_apply (X2 V c) (W2 V c) (expOf2 t.val ht) (rowOf2 t.val ht) p q

end AtIdeal

section AtIdeal
variable (V : (c : Dev nD) → (b : Ref sig .tc) → Buf (Elt Ideal) ((c : Thread nD τ).loc b))

/-- What a last-tile point writes back is its block of the layer. -/
theorem flushed2_eq (c : Dev nD) (t : Fin cfg2.N) (hf : (cfg2.win 2).flush t = true) :
    (dat2 V c).flushed 2 t = ((cfg2.win 2).blk t).view.read (Elt Ideal) (G2 V c) := by
  have ht : t.val < 128 := lt_of_lt_of_eq t.isLt (show cfg2.N = 128 from N_2)
  have h1 : t.val % 4 = 3 := (flush2_2 t).mp hf
  have h0 : ¬t.val % 4 = 0 := by omega
  obtain ⟨-, -, -, -, -, -, e0, e1, e2⟩ := idx_facts2 t
  show (cfg2.win 2).cut (grid2.coords t) ((dat2 V c).after 2 t) = _
  rw [after2_2]
  funext j
  have hj0 : (j 0).val < 1 := (j 0).isLt
  have hj1 : (j 1).val < 512 := (j 1).isLt
  have hj2 : (j 2).val < 1024 := (j 2).isLt
  show ((outsAt2 V c t.val t.isLt).1 : FVec Ideal S1x512x1024 .f32) ((cfg2.win 2).xinj (grid2.coords t) j)
    = G2 V c (((cfg2.win 2).blk t).view.emb j)
  have hx : (cfg2.win 2).xinj (grid2.coords t) j = ix3 (0 : Fin 1) (⟨(j 1).val, hj1⟩ : Fin 512) (⟨(j 2).val, hj2⟩ : Fin 1024) :=
    funext fun a => Fin.ext (by
      match a with
      | ⟨0, _⟩ => show (j 0).val = 0; omega
      | ⟨1, _⟩ => rfl
      | ⟨2, _⟩ => rfl)
  rw [hx, outAt2_apply V c t ht h0 h1]
  refine congrArg (G2 V c) (funext fun a => Fin.ext ?_)
  match a with
  | ⟨0, _⟩ => show t.val / 16 = win2_2.index t (0 : Fin 3) * 1 + 1 * (j 0).val; rw [e0]; omega
  | ⟨1, _⟩ => show t.val / 4 % 4 * 512 + (j 1).val = win2_2.index t (1 : Fin 3) * 512 + 1 * (j 1).val; rw [e1]; omega
  | ⟨2, _⟩ => show (j 2).val = win2_2.index t (2 : Fin 3) * 1024 + 1 * (j 2).val; rw [e2]; omega

/-- THE ARRAY AFTER THE STAGE: every entry (e, n, h) lies in the block written back at the last tile of expert e and
    row tile n / 512, so the output array ends holding the layer of the two operand arrays. -/
theorem final2 (c : Dev nD) : (dat2 V c).arrAt 2 cfg2.N = G2 V c :=
  (dat2 V c).arrAt_eq_of_cover 2 (G2 V c) (flushed2_eq V c) fun i => by
    have hi0 : (i 0).val < 8 := (i 0).isLt
    have hi1 : (i 1).val < 2048 := (i 1).isLt
    have hi2 : (i 2).val < 1024 := (i 2).isLt
    have hN : cfg2.N = 128 := N_2
    obtain ⟨t, ht⟩ : ∃ t : Fin cfg2.N, t.val = (i 0).val * 16 + (i 1).val / 512 * 4 + 3 :=
      ⟨⟨(i 0).val * 16 + (i 1).val / 512 * 4 + 3, by rw [hN]; omega⟩, rfl⟩
    refine ⟨t, (flush2_2 t).mpr (by omega), ?_⟩
    obtain ⟨-, -, -, -, -, -, e0, e1, e2⟩ := idx_facts2 t
    show i ∈ ((View.whole main_v2).slice (win2_2.rect t)).set
    rw [View.set_slice_whole, Rect.mem_set_unit]
    intro a
    match a with
    | ⟨0, _⟩ =>
      show win2_2.index t (0 : Fin 3) * 1 ≤ (i 0).val ∧ (i 0).val < win2_2.index t (0 : Fin 3) * 1 + 1
      rw [e0]; omega
    | ⟨1, _⟩ =>
      show win2_2.index t (1 : Fin 3) * 512 ≤ (i 1).val ∧ (i 1).val < win2_2.index t (1 : Fin 3) * 512 + 512
      rw [e1]; omega
    | ⟨2, _⟩ =>
      show win2_2.index t (2 : Fin 3) * 1024 ≤ (i 2).val ∧ (i 2).val < win2_2.index t (2 : Fin 3) * 1024 + 1024
      rw [e2]; omega

end AtIdeal

end Cert.KernelIdeal.HandValue

end
-- ==== Proof.lean ====
/-
  Three chained stages of one batched three-layer perceptron, eight experts at a time: each stage multiplies a
  block of rows by a weight matrix, accumulating the contraction tile by tile (the accumulator restarts from zero at
  the first tile and the output block is stored at the last), the first two stages followed by the leaky rectifier
  a ↦ a if 0 ≤ a, else c · a with the slope word c. Against it stands the plain composition of three whole
  contractions with the same rectifier. Over the extended reals a format change is the identity and a finite sum may
  be regrouped freely, so stage by stage the two sides are one function of the argument arrays; no finiteness of the
  inputs is needed.

  Frames: each stage kernel is run case by case (first tile, middle tile, last tile); what the accumulator and the output
  block hold after every grid point is a recursion on the point; the three stages are composed in order, each
  entered from the buffers the stage before left. The same text proves the word-level program's frame.
  Values: the array each stage leaves is the stage's whole-array function of the arrays it was entered with; the
  reference's result is the same composition.
-/
import proofs.«174921_j76965813944408_2_alg».proof.Defs
import proofs.«174921_j76965813944408_2_alg».proof.Proof.Gen.Kernel
import proofs.«174921_j76965813944408_2_alg».proof.Proof.Gen.KernelIdeal
import proofs.«174921_j76965813944408_2_alg».proof.Proof.Gen.ReferenceIdeal
import proofs.«174921_j76965813944408_2_alg».proof.Proof.Gen.ReferenceIdeal.Run
import proofs.«174921_j76965813944408_2_alg».proof.Proof.Gen.ReferenceIdeal.Read
import proofs.«174921_j76965813944408_2_alg».proof.Proof.Gen.Pre_finite_inputs
import proofs.«174921_j76965813944408_2_alg».proof.Proof.KB.Run
import proofs.«174921_j76965813944408_2_alg».proof.Proof.KI.Run
import proofs.«174921_j76965813944408_2_alg».proof.Proof.MlpSpec
import proofs.«174921_j76965813944408_2_alg».proof.Proof.RefValue
import proofs.«174921_j76965813944408_2_alg».proof.Proof.KI.R0Value
import proofs.«174921_j76965813944408_2_alg».proof.Proof.KI.R1Value
import proofs.«174921_j76965813944408_2_alg».proof.Proof.KI.R2Value
import Idealize.ShloMosaic.Adequacy
import Idealize.ShloMosaic.Init

noncomputable section

namespace Cert.Proof

open Idealize.ShloMosaic Idealize.ShloMosaic.TcCoe Idealize.SL.Sem

/-- The word-level program runs to the end, faults nowhere and leaves its four arguments as launched. -/
theorem frame_p : Cert.frame_Kernel (hKernel := Cert.Kernel.Gen.facts) (hPre_finite_inputs := Cert.Pre_finite_inputs.Gen.facts) :=
  fun m ρ _ => Cert.Kernel.Hand.frame (F := Bits) m ρ

/-- So does its reading over the extended reals. -/
theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Nothing was rewritten when the program was read over the extended reals. -/
theorem preserves : Cert.preserves_Kernel_KernelIdeal := trivial

section Value

open Cert.KernelIdeal Cert.KernelIdeal.Gen Cert.KernelIdeal.Hand Cert.KernelIdeal.HandValue

variable (m : (ℓ : Loc Cert.KernelIdeal.nD Cert.KernelIdeal.τ Cert.KernelIdeal.sig) → Buf (Elt Ideal) ℓ) (ρ : Dev Cert.KernelIdeal.nD → PrngReg)

/-- The whole function: the three stages composed, of the launch contents of the four arguments. -/
def result (c : Dev Cert.KernelIdeal.nD) : (⟨3, ![8, 2048, 1024]⟩ : Shape).Idx → EReal :=
  Cert.MlpSpec.mlp (m ((c.tc : Thread nD τ).loc main_arg0)) (m ((c.tc : Thread nD τ).loc main_arg1))
    (m ((c.tc : Thread nD τ).loc main_arg2)) (m ((c.tc : Thread nD τ).loc main_arg3))

/-- What the last stage leaves in the result array: stage 3 of what stage 2 left, which is stage 2 of what stage 1
    left; the weight arrays reach their stages as launched, since no stage writes them. -/
theorem kernel_value (c : Dev Cert.KernelIdeal.nD) :
    (dat2 (F := Ideal) (Vv2 m ρ) c).arrAt 2 cfg2.N = result m c := by
  have e0 : Vv1 m ρ c main_v0 = Cert.MlpSpec.stage1 (m ((c.tc : Thread nD τ).loc main_arg0)) (m ((c.tc : Thread nD τ).loc main_arg1)) :=
    (W1_arr m ρ c 2).trans (final0 (Vv0 m ρ) c)
  have a2 : Vv1 m ρ c main_arg2 = m ((c.tc : Thread nD τ).loc main_arg2) := W1_of_ne m ρ c main_arg2 (by decide)
  have e1 : Vv2 m ρ c main_v1 = Cert.MlpSpec.stage2 (Vv1 m ρ c main_v0) (Vv1 m ρ c main_arg2) :=
    (W2_arr m ρ c 2).trans (final1 (Vv1 m ρ) c)
  have a3 : Vv2 m ρ c main_arg3 = m ((c.tc : Thread nD τ).loc main_arg3) :=
    (W2_of_ne m ρ c main_arg3 (by decide)).trans (W1_of_ne m ρ c main_arg3 (by decide))
  refine (final2 (Vv2 m ρ) c).trans ?_
  show Cert.MlpSpec.stage3 (Vv2 m ρ c main_v1) (Vv2 m ρ c main_arg3) = _
  rw [e1, a3, e0, a2]; rfl

end Value

/-- Over the extended reals, from memories agreeing on the four arguments, both programs end with the result array at
    the three stages composed: the kernel's by `kernel_value`, the reference's because its composed term is that
    composition, contraction by contraction. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => result m c, ?_, ?_⟩
  · exact (θ_run Cert.KernelIdeal.defs _ _).mono (fun _ h c => ⟨(h c).1.trans (kernel_value m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v12_eq _ _ _ _).trans (Cert.ReferenceIdeal.RefValue.ref_eq _ _ _ _)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
